-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x768 : Shape := ⟨2, ![128, 768]⟩
abbrev S128x196x768 : Shape := ⟨3, ![128, 196, 768]⟩
abbrev S128x32x768 : Shape := ⟨3, ![128, 32, 768]⟩
abbrev S128 : Shape := ⟨1, ![128]⟩
abbrev S_ : Shape := ⟨0, ![]⟩

class Facts : Prop where
  bcast_S_S128x768 : S_.BroadcastsInDim S128x768 (![] : Fin 0 → Fin S128x768.rank)
  reducesTo_S128x768_S_d0_1 : S128x768.ReducesTo [0, 1] S_
  h_S_ : 0 < S_.numel
  bcast_S_S128x196x768 : S_.BroadcastsInDim S128x196x768 (![] : Fin 0 → Fin S128x196x768.rank)
  reducesTo_S128x196x768_S_d0_1_2 : S128x196x768.ReducesTo [0, 1, 2] S_
  bcast_S_S128x32x768 : S_.BroadcastsInDim S128x32x768 (![] : Fin 0 → Fin S128x32x768.rank)
  reducesTo_S128x32x768_S_d0_1_2 : S128x32x768.ReducesTo [0, 1, 2] S_
  reducesTo_S_S_d : S_.ReducesTo [] S_

variable [Facts]

def fn_part1 {F : FTy → Type} [FloatOps F] (main_arg5 : FVec F S_ .f32) (main_arg6 : FVec F S_ .f32) (main_v13 : IVec S_ 1) (main_v16 : IVec S128x32x768 1) : IVec S_ 1 :=
  let main_c_5 : IVec S_ 1 := constantI S_ 1 1#1
  let main_v17 : IVec S_ 1 := (fun x v => Host.reduce IntOp.andi x v reducesTo_S128x32x768_S_d0_1_2 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S_ .f32 := Host.absf main_arg6
  let main_cst_8 : FVec F S_ .f32 := constant S_ .f32 0x7F800000#32
  let main_v24 : IVec S_ 1 := cmpf .olt main_v23 main_cst_8
  let main_c_9 : IVec S_ 1 := constantI S_ 1 1#1
  let main_v25 : IVec S_ 1 := (fun x v => Host.reduce IntOp.andi x v reducesTo_S_S_d h_S_) main_v24 main_c_9
  let main_v26 : IVec S_ 1 := andi main_v22 main_v25
  main_v26

def fn {F : FTy → Type} [FloatOps F] (main_arg0 : FVec F S128x768 .f32) (main_arg1 : FVec F S128x768 .f32) (main_arg2 : FVec F S128x196x768 .f32) (main_arg3 : FVec F S128x32x768 .f32) (main_arg4 : IVec S128 32) (main_arg5 : FVec F S_ .f32) (main_arg6 : FVec F S_ .f32) : IVec S_ 1 :=
  let main_v0 : FVec F S128x768 .f32 := Host.absf main_arg0
  let main_cst : FVec F S_ .f32 := constant S_ .f32 0x7F800000#32
  let main_v1 : FVec F S128x768 .f32 := broadcastInDim S128x768 ![] bcast_S_S128x768 main_cst
  let main_v2 : IVec S128x768 1 := cmpf .olt main_v0 main_v1
  let main_c : IVec S_ 1 := constantI S_ 1 1#1
  let main_v3 : IVec S_ 1 := (fun x v => Host.reduce IntOp.andi x v reducesTo_S128x768_S_d0_1 h_S_) main_v2 main_c
  let main_v4 : FVec F S128x768 .f32 := Host.absf main_arg1
  let main_cst_0 : FVec F S_ .f32 := constant S_ .f32 0x7F800000#32
  let main_v5 : FVec F S128x768 .f32 := broadcastInDim S128x768 ![] bcast_S_S128x768 main_cst_0
  let main_v6 : IVec S128x768 1 := cmpf .olt main_v4 main_v5
  let main_c_1 : IVec S_ 1 := constantI S_ 1 1#1
  let main_v7 : IVec S_ 1 := (fun x v => Host.reduce IntOp.andi x v reducesTo_S128x768_S_d0_1 h_S_) main_v6 main_c_1
  let main_v8 : IVec S_ 1 := andi main_v3 main_v7
  let main_v9 : FVec F S128x196x768 .f32 := Host.absf main_arg2
  let main_cst_2 : FVec F S_ .f32 := constant S_ .f32 0x7F800000#32
  let main_v10 : FVec F S128x196x768 .f32 := broadcastInDim S128x196x768 ![] bcast_S_S128x196x768 main_cst_2
  let main_v11 : IVec S128x196x768 1 := cmpf .olt main_v9 main_v10
  let main_c_3 : IVec S_ 1 := constantI S_ 1 1#1
  let main_v12 : IVec S_ 1 := (fun x v => Host.reduce IntOp.andi x v reducesTo_S128x196x768_S_d0_1_2 h_S_) main_v11 main_c_3
  let main_v13 : IVec S_ 1 := andi main_v8 main_v12
  let main_v14 : FVec F S128x32x768 .f32 := Host.absf main_arg3
  let main_cst_4 : FVec F S_ .f32 := constant S_ .f32 0x7F800000#32
  let main_v15 : FVec F S128x32x768 .f32 := broadcastInDim S128x32x768 ![] bcast_S_S128x32x768 main_cst_4
  let main_v16 : IVec S128x32x768 1 := cmpf .olt main_v14 main_v15
  fn_part1 (F := F) main_arg5 main_arg6 main_v13 main_v16
-- ==== Kernel.lean ====
abbrev S128x768 : Shape := ⟨2, ![128, 768]⟩
abbrev S128x196x768 : Shape := ⟨3, ![128, 196, 768]⟩
abbrev S128x32x768 : Shape := ⟨3, ![128, 32, 768]⟩
abbrev S128 : Shape := ⟨1, ![128]⟩
abbrev S_ : Shape := ⟨0, ![]⟩
abbrev S128x128 : Shape := ⟨2, ![128, 128]⟩
abbrev S128x1 : Shape := ⟨2, ![128, 1]⟩
abbrev S768x128 : Shape := ⟨2, ![768, 128]⟩
abbrev S32 : Shape := ⟨1, ![32]⟩
abbrev S1x32 : Shape := ⟨2, ![1, 32]⟩
abbrev S128x32 : Shape := ⟨2, ![128, 32]⟩
abbrev S128x32x1 : Shape := ⟨3, ![128, 32, 1]⟩
abbrev S128x1x128 : Shape := ⟨3, ![128, 1, 128]⟩
abbrev S128x32x128 : Shape := ⟨3, ![128, 32, 128]⟩
abbrev S4096x128 : Shape := ⟨2, ![4096, 128]⟩
abbrev S1x128 : Shape := ⟨2, ![1, 128]⟩
abbrev S8x196x768 : Shape := ⟨3, ![8, 196, 768]⟩
abbrev S8x128 : Shape := ⟨2, ![8, 128]⟩
abbrev S8x196 : Shape := ⟨2, ![8, 196]⟩
abbrev S8x196x1 : Shape := ⟨3, ![8, 196, 1]⟩
abbrev S1568x768 : Shape := ⟨2, ![1568, 768]⟩
abbrev S32x32x768 : Shape := ⟨3, ![32, 32, 768]⟩
abbrev S32x32 : Shape := ⟨2, ![32, 32]⟩
abbrev S32x32x1 : Shape := ⟨3, ![32, 32, 1]⟩
abbrev S1024x768 : Shape := ⟨2, ![1024, 768]⟩
abbrev S768x1024 : Shape := ⟨2, ![768, 1024]⟩
abbrev S1568x1024 : Shape := ⟨2, ![1568, 1024]⟩
abbrev S8x196x1024 : Shape := ⟨3, ![8, 196, 1024]⟩
abbrev S8x1024 : Shape := ⟨2, ![8, 1024]⟩
abbrev S1024x128 : Shape := ⟨2, ![1024, 128]⟩

abbrev nBuf : Space → Nat
  | .hbm => 136
  | .vmem => 10
  | .smem => 0
  | _ => 0

abbrev hbmTy0_0 (i : Nat) : BufTy := match i % 128 with
  | 0 => ⟨S128x768, .f32⟩
  | 1 => ⟨S128x768, .f32⟩
  | 2 => ⟨S128x196x768, .f32⟩
  | 3 => ⟨S128x32x768, .f32⟩
  | 4 => ⟨S128, .i32⟩
  | 5 => ⟨S_, .f32⟩
  | 6 => ⟨S_, .f32⟩
  | 7 => ⟨S128x128, .f32⟩
  | 8 => ⟨S32, .i32⟩
  | 9 => ⟨S1x32, .i32⟩
  | 10 => ⟨S128x1, .i32⟩
  | 11 => ⟨S128x32, .i32⟩
  | 12 => ⟨S128x32, .i32⟩
  | 13 => ⟨S128x32, .i1⟩
  | 14 => ⟨S128x32, .f32⟩
  | 15 => ⟨S128x128, .i32⟩
  | 16 => ⟨S128x128, .i32⟩
  | 17 => ⟨S_, .i32⟩
  | 18 => ⟨S128x128, .i32⟩
  | 19 => ⟨S128x128, .i32⟩
  | 20 => ⟨S128x128, .i1⟩
  | 21 => ⟨S128x128, .f32⟩
  | 22 => ⟨S128x32x1, .f32⟩
  | 23 => ⟨S128x1x128, .f32⟩
  | 24 => ⟨S128x32x128, .f32⟩
  | 25 => ⟨S128x32x128, .f32⟩
  | 26 => ⟨S128x32x128, .f32⟩
  | 27 => ⟨S4096x128, .f32⟩
  | 28 => ⟨S4096x128, .bf16⟩
  | 29 => ⟨S128, .f32⟩
  | 30 => ⟨S1x128, .f32⟩
  | 31 => ⟨S128x128, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S128x128, .f32⟩
  | 40 => ⟨S128x128, .f32⟩
  | 41 => ⟨S128x128, .f32⟩
  | 42 => ⟨S128x128, .f32⟩
  | 43 => ⟨S128x128, .f32⟩
  | 44 => ⟨S128x128, .f32⟩
  | 45 => ⟨S128x128, .f32⟩
  | 46 => ⟨S128x128, .f32⟩
  | 47 => ⟨S_, .f32⟩
  | 48 => ⟨S_, .f32⟩
  | 49 => ⟨S_, .f32⟩
  | 50 => ⟨S128x128, .f32⟩
  | 51 => ⟨S128x128, .f32⟩
  | 52 => ⟨S_, .f32⟩
  | 53 => ⟨S128x128, .f32⟩
  | 54 => ⟨S128x128, .f32⟩
  | 55 => ⟨S128x128, .i32⟩
  | 56 => ⟨S128x128, .i32⟩
  | 57 => ⟨S_, .i32⟩
  | 58 => ⟨S128x128, .i32⟩
  | 59 => ⟨S128x128, .i32⟩
  | 60 => ⟨S128x128, .i1⟩
  | 61 => ⟨S128x128, .f32⟩
  | 62 => ⟨S_, .f32⟩
  | 63 => ⟨S128x128, .f32⟩
  | 64 => ⟨S128x128, .f32⟩
  | 65 => ⟨S_, .f32⟩
  | 66 => ⟨S128x128, .f32⟩
  | 67 => ⟨S128x128, .f32⟩
  | 68 => ⟨S128x128, .f32⟩
  | 69 => ⟨S128x128, .f32⟩
  | 70 => ⟨S_, .f32⟩
  | 71 => ⟨S128x128, .f32⟩
  | 72 => ⟨S128x128, .f32⟩
  | 73 => ⟨S128x128, .f32⟩
  | 74 => ⟨S128x128, .f32⟩
  | 75 => ⟨S128x128, .i1⟩
  | 76 => ⟨S128x128, .f32⟩
  | 77 => ⟨S128x128, .f32⟩
  | 78 => ⟨S128x128, .f32⟩
  | 79 => ⟨S128x128, .f32⟩
  | 80 => ⟨S128x128, .f32⟩
  | 81 => ⟨S128x128, .f32⟩
  | 82 => ⟨S128x128, .f32⟩
  | 83 => ⟨S128x128, .f32⟩
  | 84 => ⟨S128x128, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S128x128, .f32⟩
  | 94 => ⟨S128x128, .f32⟩
  | 95 => ⟨S_, .f32⟩
  | 96 => ⟨S128x128, .f32⟩
  | 97 => ⟨S128x128, .f32⟩
  | 98 => ⟨S128x128, .i32⟩
  | 99 => ⟨S128x128, .i32⟩
  | 100 => ⟨S_, .i32⟩
  | 101 => ⟨S128x128, .i32⟩
  | 102 => ⟨S128x128, .i32⟩
  | 103 => ⟨S128x128, .i1⟩
  | 104 => ⟨S128x128, .f32⟩
  | 105 => ⟨S_, .f32⟩
  | 106 => ⟨S128x128, .f32⟩
  | 107 => ⟨S128x128, .f32⟩
  | 108 => ⟨S_, .f32⟩
  | 109 => ⟨S128x128, .f32⟩
  | 110 => ⟨S128x128, .f32⟩
  | 111 => ⟨S128x128, .f32⟩
  | 112 => ⟨S128x128, .f32⟩
  | 113 => ⟨S_, .f32⟩
  | 114 => ⟨S128x128, .f32⟩
  | 115 => ⟨S128x128, .f32⟩
  | 116 => ⟨S128x128, .f32⟩
  | 117 => ⟨S128x128, .f32⟩
  | 118 => ⟨S128x128, .i1⟩
  | 119 => ⟨S128x128, .f32⟩
  | 120 => ⟨S128x128, .f32⟩
  | 121 => ⟨S128x128, .f32⟩
  | 122 => ⟨S128x128, .f32⟩
  | 123 => ⟨S128x128, .f32⟩
  | 124 => ⟨S128x128, .f32⟩
  | 125 => ⟨S128x128, .f32⟩
  | 126 => ⟨S128x128, .f32⟩
  | 127 => ⟨S128x128, .f32⟩
  | _ => ⟨S128x768, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S128x768, .f32⟩

abbrev hbmTy (i : Nat) : BufTy := match i / 128 with
  | 0 => hbmTy0_0 i
  | 1 => hbmTy0_1 i
  | _ => ⟨S128x768, .f32⟩

abbrev bufTy : (tb : Table) → Fin (tcTables nBuf tb) → BufTy
  | .hbm, ⟨i, _⟩ => hbmTy i
  | .local _ .vmem, ⟨0, _⟩ => ⟨S128x768, .f32⟩
  | .local _ .vmem, ⟨1, _⟩ => ⟨S128x768, .f32⟩
  | .local _ .vmem, ⟨2, _⟩ => ⟨S128x128, .f32⟩
  | .local _ .vmem, ⟨3, _⟩ => ⟨S8x196x768, .f32⟩
  | .local _ .vmem, ⟨4, _⟩ => ⟨S8x196x768, .f32⟩
  | .local _ .vmem, ⟨5, _⟩ => ⟨S128x32x768, .f32⟩
  | .local _ .vmem, ⟨6, _⟩ => ⟨S4096x128, .bf16⟩
  | .local _ .vmem, ⟨7, _⟩ => ⟨S1x128, .f32⟩
  | .local _ .vmem, ⟨8, _⟩ => ⟨S8x128, .f32⟩
  | .local _ .vmem, ⟨9, _⟩ => ⟨S8x128, .f32⟩
  | _, _ => ⟨S128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_cst_2 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_3 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call2_v0 : Ref sig .tc := ⟨.hbm, 69, rfl⟩
abbrev main_call2_call0_cst : Ref sig .tc := ⟨.hbm, 70, rfl⟩
abbrev main_call2_call0_v0 : Ref sig .tc := ⟨.hbm, 71, rfl⟩
abbrev main_call2_call0_v1 : Ref sig .tc := ⟨.hbm, 72, rfl⟩
abbrev main_call2_call0_v2 : Ref sig .tc := ⟨.hbm, 73, rfl⟩
abbrev main_call2_call0_v3 : Ref sig .tc := ⟨.hbm, 74, rfl⟩
abbrev main_call2_call0_v4 : Ref sig .tc := ⟨.hbm, 75, rfl⟩
abbrev main_call2_call0_v5 : Ref sig .tc := ⟨.hbm, 76, rfl⟩
abbrev main_call2_call0_v6 : Ref sig .tc := ⟨.hbm, 77, rfl⟩
abbrev main_call2_call0_v7 : Ref sig .tc := ⟨.hbm, 78, rfl⟩
abbrev main_call2_call0_v8 : Ref sig .tc := ⟨.hbm, 79, rfl⟩
abbrev main_call2_call0_v9 : Ref sig .tc := ⟨.hbm, 80, rfl⟩
abbrev main_call2_call0_v10 : Ref sig .tc := ⟨.hbm, 81, rfl⟩
abbrev main_call2_call0_v11 : Ref sig .tc := ⟨.hbm, 82, rfl⟩
abbrev main_call2_v1 : Ref sig .tc := ⟨.hbm, 83, rfl⟩
abbrev main_v46 : Ref sig .tc := ⟨.hbm, 84, rfl⟩
abbrev main_cst_6 : Ref sig .tc := ⟨.hbm, 85, rfl⟩
abbrev main_v47 : Ref sig .tc := ⟨.hbm, 86, rfl⟩
abbrev main_cst_7 : Ref sig .tc := ⟨.hbm, 87, rfl⟩
abbrev main_v48 : Ref sig .tc := ⟨.hbm, 88, rfl⟩
abbrev main_v49 : Ref sig .tc := ⟨.hbm, 89, rfl⟩
abbrev main_cst_8 : Ref sig .tc := ⟨.hbm, 90, rfl⟩
abbrev main_cst_9 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_c_10 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_11 : Ref sig .tc := ⟨.hbm, 105, rfl⟩
abbrev main_v57 : Ref sig .tc := ⟨.hbm, 106, rfl⟩
abbrev main_v58 : Ref sig .tc := ⟨.hbm, 107, rfl⟩
abbrev main_cst_12 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_call4_v0 : Ref sig .tc := ⟨.hbm, 112, rfl⟩
abbrev main_call4_call0_cst : Ref sig .tc := ⟨.hbm, 113, rfl⟩
abbrev main_call4_call0_v0 : Ref sig .tc := ⟨.hbm, 114, rfl⟩
abbrev main_call4_call0_v1 : Ref sig .tc := ⟨.hbm, 115, rfl⟩
abbrev main_call4_call0_v2 : Ref sig .tc := ⟨.hbm, 116, rfl⟩
abbrev main_call4_call0_v3 : Ref sig .tc := ⟨.hbm, 117, rfl⟩
abbrev main_call4_call0_v4 : Ref sig .tc := ⟨.hbm, 118, rfl⟩
abbrev main_call4_call0_v5 : Ref sig .tc := ⟨.hbm, 119, rfl⟩
abbrev main_call4_call0_v6 : Ref sig .tc := ⟨.hbm, 120, rfl⟩
abbrev main_call4_call0_v7 : Ref sig .tc := ⟨.hbm, 121, rfl⟩
abbrev main_call4_call0_v8 : Ref sig .tc := ⟨.hbm, 122, rfl⟩
abbrev main_call4_call0_v9 : Ref sig .tc := ⟨.hbm, 123, rfl⟩
abbrev main_call4_call0_v10 : Ref sig .tc := ⟨.hbm, 124, rfl⟩
abbrev main_call4_call0_v11 : Ref sig .tc := ⟨.hbm, 125, rfl⟩
abbrev main_call4_v1 : Ref sig .tc := ⟨.hbm, 126, rfl⟩
abbrev main_v62 : Ref sig .tc := ⟨.hbm, 127, rfl⟩
abbrev main_cst_13 : Ref sig .tc := ⟨.hbm, 128, rfl⟩
abbrev main_v63 : Ref sig .tc := ⟨.hbm, 129, rfl⟩
abbrev main_cst_14 : Ref sig .tc := ⟨.hbm, 130, rfl⟩
abbrev main_v64 : Ref sig .tc := ⟨.hbm, 131, rfl⟩
abbrev main_v65 : Ref sig .tc := ⟨.hbm, 132, rfl⟩
abbrev main_cst_15 : Ref sig .tc := ⟨.hbm, 133, rfl⟩
abbrev main_v66 : Ref sig .tc := ⟨.hbm, 134, rfl⟩
abbrev main_v67 : Ref sig .tc := ⟨.hbm, 135, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x196x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S128x768_S128x768_0_0 : ∀ a, (![0, 0] : Fin 2 → Nat) a + S128x768.size a ≤ S128x768.size a
  h_S128x768 : 0 < S128x768.numel
  reduces_S128x768_S128 : S128x768.Reduces [1] S128
  shapeCasts_S128_S128x1 : S128.ShapeCasts S128x1
  broadcasts_S128x1_S128x768 : S128x1.Broadcasts S128x768
  bitsLt_bf16_f32 : FTy.bits .bf16 < FTy.bits .f32
  transposes_S128x768_p1_0_S768x128 : S128x768.Transposes [1, 0] S768x128
  inb_S128x128_S128x128_0_0 : ∀ a, (![0, 0] : Fin 2 → Nat) a + S128x128.size a ≤ S128x128.size a
  h_S128x128 : 0 < S128x128.numel
  bcast_S32_S1x32_1 : S32.BroadcastsInDim S1x32 (![1] : Fin 1 → Fin S1x32.rank)
  bcast_S128_S128x1_0 : S128.BroadcastsInDim S128x1 (![0] : Fin 1 → Fin S128x1.rank)
  bcast_S1x32_S128x32_0_1 : S1x32.BroadcastsInDim S128x32 (![0, 1] : Fin 2 → Fin S128x32.rank)
  bcast_S128x1_S128x32_0_1 : S128x1.BroadcastsInDim S128x32 (![0, 1] : Fin 2 → Fin S128x32.rank)
  bcast_S_S128x128 : S_.BroadcastsInDim S128x128 (![] : Fin 0 → Fin S128x128.rank)
  bcast_S128x32_S128x32x1_0_1 : S128x32.BroadcastsInDim S128x32x1 (![0, 1] : Fin 2 → Fin S128x32x1.rank)
  bcast_S128x128_S128x1x128_0_2 : S128x128.BroadcastsInDim S128x1x128 (![0, 2] : Fin 2 → Fin S128x1x128.rank)
  bcast_S128x32x1_S128x32x128_0_1_2 : S128x32x1.BroadcastsInDim S128x32x128 (![0, 1, 2] : Fin 3 → Fin S128x32x128.rank)
  bcast_S128x1x128_S128x32x128_0_1_2 : S128x1x128.BroadcastsInDim S128x32x128 (![0, 1, 2] : Fin 3 → Fin S128x32x128.rank)
  shapeCasts_S128x32x128_S4096x128 : S128x32x128.ShapeCasts S4096x128
  bcast_S128_S1x128_1 : S128.BroadcastsInDim S1x128 (![1] : Fin 1 → Fin S1x128.rank)
  inb_S8x196x768_S8x196x768_0_0_0 : ∀ a, (![0, 0, 0] : Fin 3 → Nat) a + S8x196x768.size a ≤ S8x196x768.size a
  h_S8x196x768 : 0 < S8x196x768.numel
  reduces_S8x196x768_S8x196 : S8x196x768.Reduces [2] S8x196
  shapeCasts_S8x196_S8x196x1 : S8x196.ShapeCasts S8x196x1
  broadcasts_S8x196x1_S8x196x768 : S8x196x1.Broadcasts S8x196x768
  shapeCasts_S8x196x768_S1568x768 : S8x196x768.ShapeCasts S1568x768
  inb_S128x32x768_S32x32x768_0_0_0 : ∀ a, (![0, 0, 0] : Fin 3 → Nat) a + S32x32x768.size a ≤ S128x32x768.size a
  h_S32x32x768 : 0 < S32x32x768.numel
  reduces_S32x32x768_S32x32 : S32x32x768.Reduces [2] S32x32
  shapeCasts_S32x32_S32x32x1 : S32x32.ShapeCasts S32x32x1
  broadcasts_S32x32x1_S32x32x768 : S32x32x1.Broadcasts S32x32x768
  shapeCasts_S32x32x768_S1024x768 : S32x32x768.ShapeCasts S1024x768
  transposes_S1024x768_p1_0_S768x1024 : S1024x768.Transposes [1, 0] S768x1024
  shapeCasts_S1568x1024_S8x196x1024 : S1568x1024.ShapeCasts S8x196x1024
  reduces_S8x196x1024_S8x1024 : S8x196x1024.Reduces [1] S8x1024
  inb_S4096x128_S1024x128_0_0 : ∀ a, (![0, 0] : Fin 2 → Nat) a + S1024x128.size a ≤ S4096x128.size a
  h_S1024x128 : 0 < S1024x128.numel
  shapeCasts_S1024x128_S1024x128 : S1024x128.ShapeCasts S1024x128
  inb_S128x32x768_S32x32x768_32_0_0 : ∀ a, (![32, 0, 0] : Fin 3 → Nat) a + S32x32x768.size a ≤ S128x32x768.size a
  inb_S4096x128_S1024x128_1024_0 : ∀ a, (![1024, 0] : Fin 2 → Nat) a + S1024x128.size a ≤ S4096x128.size a
  inb_S128x32x768_S32x32x768_64_0_0 : ∀ a, (![64, 0, 0] : Fin 3 → Nat) a + S32x32x768.size a ≤ S128x32x768.size a
  inb_S4096x128_S1024x128_2048_0 : ∀ a, (![2048, 0] : Fin 2 → Nat) a + S1024x128.size a ≤ S4096x128.size a
  inb_S128x32x768_S32x32x768_96_0_0 : ∀ a, (![96, 0, 0] : Fin 3 → Nat) a + S32x32x768.size a ≤ S128x32x768.size a
  inb_S4096x128_S1024x128_3072_0 : ∀ a, (![3072, 0] : Fin 2 → Nat) a + S1024x128.size a ≤ S4096x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  h_S_ : 0 < S_.numel
  dot_S128x768_S768x128_S128x128_1_0_0_1_n_n_wf : DotDims.WF S128x768 S768x128 S128x128 [1] [0] [0] [1] [] []
  dot_S1568x768_S768x1024_S1568x1024_1_0_0_1_n_n_wf : DotDims.WF S1568x768 S768x1024 S1568x1024 [1] [0] [0] [1] [] []
  dot_S8x1024_S1024x128_S8x128_1_0_0_1_n_n_wf : DotDims.WF S8x1024 S1024x128 S8x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S128x768.size a
  hwx0_0 : ∀ i : grid0.Coords, EltTy.bits .f32 = 32 ∨ (Rect.block (s := S128x768) S128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S128x768.size a
  hwx0_1 : ∀ i : grid0.Coords, EltTy.bits .f32 = 32 ∨ (Rect.block (s := S128x768) S128x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x196x768.size a ≤ S128x196x768.size a
  hwx1_0 : ∀ i : grid1.Coords, EltTy.bits .f32 = 32 ∨ (Rect.block (s := S128x196x768) S8x196x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32x768.size a ≤ S128x32x768.size a
  hwx1_1 : ∀ i : grid1.Coords, EltTy.bits .f32 = 32 ∨ (Rect.block (s := S128x32x768) S128x32x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x128.size a
  hwx1_2 : ∀ i : grid1.Coords, EltTy.bits .bf16 = 32 ∨ (Rect.block (s := S4096x128) S4096x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S128x128.size a
  hwx1_4 : ∀ i : grid1.Coords, EltTy.bits .f32 = 32 ∨ (Rect.block (s := S128x128) S8x128.size (cc1_transform_4 i) (hinb1_4 i)).WholeWords (EltTy.packing .f32)

variable [Facts₀]

def dot_S128x768_S768x128_S128x128_1_0_0_1_n_n : DotDims S128x768 S768x128 S128x128 where
  lhsContracting := [1]
  rhsContracting := [0]
  lhsNonContracting := [0]
  rhsNonContracting := [1]
  lhsBatch := []
  rhsBatch := []
  wf := dot_S128x768_S768x128_S128x128_1_0_0_1_n_n_wf
def dot_S1568x768_S768x1024_S1568x1024_1_0_0_1_n_n : DotDims S1568x768 S768x1024 S1568x1024 where
  lhsContracting := [1]
  rhsContracting := [0]
  lhsNonContracting := [0]
  rhsNonContracting := [1]
  lhsBatch := []
  rhsBatch := []
  wf := dot_S1568x768_S768x1024_S1568x1024_1_0_0_1_n_n_wf
def dot_S8x1024_S1024x128_S8x128_1_0_0_1_n_n : DotDims S8x1024 S1024x128 S8x128 where
  lhsContracting := [1]
  rhsContracting := [0]
  lhsNonContracting := [0]
  rhsNonContracting := [1]
  lhsBatch := []
  rhsBatch := []
  wf := dot_S8x1024_S1024x128_S8x128_1_0_0_1_n_n_wf

abbrev win0_0 : Pipeline.Window sig grid0 :=
  Pipeline.Window.ofSpec (Memref.whole main_arg0) S128x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S8x196x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x32x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S4096x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S128x768 : Shape := ⟨2, ![128, 768]⟩
abbrev S128x196x768 : Shape := ⟨3, ![128, 196, 768]⟩
abbrev S128x32x768 : Shape := ⟨3, ![128, 32, 768]⟩
abbrev S128 : Shape := ⟨1, ![128]⟩
abbrev S_ : Shape := ⟨0, ![]⟩
abbrev S128x1 : Shape := ⟨2, ![128, 1]⟩
abbrev S768x128 : Shape := ⟨2, ![768, 128]⟩
abbrev S128x128 : Shape := ⟨2, ![128, 128]⟩
abbrev S128x196 : Shape := ⟨2, ![128, 196]⟩
abbrev S128x196x1 : Shape := ⟨3, ![128, 196, 1]⟩
abbrev S128x32 : Shape := ⟨2, ![128, 32]⟩
abbrev S128x32x1 : Shape := ⟨3, ![128, 32, 1]⟩
abbrev S128x32x128x196 : Shape := ⟨4, ![128, 32, 128, 196]⟩
abbrev S128x128x196x32 : Shape := ⟨4, ![128, 128, 196, 32]⟩
abbrev S128x128x32 : Shape := ⟨3, ![128, 128, 32]⟩
abbrev S32 : Shape := ⟨1, ![32]⟩
abbrev S1x32 : Shape := ⟨2, ![1, 32]⟩
abbrev S1x128x32 : Shape := ⟨3, ![1, 128, 32]⟩
abbrev S1x128 : Shape := ⟨2, ![1, 128]⟩

abbrev nBuf : Space → Nat
  | .hbm => 173
  | .vmem => 0
  | .smem => 0
  | _ => 0

abbrev hbmTy0_0 (i : Nat) : BufTy := match i % 128 with
  | 0 => ⟨S128x768, .f32⟩
  | 1 => ⟨S128x768, .f32⟩
  | 2 => ⟨S128x196x768, .f32⟩
  | 3 => ⟨S128x32x768, .f32⟩
  | 4 => ⟨S128, .i32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S128x768, .f32⟩
  | 15 => ⟨S_, .f32⟩
  | 16 => ⟨S128, .f32⟩
  | 17 => ⟨S128x1, .f32⟩
  | 18 => ⟨S128x1, .f32⟩
  | 19 => ⟨S_, .f32⟩
  | 20 => ⟨S128x1, .f32⟩
  | 21 => ⟨S128x1, .f32⟩
  | 22 => ⟨S128x768, .f32⟩
  | 23 => ⟨S128x768, .f32⟩
  | 24 => ⟨S128x768, .f32⟩
  | 25 => ⟨S_, .f32⟩
  | 26 => ⟨S128, .f32⟩
  | 27 => ⟨S128x1, .f32⟩
  | 28 => ⟨S128x1, .f32⟩
  | 29 => ⟨S_, .f32⟩
  | 30 => ⟨S128x1, .f32⟩
  | 31 => ⟨S128x1, .f32⟩
  | 32 => ⟨S128x768, .f32⟩
  | 33 => ⟨S128x768, .f32⟩
  | 34 => ⟨S768x128, .f32⟩
  | 35 => ⟨S128x128, .f32⟩
  | 36 => ⟨S128x128, .f32⟩
  | 37 => ⟨S128x128, .f32⟩
  | 38 => ⟨S128x128, .f32⟩
  | 39 => ⟨S128x128, .f32⟩
  | 40 => ⟨S_, .f32⟩
  | 41 => ⟨S_, .f32⟩
  | 42 => ⟨S_, .f32⟩
  | 43 => ⟨S128x128, .f32⟩
  | 44 => ⟨S128x128, .f32⟩
  | 45 => ⟨S_, .f32⟩
  | 46 => ⟨S128x128, .f32⟩
  | 47 => ⟨S128x128, .f32⟩
  | 48 => ⟨S128x128, .i32⟩
  | 49 => ⟨S128x128, .i32⟩
  | 50 => ⟨S_, .i32⟩
  | 51 => ⟨S128x128, .i32⟩
  | 52 => ⟨S128x128, .i32⟩
  | 53 => ⟨S128x128, .i1⟩
  | 54 => ⟨S128x128, .f32⟩
  | 55 => ⟨S_, .f32⟩
  | 56 => ⟨S128x128, .f32⟩
  | 57 => ⟨S128x128, .f32⟩
  | 58 => ⟨S_, .f32⟩
  | 59 => ⟨S128x128, .f32⟩
  | 60 => ⟨S128x128, .f32⟩
  | 61 => ⟨S128x128, .f32⟩
  | 62 => ⟨S128x128, .f32⟩
  | 63 => ⟨S_, .f32⟩
  | 64 => ⟨S128x128, .f32⟩
  | 65 => ⟨S128x128, .f32⟩
  | 66 => ⟨S128x128, .f32⟩
  | 67 => ⟨S128x128, .f32⟩
  | 68 => ⟨S128x128, .i1⟩
  | 69 => ⟨S128x128, .f32⟩
  | 70 => ⟨S128x128, .f32⟩
  | 71 => ⟨S128x128, .f32⟩
  | 72 => ⟨S128x128, .f32⟩
  | 73 => ⟨S128x128, .f32⟩
  | 74 => ⟨S128x128, .f32⟩
  | 75 => ⟨S128x128, .f32⟩
  | 76 => ⟨S128x128, .f32⟩
  | 77 => ⟨S128x128, .f32⟩
  | 78 => ⟨S_, .f32⟩
  | 79 => ⟨S_, .f32⟩
  | 80 => ⟨S_, .f32⟩
  | 81 => ⟨S_, .f32⟩
  | 82 => ⟨S_, .f32⟩
  | 83 => ⟨S128x196x768, .f32⟩
  | 84 => ⟨S_, .f32⟩
  | 85 => ⟨S128x196, .f32⟩
  | 86 => ⟨S128x196x1, .f32⟩
  | 87 => ⟨S128x196x1, .f32⟩
  | 88 => ⟨S_, .f32⟩
  | 89 => ⟨S128x196x1, .f32⟩
  | 90 => ⟨S128x196x1, .f32⟩
  | 91 => ⟨S128x196x768, .f32⟩
  | 92 => ⟨S128x196x768, .f32⟩
  | 93 => ⟨S128x32x768, .f32⟩
  | 94 => ⟨S_, .f32⟩
  | 95 => ⟨S128x32, .f32⟩
  | 96 => ⟨S128x32x1, .f32⟩
  | 97 => ⟨S128x32x1, .f32⟩
  | 98 => ⟨S_, .f32⟩
  | 99 => ⟨S128x32x1, .f32⟩
  | 100 => ⟨S128x32x1, .f32⟩
  | 101 => ⟨S128x32x768, .f32⟩
  | 102 => ⟨S128x32x768, .f32⟩
  | 103 => ⟨S128x32x128x196, .f32⟩
  | 104 => ⟨S128x128x196x32, .f32⟩
  | 105 => ⟨S_, .f32⟩
  | 106 => ⟨S128x128x32, .f32⟩
  | 107 => ⟨S32, .i32⟩
  | 108 => ⟨S1x32, .i32⟩
  | 109 => ⟨S128x1, .i32⟩
  | 110 => ⟨S128x32, .i32⟩
  | 111 => ⟨S128x32, .i32⟩
  | 112 => ⟨S128x32, .i1⟩
  | 113 => ⟨S128x32, .f32⟩
  | 114 => ⟨S128, .f32⟩
  | 115 => ⟨S1x128x32, .f32⟩
  | 116 => ⟨S128x128x32, .f32⟩
  | 117 => ⟨S128x128x32, .f32⟩
  | 118 => ⟨S_, .f32⟩
  | 119 => ⟨S128x128, .f32⟩
  | 120 => ⟨S1x128, .f32⟩
  | 121 => ⟨S128x128, .f32⟩
  | 122 => ⟨S128x128, .f32⟩
  | 123 => ⟨S128x128, .f32⟩
  | 124 => ⟨S128x128, .f32⟩
  | 125 => ⟨S128x128, .f32⟩
  | 126 => ⟨S128x128, .f32⟩
  | 127 => ⟨S_, .f32⟩
  | _ => ⟨S128x768, .f32⟩

abbrev hbmTy0_1 (i : Nat) : BufTy := match i % 128 with
  | 0 => ⟨S_, .f32⟩
  | 1 => ⟨S_, .f32⟩
  | 2 => ⟨S128x128, .f32⟩
  | 3 => ⟨S128x128, .f32⟩
  | 4 => ⟨S_, .f32⟩
  | 5 => ⟨S128x128, .f32⟩
  | 6 => ⟨S128x128, .f32⟩
  | 7 => ⟨S128x128, .i32⟩
  | 8 => ⟨S128x128, .i32⟩
  | 9 => ⟨S_, .i32⟩
  | 10 => ⟨S128x128, .i32⟩
  | 11 => ⟨S128x128, .i32⟩
  | 12 => ⟨S128x128, .i1⟩
  | 13 => ⟨S128x128, .f32⟩
  | 14 => ⟨S_, .f32⟩
  | 15 => ⟨S128x128, .f32⟩
  | 16 => ⟨S128x128, .f32⟩
  | 17 => ⟨S_, .f32⟩
  | 18 => ⟨S128x128, .f32⟩
  | 19 => ⟨S128x128, .f32⟩
  | 20 => ⟨S128x128, .f32⟩
  | 21 => ⟨S128x128, .f32⟩
  | 22 => ⟨S_, .f32⟩
  | 23 => ⟨S128x128, .f32⟩
  | 24 => ⟨S128x128, .f32⟩
  | 25 => ⟨S128x128, .f32⟩
  | 26 => ⟨S128x128, .f32⟩
  | 27 => ⟨S128x128, .i1⟩
  | 28 => ⟨S128x128, .f32⟩
  | 29 => ⟨S128x128, .f32⟩
  | 30 => ⟨S128x128, .f32⟩
  | 31 => ⟨S128x128, .f32⟩
  | 32 => ⟨S128x128, .f32⟩
  | 33 => ⟨S128x128, .f32⟩
  | 34 => ⟨S128x128, .f32⟩
  | 35 => ⟨S128x128, .f32⟩
  | 36 => ⟨S128x128, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | _ => ⟨S128x768, .f32⟩

abbrev hbmTy (i : Nat) : BufTy := match i / 128 with
  | 0 => hbmTy0_0 i
  | 1 => hbmTy0_1 i
  | _ => ⟨S128x768, .f32⟩

abbrev bufTy : (tb : Table) → Fin (tcTables nBuf tb) → BufTy
  | .hbm, ⟨i, _⟩ => hbmTy i
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call2_v0 : Ref sig .tc := ⟨.hbm, 62, rfl⟩
abbrev main_call2_call0_cst : Ref sig .tc := ⟨.hbm, 63, rfl⟩
abbrev main_call2_call0_v0 : Ref sig .tc := ⟨.hbm, 64, rfl⟩
abbrev main_call2_call0_v1 : Ref sig .tc := ⟨.hbm, 65, rfl⟩
abbrev main_call2_call0_v2 : Ref sig .tc := ⟨.hbm, 66, rfl⟩
abbrev main_call2_call0_v3 : Ref sig .tc := ⟨.hbm, 67, rfl⟩
abbrev main_call2_call0_v4 : Ref sig .tc := ⟨.hbm, 68, rfl⟩
abbrev main_call2_call0_v5 : Ref sig .tc := ⟨.hbm, 69, rfl⟩
abbrev main_call2_call0_v6 : Ref sig .tc := ⟨.hbm, 70, rfl⟩
abbrev main_call2_call0_v7 : Ref sig .tc := ⟨.hbm, 71, rfl⟩
abbrev main_call2_call0_v8 : Ref sig .tc := ⟨.hbm, 72, rfl⟩
abbrev main_call2_call0_v9 : Ref sig .tc := ⟨.hbm, 73, rfl⟩
abbrev main_call2_call0_v10 : Ref sig .tc := ⟨.hbm, 74, rfl⟩
abbrev main_call2_call0_v11 : Ref sig .tc := ⟨.hbm, 75, rfl⟩
abbrev main_call2_v1 : Ref sig .tc := ⟨.hbm, 76, rfl⟩
abbrev main_v36 : Ref sig .tc := ⟨.hbm, 77, rfl⟩
abbrev main_cst_9 : Ref sig .tc := ⟨.hbm, 78, rfl⟩
abbrev main_v37 : Ref sig .tc := ⟨.hbm, 79, rfl⟩
abbrev main_cst_10 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_11 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_12 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_13 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_14 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_15 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_16 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_17 : Ref sig .tc := ⟨.hbm, 127, rfl⟩
abbrev main_cst_18 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_c_19 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_cst_20 : Ref sig .tc := ⟨.hbm, 142, rfl⟩
abbrev main_v85 : Ref sig .tc := ⟨.hbm, 143, rfl⟩
abbrev main_v86 : Ref sig .tc := ⟨.hbm, 144, rfl⟩
abbrev main_cst_21 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_call4_v0 : Ref sig .tc := ⟨.hbm, 149, rfl⟩
abbrev main_call4_call0_cst : Ref sig .tc := ⟨.hbm, 150, rfl⟩
abbrev main_call4_call0_v0 : Ref sig .tc := ⟨.hbm, 151, rfl⟩
abbrev main_call4_call0_v1 : Ref sig .tc := ⟨.hbm, 152, rfl⟩
abbrev main_call4_call0_v2 : Ref sig .tc := ⟨.hbm, 153, rfl⟩
abbrev main_call4_call0_v3 : Ref sig .tc := ⟨.hbm, 154, rfl⟩
abbrev main_call4_call0_v4 : Ref sig .tc := ⟨.hbm, 155, rfl⟩
abbrev main_call4_call0_v5 : Ref sig .tc := ⟨.hbm, 156, rfl⟩
abbrev main_call4_call0_v6 : Ref sig .tc := ⟨.hbm, 157, rfl⟩
abbrev main_call4_call0_v7 : Ref sig .tc := ⟨.hbm, 158, rfl⟩
abbrev main_call4_call0_v8 : Ref sig .tc := ⟨.hbm, 159, rfl⟩
abbrev main_call4_call0_v9 : Ref sig .tc := ⟨.hbm, 160, rfl⟩
abbrev main_call4_call0_v10 : Ref sig .tc := ⟨.hbm, 161, rfl⟩
abbrev main_call4_call0_v11 : Ref sig .tc := ⟨.hbm, 162, rfl⟩
abbrev main_call4_v1 : Ref sig .tc := ⟨.hbm, 163, rfl⟩
abbrev main_v90 : Ref sig .tc := ⟨.hbm, 164, rfl⟩
abbrev main_cst_22 : Ref sig .tc := ⟨.hbm, 165, rfl⟩
abbrev main_v91 : Ref sig .tc := ⟨.hbm, 166, rfl⟩
abbrev main_cst_23 : Ref sig .tc := ⟨.hbm, 167, rfl⟩
abbrev main_v92 : Ref sig .tc := ⟨.hbm, 168, rfl⟩
abbrev main_v93 : Ref sig .tc := ⟨.hbm, 169, rfl⟩
abbrev main_cst_24 : Ref sig .tc := ⟨.hbm, 170, rfl⟩
abbrev main_v94 : Ref sig .tc := ⟨.hbm, 171, rfl⟩
abbrev main_v95 : Ref sig .tc := ⟨.hbm, 172, rfl⟩

abbrev nD : Nat := 1
abbrev τ : Topo := Topo.v7x

variable {F : FTy → Type} [FloatOps F]

class Facts₀ : Prop where
  reducesTo_S128x768_S128_d1 : S128x768.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x768_0_1 : S128x1.BroadcastsInDim S128x768 (![0, 1] : Fin 2 → Fin S128x768.rank)
  transposes_S128x768_S768x128_1_0 : S128x768.Transposes [1, 0] S768x128
  bcast_S_S128x128 : S_.BroadcastsInDim S128x128 (![] : Fin 0 → Fin S128x128.rank)
  reducesTo_S128x128_S_d0_1 : S128x128.ReducesTo [0, 1] S_
  reducesTo_S128x196x768_S128x196_d2 : S128x196x768.ReducesTo [2] S128x196
  bcast_S128x196_S128x196x1_0_1 : S128x196.BroadcastsInDim S128x196x1 (![0, 1] : Fin 2 → Fin S128x196x1.rank)
  bcast_S_S128x196x1 : S_.BroadcastsInDim S128x196x1 (![] : Fin 0 → Fin S128x196x1.rank)
  bcast_S128x196x1_S128x196x768_0_1_2 : S128x196x1.BroadcastsInDim S128x196x768 (![0, 1, 2] : Fin 3 → Fin S128x196x768.rank)
  reducesTo_S128x32x768_S128x32_d2 : S128x32x768.ReducesTo [2] S128x32
  bcast_S128x32_S128x32x1_0_1 : S128x32.BroadcastsInDim S128x32x1 (![0, 1] : Fin 2 → Fin S128x32x1.rank)
  bcast_S_S128x32x1 : S_.BroadcastsInDim S128x32x1 (![] : Fin 0 → Fin S128x32x1.rank)
  bcast_S128x32x1_S128x32x768_0_1_2 : S128x32x1.BroadcastsInDim S128x32x768 (![0, 1, 2] : Fin 3 → Fin S128x32x768.rank)
  transposes_S128x32x128x196_S128x128x196x32_2_0_3_1 : S128x32x128x196.Transposes [2, 0, 3, 1] S128x128x196x32
  reducesTo_S128x128x196x32_S128x128x32_d2 : S128x128x196x32.ReducesTo [2] S128x128x32
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S128x1_S128x32_0_1 : S128x1.BroadcastsInDim S128x32 (![0, 1] : Fin 2 → Fin S128x32.rank)
  bcast_S128x32_S1x128x32_1_2 : S128x32.BroadcastsInDim S1x128x32 (![1, 2] : Fin 2 → Fin S1x128x32.rank)
  bcast_S1x128x32_S128x128x32_0_1_2 : S1x128x32.BroadcastsInDim S128x128x32 (![0, 1, 2] : Fin 3 → Fin S128x128x32.rank)
  reducesTo_S128x128x32_S128x128_d2 : S128x128x32.ReducesTo [2] S128x128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  dot_S128x768_S768x128_S128x128_1_0_0_1_n_n_wf : DotDims.WF S128x768 S768x128 S128x128 [1] [0] [0] [1] [] []
  dot_S128x32x768_S128x196x768_S128x32x128x196_2_2_01_01_n_n_wf : DotDims.WF S128x32x768 S128x196x768 S128x32x128x196 [2] [2] [0, 1] [0, 1] [] []

variable [Facts₀]

def dot_S128x768_S768x128_S128x128_1_0_0_1_n_n : DotDims S128x768 S768x128 S128x128 where
  lhsContracting := [1]
  rhsContracting := [0]
  lhsNonContracting := [0]
  rhsNonContracting := [1]
  lhsBatch := []
  rhsBatch := []
  wf := dot_S128x768_S768x128_S128x128_1_0_0_1_n_n_wf
def dot_S128x32x768_S128x196x768_S128x32x128x196_2_2_01_01_n_n : DotDims S128x32x768 S128x196x768 S128x32x128x196 where
  lhsContracting := [2]
  rhsContracting := [2]
  lhsNonContracting := [0, 1]
  rhsNonContracting := [0, 1]
  lhsBatch := []
  rhsBatch := []
  wf := dot_S128x32x768_S128x196x768_S128x32x128x196_2_2_01_01_n_n_wf

class Facts : Prop extends Facts₀ where

variable [Facts]
-- ==== Proof.KRun.lean ====
/-
  The idealized kernel program's whole run with every buffer named: from any launch memory, every weakly fair
  execution of the program ends, and in the final state each unscoped buffer of a core holds the last boundary's
  contents, the fold of the host stretches and the two kernels' write-backs over the launch memory. The frame
  theorem keeps only the argument arrays from this; the value claims read the three result buffers.
-/
import proofs.«175475_j58832462021083_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped TensorCore buffer at the last boundary's contents. -/
theorem run_all : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W14 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c b hb => h c _ (mem_uc b hb))

end Cert.KernelIdeal.Whole

end
-- ==== Proof.RefTerms.lean ====
/-
  The reference's values as named terms of its argument arrays, each the composition of the host operations the
  printed program applies, in the printed order: the logit scale (the exponential of the clipped scalar), a
  matrix of rows each divided by the larger of its Euclidean norm and the floor 1e-12, the image-text cosine
  matrix, the ragged concept mask, the pooled region-concept similarity, and the sigmoid contrastive loss of a
  128 x 128 logit matrix. Nothing is proved here: these names are what the run's result buffers are stated at.
-/
import proofs.«175475_j58832462021083_1_alg».proof.Proof.Gen.ReferenceIdeal

noncomputable section

namespace Cert.ReferenceIdeal.Terms

open Idealize.ShloMosaic Cert.ReferenceIdeal Cert.ReferenceIdeal.Gen

variable {F : FTy → Type} [FloatOps F]

/-- The logit scale: the exponential of the scalar clipped to [-10, 10]. -/
def scale (a5 : FVec F S_ .f32) : FVec F S_ .f32 :=
  Host.exp (minimumf (id (constant S_ .f32 0x41200000#32)) (maximumf (id (constant S_ .f32 0xC1200000#32)) a5))

/-- Each row of a 128 x 768 matrix divided by the larger of its Euclidean norm and 1e-12. -/
def unit2 (a : FVec F S128x768 .f32) : FVec F S128x768 .f32 :=
  Host.divf a (broadcastInDim S128x768 ![0, 1] bcast_S128x1_S128x768_0_1
    (maximumf (Host.sqrt (broadcastInDim S128x1 ![0] bcast_S128_S128x1_0
        (Host.reduceAdd (mulf a a) (constant S_ .f32 0x00000000#32) reducesTo_S128x768_S128_d1 h_S_)))
      (broadcastInDim S128x1 ![] bcast_S_S128x1 (constant S_ .f32 0x2B8CBCCC#32))))

/-- The image-text cosines: normalised images times the transpose of the normalised texts. -/
def simIT (a0 a1 : FVec F S128x768 .f32) : FVec F S128x128 .f32 :=
  Host.dotGeneral dot_S128x768_S768x128_S128x128_1_0_0_1_n_n none (unit2 a0)
    (transpose S768x128 [1, 0] (unit2 a1) transposes_S128x768_S768x128_1_0)

/-- Each patch vector (last axis) divided by the larger of its norm and 1e-12. -/
def unitP (a : FVec F S128x196x768 .f32) : FVec F S128x196x768 .f32 :=
  Host.divf a (broadcastInDim S128x196x768 ![0, 1, 2] bcast_S128x196x1_S128x196x768_0_1_2
    (maximumf (Host.sqrt (broadcastInDim S128x196x1 ![0, 1] bcast_S128x196_S128x196x1_0_1
        (Host.reduceAdd (mulf a a) (constant S_ .f32 0x00000000#32) reducesTo_S128x196x768_S128x196_d2 h_S_)))
      (broadcastInDim S128x196x1 ![] bcast_S_S128x196x1 (constant S_ .f32 0x2B8CBCCC#32))))

/-- Each concept vector (last axis) divided by the larger of its norm and 1e-12. -/
def unitC (a : FVec F S128x32x768 .f32) : FVec F S128x32x768 .f32 :=
  Host.divf a (broadcastInDim S128x32x768 ![0, 1, 2] bcast_S128x32x1_S128x32x768_0_1_2
    (maximumf (Host.sqrt (broadcastInDim S128x32x1 ![0, 1] bcast_S128x32_S128x32x1_0_1
        (Host.reduceAdd (mulf a a) (constant S_ .f32 0x00000000#32) reducesTo_S128x32x768_S128x32_d2 h_S_)))
      (broadcastInDim S128x32x1 ![] bcast_S_S128x32x1 (constant S_ .f32 0x2B8CBCCC#32))))

/-- The ragged mask: entry (v, w) is one where w is below sample v's concept count, else zero. -/
def mask (a4 : IVec S128 32) : FVec F S128x32 .f32 :=
  uitofp .f32 (cmpi .slt
    (broadcastInDim S128x32 ![0, 1] bcast_S1x32_S128x32_0_1 (broadcastInDim S1x32 ![1] bcast_S32_S1x32_1 (iotaInDim S32 32 0)))
    (broadcastInDim S128x32 ![0, 1] bcast_S128x1_S128x32_0_1 (broadcastInDim S128x1 ![0] bcast_S128_S128x1_0 a4)))

/-- The region-concept similarity: per image m and sample v, the masked sum over v's concepts of the best patch
    cosine, divided by v's concept count. -/
def simRC (a2 : FVec F S128x196x768 .f32) (a3 : FVec F S128x32x768 .f32) (a4 : IVec S128 32) : FVec F S128x128 .f32 :=
  Host.divf
    (Host.reduceAdd
      (mulf
        (Host.reduce FloatOps.maximumf
          (transpose S128x128x196x32 [2, 0, 3, 1]
            (Host.dotGeneral dot_S128x32x768_S128x196x768_S128x32x128x196_2_2_01_01_n_n none (unitC a3) (unitP a2))
            transposes_S128x32x128x196_S128x128x196x32_2_0_3_1)
          (constant S_ .f32 0xFF800000#32) reducesTo_S128x128x196x32_S128x128x32_d2 h_S_)
        (broadcastInDim S128x128x32 ![0, 1, 2] bcast_S1x128x32_S128x128x32_0_1_2
          (broadcastInDim S1x128x32 ![1, 2] bcast_S128x32_S1x128x32_1_2 (mask a4))))
      (constant S_ .f32 0x00000000#32) reducesTo_S128x128x32_S128x128_d2 h_S_)
    (broadcastInDim S128x128 ![0, 1] bcast_S1x128_S128x128_0_1
      (broadcastInDim S1x128 ![1] bcast_S128_S1x128_1 (sitofp .f32 a4)))

/-- A logit matrix clipped to [-50, 50]. -/
def clip50 (x : FVec F S128x128 .f32) : FVec F S128x128 .f32 :=
  minimumf (broadcastInDim S128x128 ![] bcast_S_S128x128 (id (constant S_ .f32 0x42480000#32)))
    (maximumf (broadcastInDim S128x128 ![] bcast_S_S128x128 (id (constant S_ .f32 0xC2480000#32))) x)

/-- The label signs: +1 on the diagonal, -1 off it, as 2 times the identity minus 1. -/
def signs : FVec F S128x128 .f32 :=
  subf
    (mulf (broadcastInDim S128x128 ![] bcast_S_S128x128 (constant S_ .f32 0x40000000#32))
      (uitofp .f32 (cmpi .eq
        (addi (iotaInDim S128x128 32 0) (broadcastInDim S128x128 ![] bcast_S_S128x128 (constantI S_ 32 0#32)))
        (iotaInDim S128x128 32 1))))
    (broadcastInDim S128x128 ![] bcast_S_S128x128 (constant S_ .f32 0x3F800000#32))

/-- jax's softplus, with its own guard for an undefined difference. -/
def softplus (x : FVec F S128x128 .f32) : FVec F S128x128 .f32 :=
  select (cmpf .une
      (subf x (broadcastInDim S128x128 ![] bcast_S_S128x128 (constant S_ .f32 0x00000000#32)))
      (subf x (broadcastInDim S128x128 ![] bcast_S_S128x128 (constant S_ .f32 0x00000000#32))))
    (addf x (broadcastInDim S128x128 ![] bcast_S_S128x128 (constant S_ .f32 0x00000000#32)))
    (addf (maximumf x (broadcastInDim S128x128 ![] bcast_S_S128x128 (constant S_ .f32 0x00000000#32)))
      (Host.log1p (Host.exp (Host.negf (Host.absf
        (subf x (broadcastInDim S128x128 ![] bcast_S_S128x128 (constant S_ .f32 0x00000000#32))))))))

/-- log sigmoid x = -softplus (-x). -/
def logSigmoid (x : FVec F S128x128 .f32) : FVec F S128x128 .f32 :=
  Host.negf (softplus (Host.negf x))

/-- The sigmoid contrastive loss of a similarity matrix under a scale t and a bias b: minus the mean over all
    pairs of log sigmoid (sign * clip (t * sim + b)). -/
def loss (t b : FVec F S_ .f32) (sim : FVec F S128x128 .f32) : FVec F S_ .f32 :=
  Host.negf (Host.divf
    (Host.reduceAdd
      (logSigmoid (mulf signs
        (clip50 (addf (mulf (broadcastInDim S128x128 ![] bcast_S_S128x128 t) sim)
          (broadcastInDim S128x128 ![] bcast_S_S128x128 b)))))
      (constant S_ .f32 0x00000000#32) reducesTo_S128x128_S_d0_1 h_S_)
    (constant S_ .f32 0x46800000#32))

/-- The image-text loss. -/
def itLoss (a0 a1 : FVec F S128x768 .f32) (a5 a6 : FVec F S_ .f32) : FVec F S_ .f32 :=
  loss (scale a5) a6 (simIT a0 a1)

/-- The region-concept loss. -/
def rcLoss (a2 : FVec F S128x196x768 .f32) (a3 : FVec F S128x32x768 .f32) (a4 : IVec S128 32) (a5 a6 : FVec F S_ .f32) :
    FVec F S_ .f32 :=
  loss (scale a5) a6 (simRC a2 a3 a4)

/-- The total: the image-text loss plus half the region-concept loss. -/
def total (a0 a1 : FVec F S128x768 .f32) (a2 : FVec F S128x196x768 .f32) (a3 : FVec F S128x32x768 .f32) (a4 : IVec S128 32)
    (a5 a6 : FVec F S_ .f32) : FVec F S_ .f32 :=
  addf (itLoss a0 a1 a5 a6) (mulf (constant S_ .f32 0x3F000000#32) (rcLoss a2 a3 a4 a5 a6))

end Cert.ReferenceIdeal.Terms

end
-- ==== Proof.KTail.lean ====
/-
  The host tail of the idealized kernel program read back: after the second kernel's region the program applies, to
  each of the two 128 x 128 similarity arrays the kernels left, the same chain the reference applies to its own
  (scale by the exponential of the clipped scalar, add the bias, clip, multiply by the label signs, log sigmoid,
  mean, negate), and adds half the second loss to the first. So the three result buffers at the last boundary are
  the reference's loss terms of the two arrays as the second region leaves them.
-/
import proofs.«175475_j58832462021083_1_alg».proof.Proof.KRun
import proofs.«175475_j58832462021083_1_alg».proof.Proof.RefTerms
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL.Sem

variable {F : FTy → Type} [FloatOps F]

variable (m : (ℓ : Loc nD τ sig) → Buf (Elt F) ℓ) (ρ : Dev nD → PrngReg)

/-- The image-text loss buffer: the loss of the first kernel's output array. -/
theorem tail_it (c : Dev nD) :
    W14 m ρ c (Proc.devRef .tc main_v49)
      = Cert.ReferenceIdeal.Terms.loss (Cert.ReferenceIdeal.Terms.scale (W3 m ρ c (Proc.devRef .tc main_arg5)))
          (W3 m ρ c (Proc.devRef .tc main_arg6)) (W3 m ρ c (Proc.devRef .tc main_v0)) := by
  dsimp only [W14, W13, W12, W11, W10, W9, W8, W7, W6, W5, W4]
  generalize W3 m ρ c = X
  after_results_simp
  rfl

/-- The region-concept loss buffer: the loss of the second kernel's output array. -/
theorem tail_rc (c : Dev nD) :
    W14 m ρ c (Proc.devRef .tc main_v65)
      = Cert.ReferenceIdeal.Terms.loss (Cert.ReferenceIdeal.Terms.scale (W3 m ρ c (Proc.devRef .tc main_arg5)))
          (W3 m ρ c (Proc.devRef .tc main_arg6)) (W3 m ρ c (Proc.devRef .tc main_v23)) := by
  dsimp only [W14, W13, W12, W11, W10, W9, W8, W7, W6, W5, W4]
  generalize W3 m ρ c = X
  after_results_simp
  rfl

/-- The total: the first loss plus half the second. -/
theorem tail_total (c : Dev nD) :
    W14 m ρ c (Proc.devRef .tc main_v67)
      = addf (W14 m ρ c (Proc.devRef .tc main_v49))
          (mulf (constant S_ .f32 0x3F000000#32) (W14 m ρ c (Proc.devRef .tc main_v65))) := by
  dsimp only [W14]
  generalize W13 m ρ c = X
  after_results_simp

end Cert.KernelIdeal.Whole

end
-- ==== Proof.Spec.lean ====
/-
  The two similarity matrices of the loss, as plain functions on the extended reals, index by index.

  A vector x is normalised as x k / max (sqrt (sum of squares)) eps, eps the single-precision word both programs
  carry for 1e-12. The image-text similarity at (i, j) is the inner product of normalised image i and normalised
  text j. The region-concept similarity at (m, v) takes, for each concept w of sample v, the largest inner product
  of a normalised patch of image m with the normalised concept (a fold of max from minus infinity over the 196
  patches), keeps it where w is below v's concept count, sums over w, and divides by the count.
-/
import Idealize.ShloMosaic.PureOps.Ideal
import Idealize.ShloMosaic.PureOps.Ideal.Laws

noncomputable section

namespace Cert.Align

open Idealize.ShloMosaic

/-- The floor under a norm: the single-precision word for 1e-12, the same word in both programs. -/
def eps : EReal := Ideal.ofBits .f32 0x2B8CBCCC#32

/-- Minus infinity as both programs write it: the value a running maximum starts from. -/
def negInf : EReal := Ideal.ofBits .f32 0xFF800000#32

/-- Entry k of a vector divided by the larger of its Euclidean norm and eps. -/
def unit {K : Type} [Fintype K] (x : K → EReal) (k : K) : EReal :=
  Ideal.div (x k) (max (Ideal.sqrt (∑ k', x k' * x k')) eps)

/-- Cosine of image i and text j. -/
def cosIT (img txt : Fin 128 → Fin 768 → EReal) (i j : Fin 128) : EReal :=
  ∑ d : Fin 768, unit (img i) d * unit (txt j) d

/-- Cosine of patch n of image m and concept w of sample v. -/
def cosPC (P : Fin 128 → Fin 196 → Fin 768 → EReal) (C : Fin 128 → Fin 32 → Fin 768 → EReal)
    (m : Fin 128) (n : Fin 196) (v : Fin 128) (w : Fin 32) : EReal :=
  ∑ d : Fin 768, unit (P m n) d * unit (C v w) d

/-- The best patch of image m for concept w of sample v. -/
def pooled (P : Fin 128 → Fin 196 → Fin 768 → EReal) (C : Fin 128 → Fin 32 → Fin 768 → EReal)
    (m v : Fin 128) (w : Fin 32) : EReal :=
  (Finset.univ : Finset (Fin 196)).fold max negInf (fun n => cosPC P C m n v w)

/-- One where concept w is below sample v's count (a signed comparison of 32-bit words), else zero. -/
def maskAt (c : Fin 128 → BitVec 32) (v : Fin 128) (w : Fin 32) : EReal :=
  FloatOps.uitofp (F := Ideal) .f32 (IntOp.cmpi .slt (BitVec.ofNat 32 w.val) (c v))

/-- Sample v's concept count as a real (the signed value of its 32-bit word). -/
def cntAt (c : Fin 128 → BitVec 32) (v : Fin 128) : EReal :=
  FloatOps.sitofp (F := Ideal) .f32 (c v)

/-- Entry (v, v') of the identity matrix as the programs build it: the comparison of two iotas, converted. -/
def eyeAt (v v' : Fin 128) : EReal :=
  FloatOps.uitofp (F := Ideal) .f32 (IntOp.cmpi .eq (IntOp.addi (BitVec.ofNat 32 v.val) 0#32) (BitVec.ofNat 32 v'.val))

/-- The region-concept similarity of image m and sample v. -/
def simRC (P : Fin 128 → Fin 196 → Fin 768 → EReal) (C : Fin 128 → Fin 32 → Fin 768 → EReal)
    (c : Fin 128 → BitVec 32) (m v : Fin 128) : EReal :=
  Ideal.div (∑ w : Fin 32, pooled P C m v w * maskAt c v w) (cntAt c v)

end Cert.Align

end
-- ==== Proof.KPrep.lean ====
/-
  The grouping matrix and the counts row that the kernel program's host side prepares between its two kernels.

  From the 128 concept counts the host side builds the ragged mask (entry (v, w) is one where w is below sample
  v's count) and the 128 x 128 identity matrix, copies the mask along a new last axis and the identity along a
  new middle axis, multiplies the two 128 x 32 x 128 arrays entry by entry, and lays the product out as a
  4096 x 128 matrix: row q = 32 v + w holds the mask's entry (v, w) in column v and zero elsewhere. The counts
  row is the 128 counts, converted, as a one-row matrix. Both are named here as terms of the counts array, and
  read at an index.
-/
import proofs.«175475_j58832462021083_1_alg».proof.Proof.Gen.KernelIdeal
import proofs.«175475_j58832462021083_1_alg».proof.Proof.Gen.KernelIdeal.Launch
import proofs.«175475_j58832462021083_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Run
import Idealize.ShloMosaic.PureOps.Ideal.Laws

noncomputable section

namespace Cert.KernelIdeal.Prep

open Idealize.ShloMosaic Idealize.ShloMosaic.ValueIdx Cert.KernelIdeal Cert.KernelIdeal.Gen

/-! ## The two arrays as terms of the counts -/

section Terms
variable {F : FTy → Type} [FloatOps F]

/-- The ragged mask: entry (v, w) is one where w is below sample v's concept count, else zero. -/
def mask (a4 : IVec S128 32) : FVec F S128x32 .f32 :=
  uitofp .f32 (cmpi .slt
    (broadcastInDim S128x32 ![0, 1] bcast_S1x32_S128x32_0_1 (broadcastInDim S1x32 ![1] bcast_S32_S1x32_1 (iotaInDim S32 32 0)))
    (broadcastInDim S128x32 ![0, 1] bcast_S128x1_S128x32_0_1 (broadcastInDim S128x1 ![0] bcast_S128_S128x1_0 a4)))

/-- The 128 x 128 identity matrix: the comparison of the row number with the column number, converted. -/
def eye : FVec F S128x128 .f32 :=
  uitofp .f32 (cmpi .eq
    (addi (iotaInDim S128x128 32 0) (broadcastInDim S128x128 ![] bcast_S_S128x128 (constantI S_ 32 0#32)))
    (iotaInDim S128x128 32 1))

/-- The grouping matrix: row 32 v + w holds the mask's entry (v, w) in column v, zero elsewhere. -/
def gmask (a4 : IVec S128 32) : FVec F S4096x128 .bf16 :=
  truncf .bf16
    (shapeCast S4096x128
      (mulf
        (broadcastInDim S128x32x128 ![0, 1, 2] bcast_S128x32x1_S128x32x128_0_1_2
          (broadcastInDim S128x32x1 ![0, 1] bcast_S128x32_S128x32x1_0_1 (mask a4)))
        (broadcastInDim S128x32x128 ![0, 1, 2] bcast_S128x1x128_S128x32x128_0_1_2
          (broadcastInDim S128x1x128 ![0, 2] bcast_S128x128_S128x1x128_0_2 eye)))
      shapeCasts_S128x32x128_S4096x128)
    bitsLt_bf16_f32

/-- The counts row: the 128 concept counts, converted, as a one-row matrix. -/
def counts (a4 : IVec S128 32) : FVec F S1x128 .f32 :=
  broadcastInDim S1x128 ![1] bcast_S128_S1x128_1 (sitofp .f32 a4)

end Terms

/-! ## Broadcasts along new or unit axes, read at an index -/

section Broadcasts
variable {α : Type}

theorem bcast_S32_S1x32_apply (x : S32.Idx → α) (u : Fin 1) (w : Fin 32) :
    broadcastInDim S1x32 ![1] bcast_S32_S1x32_1 x (ix2 u w) = x (ix1 w) :=
  broadcastInDim_apply _ _ x _ _ fun a => match a with | ⟨0, _⟩ => rfl

theorem bcast_S1x32_S128x32_apply (x : S1x32.Idx → α) (v : Fin 128) (w : Fin 32) :
    broadcastInDim S128x32 ![0, 1] bcast_S1x32_S128x32_0_1 x (ix2 v w) = x (ix2 (0 : Fin 1) w) :=
  broadcastInDim_apply _ _ x _ _ fun a => match a with | ⟨0, _⟩ => rfl | ⟨1, _⟩ => rfl

theorem bcast_S128_S128x1_apply (x : S128.Idx → α) (v : Fin 128) (u : Fin 1) :
    broadcastInDim S128x1 ![0] bcast_S128_S128x1_0 x (ix2 v u) = x (ix1 v) :=
  broadcastInDim_apply _ _ x _ _ fun a => match a with | ⟨0, _⟩ => rfl

theorem bcast_S128x1_S128x32_apply (x : S128x1.Idx → α) (v : Fin 128) (w : Fin 32) :
    broadcastInDim S128x32 ![0, 1] bcast_S128x1_S128x32_0_1 x (ix2 v w) = x (ix2 v (0 : Fin 1)) :=
  broadcastInDim_apply _ _ x _ _ fun a => match a with | ⟨0, _⟩ => rfl | ⟨1, _⟩ => rfl

/-- A 128 x 32 matrix given a trailing unit axis reads the matrix's entry. -/
theorem bcast_S128x32_S128x32x1_apply (x : S128x32.Idx → α) (v : Fin 128) (w : Fin 32) (u : Fin 1) :
    broadcastInDim S128x32x1 ![0, 1] bcast_S128x32_S128x32x1_0_1 x (ix3 v w u) = x (ix2 v w) :=
  broadcastInDim_apply _ _ x _ _ fun a => match a with | ⟨0, _⟩ => rfl | ⟨1, _⟩ => rfl

/-- A 128 x 32 x 1 array copied along 128 entries of its last axis reads its one entry there. -/
theorem bcast_S128x32x1_S128x32x128_apply (x : S128x32x1.Idx → α) (v : Fin 128) (w : Fin 32) (v' : Fin 128) :
    broadcastInDim S128x32x128 ![0, 1, 2] bcast_S128x32x1_S128x32x128_0_1_2 x (ix3 v w v') = x (ix3 v w (0 : Fin 1)) :=
  broadcastInDim_apply _ _ x _ _ fun a => match a with | ⟨0, _⟩ => rfl | ⟨1, _⟩ => rfl | ⟨2, _⟩ => rfl

/-- A 128 x 128 matrix given a unit middle axis reads the matrix's entry. -/
theorem bcast_S128x128_S128x1x128_apply (x : S128x128.Idx → α) (v : Fin 128) (u : Fin 1) (v' : Fin 128) :
    broadcastInDim S128x1x128 ![0, 2] bcast_S128x128_S128x1x128_0_2 x (ix3 v u v') = x (ix2 v v') :=
  broadcastInDim_apply _ _ x _ _ fun a => match a with | ⟨0, _⟩ => rfl | ⟨1, _⟩ => rfl

/-- A 128 x 1 x 128 array copied along 32 entries of its middle axis reads its one entry there. -/
theorem bcast_S128x1x128_S128x32x128_apply (x : S128x1x128.Idx → α) (v : Fin 128) (w : Fin 32) (v' : Fin 128) :
    broadcastInDim S128x32x128 ![0, 1, 2] bcast_S128x1x128_S128x32x128_0_1_2 x (ix3 v w v') = x (ix3 v (0 : Fin 1) v') :=
  broadcastInDim_apply _ _ x _ _ fun a => match a with | ⟨0, _⟩ => rfl | ⟨1, _⟩ => rfl | ⟨2, _⟩ => rfl

/-- A vector of 128 entries made a one-row matrix reads the vector's entry. -/
theorem bcast_S128_S1x128_apply (x : S128.Idx → α) (u : Fin 1) (v : Fin 128) :
    broadcastInDim S1x128 ![1] bcast_S128_S1x128_1 x (ix2 u v) = x (ix1 v) :=
  broadcastInDim_apply _ _ x _ _ fun a => match a with | ⟨0, _⟩ => rfl

/-- A 128 x 32 x 128 array laid out as 4096 rows: row q is the pair (q / 32, q % 32). -/
theorem reshape_S128x32x128_S4096x128_apply (x : S128x32x128.Idx → α) (q : Fin 4096) (v' : Fin 128)
    (hv : q.val / 32 < 128) (hw : q.val % 32 < 32) :
    shapeCast S4096x128 x shapeCasts_S128x32x128_S4096x128 (ix2 q v') = x (ix3 ⟨q.val / 32, hv⟩ ⟨q.val % 32, hw⟩ v') :=
  shapeCast_apply x _ _ _ (by
    rw [Shape.rowMajor_val_three, Shape.rowMajor_val_two]
    show (q.val / 32 * 32 + q.val % 32) * 128 + v'.val = q.val * 128 + v'.val
    omega)

end Broadcasts

/-! ## The two arrays read at an index -/

/-- The ragged mask at (v, w). -/
theorem mask_apply (a4 : IVec S128 32) (v : Fin 128) (w : Fin 32) :
    mask (F := Ideal) a4 (ix2 v w) = Cert.Align.maskAt (fun v => a4 (ix1 v)) v w := by
  unfold mask Cert.Align.maskAt
  show FloatOps.uitofp (F := Ideal) .f32 (IntOp.cmpi .slt
      (broadcastInDim S128x32 ![0, 1] bcast_S1x32_S128x32_0_1
        (broadcastInDim S1x32 ![1] bcast_S32_S1x32_1 (iotaInDim S32 32 0)) (ix2 v w))
      (broadcastInDim S128x32 ![0, 1] bcast_S128x1_S128x32_0_1
        (broadcastInDim S128x1 ![0] bcast_S128_S128x1_0 a4) (ix2 v w))) = _
  rw [bcast_S1x32_S128x32_apply, bcast_S32_S1x32_apply, bcast_S128x1_S128x32_apply, bcast_S128_S128x1_apply]
  rfl

/-- The identity matrix at (v, v'). -/
theorem eye_apply (v v' : Fin 128) : eye (F := Ideal) (ix2 v v') = Cert.Align.eyeAt v v' := rfl

/-- The grouping matrix at (q, v'): the mask's entry (q / 32, q % 32) where v' is q / 32, zero elsewhere. -/
theorem gmask_apply (a4 : IVec S128 32) (q : Fin 4096) (v' : Fin 128) :
    gmask (F := Ideal) a4 (ix2 q v')
      = Cert.Align.maskAt (fun v => a4 (ix1 v)) ⟨q.val / 32, by have := q.isLt; omega⟩ ⟨q.val % 32, by omega⟩
          * Cert.Align.eyeAt ⟨q.val / 32, by have := q.isLt; omega⟩ v' := by
  unfold gmask
  refine (truncf_apply (φ := .f32) (ψ := .bf16) _ bitsLt_bf16_f32 (ix2 q v')).trans ?_
  refine (reshape_S128x32x128_S4096x128_apply _ q v' (by have := q.isLt; omega) (by omega)).trans ?_
  refine (mulf_apply _ _ _).trans ?_
  refine congrArg₂ (· * ·) ?_ ?_
  · refine (bcast_S128x32x1_S128x32x128_apply _ _ _ v').trans ?_
    refine (bcast_S128x32_S128x32x1_apply _ _ _ 0).trans ?_
    exact mask_apply a4 _ _
  · refine (bcast_S128x1x128_S128x32x128_apply _ _ _ v').trans ?_
    refine (bcast_S128x128_S128x1x128_apply _ _ 0 v').trans ?_
    exact eye_apply _ v'

/-- The counts row at column v'. -/
theorem counts_apply (a4 : IVec S128 32) (v' : Fin 128) :
    counts (F := Ideal) a4 (ix2 (0 : Fin 1) v') = Cert.Align.cntAt (fun v => a4 (ix1 v)) v' := by
  unfold counts
  refine (bcast_S128_S1x128_apply _ 0 v').trans ?_
  rfl

/-! ## What the host operations between the two kernels leave -/

section After
variable {F : FTy → Type} [FloatOps F]

/-- The grouping matrix's buffer holds the grouping matrix of the counts the operations found. -/
theorem after_gmask (X : Valuation τ sig (Elt F)) :
    StableHlo.after (hostOps1 (F := F)) X (Proc.devRef .tc main_v20) = gmask (X (Proc.devRef .tc main_arg4)) := by
  after_results_simp <;> rfl

/-- The counts row's buffer holds the counts row of the counts the operations found. -/
theorem after_counts (X : Valuation τ sig (Elt F)) :
    StableHlo.after (hostOps1 (F := F)) X (Proc.devRef .tc main_v22) = counts (X (Proc.devRef .tc main_arg4)) := by
  after_results_simp <;> rfl

/-- The operations write none of the arguments they read from, nor the first kernel's result. -/
theorem after_arg2 (X : Valuation τ sig (Elt F)) :
    StableHlo.after (hostOps1 (F := F)) X (Proc.devRef .tc main_arg2) = X (Proc.devRef .tc main_arg2) := by
  after_results_simp <;> rfl
theorem after_arg3 (X : Valuation τ sig (Elt F)) :
    StableHlo.after (hostOps1 (F := F)) X (Proc.devRef .tc main_arg3) = X (Proc.devRef .tc main_arg3) := by
  after_results_simp <;> rfl
theorem after_arg4 (X : Valuation τ sig (Elt F)) :
    StableHlo.after (hostOps1 (F := F)) X (Proc.devRef .tc main_arg4) = X (Proc.devRef .tc main_arg4) := by
  after_results_simp <;> rfl
theorem after_arg5 (X : Valuation τ sig (Elt F)) :
    StableHlo.after (hostOps1 (F := F)) X (Proc.devRef .tc main_arg5) = X (Proc.devRef .tc main_arg5) := by
  after_results_simp <;> rfl
theorem after_arg6 (X : Valuation τ sig (Elt F)) :
    StableHlo.after (hostOps1 (F := F)) X (Proc.devRef .tc main_arg6) = X (Proc.devRef .tc main_arg6) := by
  after_results_simp <;> rfl
theorem after_v0 (X : Valuation τ sig (Elt F)) :
    StableHlo.after (hostOps1 (F := F)) X (Proc.devRef .tc main_v0) = X (Proc.devRef .tc main_v0) := by
  after_results_simp <;> rfl

end After

end Cert.KernelIdeal.Prep

end
-- ==== Proof.KGlue.lean ====
/-
  The boundaries of the idealized kernel program, at the buffers the value needs. Between the launch and the first
  kernel nothing is written, so the first kernel finds the two feature arrays as launched. Between the two kernels
  the host builds the grouping matrix and the counts row from the integer counts and writes neither the patch nor the
  concept array, so the second kernel finds those two as launched and the other two at their terms of the counts.
  After the second kernel its output array holds what its write-backs left; the first kernel's output array, the
  scalar scale and the bias are untouched by everything in between.
-/
import proofs.«175475_j58832462021083_1_alg».proof.Proof.KRun
import proofs.«175475_j58832462021083_1_alg».proof.Proof.KPrep

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL.Sem

variable {F : FTy → Type} [FloatOps F]

variable (m : (ℓ : Loc nD τ sig) → Buf (Elt F) ℓ) (ρ : Dev nD → PrngReg)

/-- The first kernel finds the image features as launched. -/
theorem V0_arg0 (c : Dev nD) : V0 m ρ c main_arg0 = m ((c : Thread nD τ).loc main_arg0) := rfl
/-- The first kernel finds the text features as launched. -/
theorem V0_arg1 (c : Dev nD) : V0 m ρ c main_arg1 = m ((c : Thread nD τ).loc main_arg1) := rfl

/-- The second kernel finds the patch array as launched. -/
theorem V2_arg2 (c : Dev nD) : V2 m ρ c main_arg2 = m ((c : Thread nD τ).loc main_arg2) :=
  (Cert.KernelIdeal.Prep.after_arg2 (W1 m ρ c)).trans (W1_of_ne m ρ c main_arg2 (by decide))
/-- The second kernel finds the concept array as launched. -/
theorem V2_arg3 (c : Dev nD) : V2 m ρ c main_arg3 = m ((c : Thread nD τ).loc main_arg3) :=
  (Cert.KernelIdeal.Prep.after_arg3 (W1 m ρ c)).trans (W1_of_ne m ρ c main_arg3 (by decide))
/-- The second kernel finds the grouping matrix at its term of the launched counts. -/
theorem V2_v20 (c : Dev nD) : V2 m ρ c main_v20 = Cert.KernelIdeal.Prep.gmask (m ((c : Thread nD τ).loc main_arg4)) :=
  (Cert.KernelIdeal.Prep.after_gmask (W1 m ρ c)).trans
    (congrArg Cert.KernelIdeal.Prep.gmask (W1_of_ne m ρ c main_arg4 (by decide)))
/-- The second kernel finds the counts row at its term of the launched counts. -/
theorem V2_v22 (c : Dev nD) : V2 m ρ c main_v22 = Cert.KernelIdeal.Prep.counts (m ((c : Thread nD τ).loc main_arg4)) :=
  (Cert.KernelIdeal.Prep.after_counts (W1 m ρ c)).trans
    (congrArg Cert.KernelIdeal.Prep.counts (W1_of_ne m ρ c main_arg4 (by decide)))

/-- After the second kernel the first kernel's output array still holds what the first kernel's write-backs left. -/
theorem W3_v0 (c : Dev nD) : W3 m ρ c (Proc.devRef .tc main_v0) = (dat0 (V0 m ρ) c).arrAt 2 cfg0.N :=
  (W3_of_ne m ρ c main_v0 (by decide)).trans
    ((Cert.KernelIdeal.Prep.after_v0 (W1 m ρ c)).trans (W1_arr m ρ c 2))
/-- After the second kernel its output array holds what its write-backs left. -/
theorem W3_v23 (c : Dev nD) : W3 m ρ c (Proc.devRef .tc main_v23) = (dat1 (V2 m ρ) c).arrAt 4 cfg1.N :=
  W3_arr m ρ c 4
/-- The scalar scale is as launched after the second kernel. -/
theorem W3_arg5 (c : Dev nD) : W3 m ρ c (Proc.devRef .tc main_arg5) = m ((c : Thread nD τ).loc main_arg5) :=
  (W3_of_ne m ρ c main_arg5 (by decide)).trans
    ((Cert.KernelIdeal.Prep.after_arg5 (W1 m ρ c)).trans (W1_of_ne m ρ c main_arg5 (by decide)))
/-- The bias is as launched after the second kernel. -/
theorem W3_arg6 (c : Dev nD) : W3 m ρ c (Proc.devRef .tc main_arg6) = m ((c : Thread nD τ).loc main_arg6) :=
  (W3_of_ne m ρ c main_arg6 (by decide)).trans
    ((Cert.KernelIdeal.Prep.after_arg6 (W1 m ρ c)).trans (W1_of_ne m ρ c main_arg6 (by decide)))

end Cert.KernelIdeal.Whole

end
-- ==== Proof.KVal0.lean ====
/-
  The first kernel's output array. Its grid has one point and every window's block is the whole array, so the
  array the region leaves is what that one point writes back: the body's stored value, the matrix product of the
  two row-normalised argument arrays, which read entry by entry is the matrix of image-text cosines. The reading of
  the stored value at an entry is taken as a hypothesis here and supplied where the pieces are assembled.
-/
import proofs.«175475_j58832462021083_1_alg».proof.Proof.Gen.KernelIdeal.Frame
import proofs.«175475_j58832462021083_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The image-text cosine matrix of two 128 x 768 arrays. -/
def G0 (a0 a1 : S128x768.Idx → EReal) : S128x128.Idx → EReal :=
  fun idx => Cert.Align.cosIT (fun i k => a0 (ix2 i k)) (fun j k => a1 (ix2 j k)) (idx 0) (idx 1)

/-- The printed index maps of the first kernel over its one-point grid: every block index is zero. -/
theorem idx0_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first input block is the first argument array, entry by entry. -/
theorem iblk0_0_apply (c : Dev nD) (t : Fin cfg0.N) (i : Fin 128) (k : Fin 768) :
    (iblk0 V c 0 t : Vec Ideal S128x768 .f32) (ix2 i k) = V c main_arg0 (ix2 i k) := by
  obtain ⟨e0, e1, -⟩ := idx0_facts t
  unfold iblk0
  rw [View.read_apply]
  show V c main_arg0 _ = V c main_arg0 _
  refine congrArg (V c main_arg0) ?_
  funext a; apply Fin.ext
  match a with
  | ⟨0, _⟩ => show win0_0.index t (0 : Fin 2) * 128 + 1 * i.val = i.val; rw [e0]; omega
  | ⟨1, _⟩ => show win0_0.index t (1 : Fin 2) * 768 + 1 * k.val = k.val; rw [e1]; omega

/-- The second input block is the second argument array, entry by entry. -/
theorem iblk0_1_apply (c : Dev nD) (t : Fin cfg0.N) (i : Fin 128) (k : Fin 768) :
    (iblk0 V c 1 t : Vec Ideal S128x768 .f32) (ix2 i k) = V c main_arg1 (ix2 i k) := by
  obtain ⟨-, -, e0, e1, -⟩ := idx0_facts t
  unfold iblk0
  rw [View.read_apply]
  show V c main_arg1 _ = V c main_arg1 _
  refine congrArg (V c main_arg1) ?_
  funext a; apply Fin.ext
  match a with
  | ⟨0, _⟩ => show win0_1.index t (0 : Fin 2) * 128 + 1 * i.val = i.val; rw [e0]; omega
  | ⟨1, _⟩ => show win0_1.index t (1 : Fin 2) * 768 + 1 * k.val = k.val; rw [e1]; omega

/-- The stored value of two blocks that are the arrays, at an entry whose coordinates are those of an array index. -/
theorem stored0_eq
    (hpay : ∀ (x0 x1 : Vec Ideal S128x768 .f32) (i j : Fin 128),
      k0_pay1 (F := Ideal) x0 x1 (ix2 i j) = Cert.Align.cosIT (fun i k => x0 (ix2 i k)) (fun j k => x1 (ix2 j k)) i j)
    (x0 x1 : Vec Ideal S128x768 .f32) (a0 a1 : S128x768.Idx → EReal)
    (h0 : ∀ (i : Fin 128) (k : Fin 768), x0 (ix2 i k) = a0 (ix2 i k))
    (h1 : ∀ (i : Fin 128) (k : Fin 768), x1 (ix2 i k) = a1 (ix2 i k))
    (j i : S128x128.Idx) (e0 : (i 0).val = (j 0).val) (e1 : (i 1).val = (j 1).val) :
    k0_pay1 (F := Ideal) x0 x1 j = G0 a0 a1 i := by
  obtain ⟨p, q, rfl⟩ : ∃ (p q : Fin 128), j = ix2 p q := ⟨j 0, j 1, eq_ix2 j⟩
  have hi : i = ix2 p q := by
    rw [eq_ix2 i]
    exact congrArg₂ ix2 (Fin.ext e0) (Fin.ext e1)
  subst hi
  rw [hpay]
  unfold G0
  have u0 : (fun (i : Fin 128) (k : Fin 768) => x0 (ix2 i k)) = fun i k => a0 (ix2 i k) :=
    funext fun i => funext fun k => h0 i k
  have u1 : (fun (i : Fin 128) (k : Fin 768) => x1 (ix2 i k)) = fun i k => a1 (ix2 i k) :=
    funext fun i => funext fun k => h1 i k
  rw [u0, u1]

/-- What the one point writes back is its block of the cosine matrix of the two arrays as the region finds them. -/
theorem flushed0_eq
    (hpay : ∀ (x0 x1 : Vec Ideal S128x768 .f32) (i j : Fin 128),
      k0_pay1 (F := Ideal) x0 x1 (ix2 i j) = Cert.Align.cosIT (fun i k => x0 (ix2 i k)) (fun j k => x1 (ix2 j k)) i j)
    (c : Dev nD) (t : Fin cfg0.N) :
    (dat0 V c).flushed 2 t = ((cfg0.win 2).blk t).view.read (Elt Ideal) (G0 (V c main_arg0) (V c main_arg1)) := by
  show (cfg0.win 2).cut (grid0.coords t) ((dat0 V c).after 2 t) = _
  rw [after0_2]
  unfold out0_2
  rw [View.canon_unit_zero hz2]
  simp only [View.ld_unit_zero (S := S128x768) hz2]
  funext j
  obtain ⟨-, -, -, -, e0, e1⟩ := idx0_facts t
  show k0_pay1 (F := Ideal) (iblk0 V c 0 t) (iblk0 V c 1 t) j
    = G0 (V c main_arg0) (V c main_arg1) (((cfg0.win 2).blk t).view.emb j)
  refine stored0_eq hpay (iblk0 V c 0 t) (iblk0 V c 1 t) (V c main_arg0) (V c main_arg1)
    (iblk0_0_apply V c t) (iblk0_1_apply V c t) j _ ?_ ?_
  · show win0_2.index t (0 : Fin 2) * 128 + 1 * (j 0).val = (j 0).val; rw [e0]; omega
  · show win0_2.index t (1 : Fin 2) * 128 + 1 * (j 1).val = (j 1).val; rw [e1]; omega

/-- An index of the output array is in the point's block iff each coordinate is in the block's range. -/
theorem mem_blk0 (t : Fin cfg0.N) (i : S128x128.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v0).slice (win0_2.rect t)).set ↔ _
  rw [View.set_slice_whole, Rect.mem_set_unit]
  exact Iff.rfl

/-- The first kernel's output array after its region: the image-text cosine matrix of the two argument arrays. -/
theorem final0
    (hpay : ∀ (x0 x1 : Vec Ideal S128x768 .f32) (i j : Fin 128),
      k0_pay1 (F := Ideal) x0 x1 (ix2 i j) = Cert.Align.cosIT (fun i k => x0 (ix2 i k)) (fun j k => x1 (ix2 j k)) i j)
    (c : Dev nD) : (dat0 V c).arrAt 2 cfg0.N = G0 (V c main_arg0) (V c main_arg1) :=
  (dat0 V c).arrAt_eq_of_cover 2 (G0 (V c main_arg0) (V c main_arg1)) (fun t _ => flushed0_eq V hpay c t) fun i =>
    ⟨t0_0, flush0_2 t0_0, by
      rw [mem_blk0]
      obtain ⟨-, -, -, -, e0, e1⟩ := idx0_facts t0_0
      have h0 : (i 0).val < 128 := (i 0).isLt
      have h1 : (i 1).val < 128 := (i 1).isLt
      intro a
      match a with
      | ⟨0, _⟩ => show win0_2.index t0_0 (0 : Fin 2) * 128 ≤ (i 0).val ∧ (i 0).val < win0_2.index t0_0 (0 : Fin 2) * 128 + 128; rw [e0]; omega
      | ⟨1, _⟩ => show win0_2.index t0_0 (1 : Fin 2) * 128 ≤ (i 1).val ∧ (i 1).val < win0_2.index t0_0 (1 : Fin 2) * 128 + 128; rw [e1]; omega⟩

end Cert.KernelIdeal.Whole

end
-- ==== Proof.Group.lean ====
/-
  The grouping product, collapsed.

  The masked mean over the 32 concepts of a sample is computed as a matrix product with a 4096 x 128 matrix
  whose row q = 32 v + w holds mask v w * eye v v' in column v'. The 4096 rows are walked in four chunks of
  1024 rows, and the four partial sums are added to a zero accumulator from left to right.

  Row j of chunk c is the pair (sample 32 c + j / 32, concept j % 32), and (c, j) -> (sample, concept) is a
  bijection of Fin 4 x Fin 1024 with Fin 128 x Fin 32 (its inverse sends (v, w) to (v / 32, 32 (v % 32) + w)).
  The identity entry eye v v' is one when v = v' and zero otherwise. On the extended reals a * 0 = 0 and
  a * 1 = a hold for every a, infinite or not, and addition is commutative and associative, so the sum over all
  rows keeps exactly the 32 rows of sample v', each without its identity factor: the sum over w of
  f v' w * mask v' w. Nothing here needs finiteness, cancellation or distributivity.
-/
import proofs.«175475_j58832462021083_1_alg».proof.Proof.Spec
import Mathlib.Algebra.BigOperators.Fin
import Mathlib.Algebra.BigOperators.Group.Finset.Sigma

noncomputable section

open Idealize.ShloMosaic

namespace Cert.Align.Group

/-- The sample of row j of chunk c of the grouped rows. -/
def sampleOf (c : Fin 4) (j : Fin 1024) : Fin 128 := ⟨32 * c.val + j.val / 32, by omega⟩

/-- The concept of row j of a chunk. -/
def conceptOf (j : Fin 1024) : Fin 32 := ⟨j.val % 32, by omega⟩

/-- One chunk's partial sum in column v'. -/
def chunkSum (f mask : Fin 128 → Fin 32 → EReal) (v' : Fin 128) (c : Fin 4) : EReal :=
  ∑ j : Fin 1024, f (sampleOf c j) (conceptOf j) * (mask (sampleOf c j) (conceptOf j) * Cert.Align.eyeAt (sampleOf c j) v')

/-- A one-bit word converts to its value as a natural number, read as a real. -/
theorem uitofp_bit (b : BitVec 1) :
    FloatOps.uitofp (F := Ideal) .f32 b = ((b.toNat : ℝ) : EReal) := rfl

/-- The identity entry is the indicator of v = v': adding the zero word changes nothing, two words below 2^32
    are equal exactly when their numbers are, and the one-bit words 1 and 0 convert to the reals 1 and 0. -/
theorem eyeAt_eq (v v' : Fin 128) : Cert.Align.eyeAt v v' = if v = v' then 1 else 0 := by
  unfold Cert.Align.eyeAt
  rw [uitofp_bit]
  unfold IntOp.cmpi IntOp.addi
  simp only [BitVec.add_zero]
  by_cases h : v = v'
  · subst h
    simp
  · have hne : (BitVec.ofNat 32 v.val == BitVec.ofNat 32 v'.val) = false := by
      rw [beq_eq_false_iff_ne]
      intro hEq
      apply h
      have hN := congrArg BitVec.toNat hEq
      simp only [BitVec.toNat_ofNat] at hN
      have hv : v.val < 2 ^ 32 := by have := v.isLt; omega
      have hv' : v'.val < 2 ^ 32 := by have := v'.isLt; omega
      rw [Nat.mod_eq_of_lt hv, Nat.mod_eq_of_lt hv'] at hN
      exact Fin.ext hN
    rw [hne]
    simp [h]

/-- The rows of the four chunks are the (sample, concept) pairs, each exactly once: j = 32 (j / 32) + j % 32
    with j / 32 < 32, and v = 32 (v / 32) + v % 32 with v / 32 < 4. -/
def rowEquiv : Fin 4 × Fin 1024 ≃ Fin 128 × Fin 32 where
  toFun p := (sampleOf p.1 p.2, conceptOf p.2)
  invFun q := (⟨q.1.val / 32, by omega⟩, ⟨32 * (q.1.val % 32) + q.2.val, by omega⟩)
  left_inv := by
    rintro ⟨c, j⟩
    apply Prod.ext <;> apply Fin.ext <;> dsimp only [sampleOf, conceptOf] <;> omega
  right_inv := by
    rintro ⟨v, w⟩
    apply Prod.ext <;> apply Fin.ext <;> dsimp only [sampleOf, conceptOf] <;> omega

/-- The term of the grouped sum at a (sample, concept) pair. -/
def term (f mask : Fin 128 → Fin 32 → EReal) (v' : Fin 128) (q : Fin 128 × Fin 32) : EReal :=
  f q.1 q.2 * (mask q.1 q.2 * Cert.Align.eyeAt q.1 v')

/-- Over the concepts of one sample v the terms sum to the masked sum when v = v' (each factor one drops)
    and to zero otherwise (each term is a product with zero). -/
theorem sum_term (f mask : Fin 128 → Fin 32 → EReal) (v' v : Fin 128) :
    ∑ w : Fin 32, term f mask v' (v, w) = if v = v' then ∑ w : Fin 32, f v w * mask v w else 0 := by
  by_cases h : v = v'
  · simp only [term, eyeAt_eq, h, if_true, mul_one]
  · simp only [term, eyeAt_eq, h, if_false, mul_zero, Finset.sum_const_zero]

/-- The four partial sums, added to zero from left to right, are the masked sum over the concepts of v'. -/
theorem grouped_sum (f mask : Fin 128 → Fin 32 → EReal) (v' : Fin 128) :
    (((0 + chunkSum f mask v' 0) + chunkSum f mask v' 1) + chunkSum f mask v' 2) + chunkSum f mask v' 3 = ∑ w : Fin 32, f v' w * mask v' w := by
  -- the left-to-right accumulation from zero is the sum over the four chunks
  have h4 : (((0 + chunkSum f mask v' 0) + chunkSum f mask v' 1) + chunkSum f mask v' 2) + chunkSum f mask v' 3
      = ∑ c : Fin 4, chunkSum f mask v' c := by
    rw [Fin.sum_univ_four, zero_add]
  -- the sum over chunks and rows is a sum over pairs (chunk, row)
  have h1 : ∑ c : Fin 4, chunkSum f mask v' c = ∑ p : Fin 4 × Fin 1024, term f mask v' (rowEquiv p) := by
    rw [Fintype.sum_prod_type]
    rfl
  -- re-index by (sample, concept), then sum sample by sample
  rw [h4, h1, Fintype.sum_equiv rowEquiv (fun p => term f mask v' (rowEquiv p)) (term f mask v') (fun _ => rfl),
    Fintype.sum_prod_type]
  simp only [sum_term]
  rw [Finset.sum_ite_eq']
  simp

end Cert.Align.Group

end
-- ==== Proof.KVal1.lean ====
/-
  The second kernel's output array. Its grid walks the 128 images in 16 row blocks of 8; the concept array, the
  4096 x 128 grouping matrix and the counts row are whole at every point. At a point the body splits the 128
  samples into four chunks of 32: for a chunk it takes, for each of the chunk's 1024 (sample, concept) rows, the best
  cosine of one of the image's patches with that concept, multiplies the 8 x 1024 matrix of these with the chunk's
  1024 x 128 slab of the grouping matrix, and adds the product to a zero accumulator; at the end it divides each
  column by the count. So entry (m, v') of the array the region leaves is the quotient by the count of v' of the four
  chunk sums, each a sum over the chunk's rows of the pooled cosine times the grouping entry in column v'. The
  reading of the stored value at an entry of a block is taken as a hypothesis here and supplied at the assembly.
-/
import proofs.«175475_j58832462021083_1_alg».proof.Proof.Gen.KernelIdeal.Frame
import proofs.«175475_j58832462021083_1_alg».proof.Proof.Spec
import proofs.«175475_j58832462021083_1_alg».proof.Proof.Group
import Idealize.ShloMosaic.Lib.Pipeline.Value
import Idealize.ShloMosaic.Lib.ValueIdx
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem
open Idealize.ShloMosaic.Pipeline (Dat)
open Cert.Align.Group (sampleOf conceptOf)

variable (V : (c : Dev nD) → (b : Ref sig .tc) → Buf (Elt Ideal) ((c : Thread nD τ).loc b))

theorem hz2' : (![0, 0] : Fin 2 → Nat) = fun _ => 0 := funext fun a => by fin_cases a <;> rfl
theorem hz3 : (![0, 0, 0] : Fin 3 → Nat) = fun _ => 0 := funext fun a => by fin_cases a <;> rfl

/-- One chunk's contribution at row r of a block and column v': over the chunk's 1024 grouped rows, the best patch
    cosine (a fold of max from minus infinity over the 196 patches) times the grouping entry. -/
def chunkAt (y0 : Vec Ideal S8x196x768 .f32) (cc : Vec Ideal S32x32x768 .f32) (g : Vec Ideal S1024x128 .bf16) (r : Fin 8) (v' : Fin 128) : EReal :=
  ∑ j : Fin 1024, ((Finset.univ : Finset (Fin 196)).fold max Cert.Align.negInf fun n =>
      ∑ d : Fin 768, Cert.Align.unit (fun d => y0 (ix3 r n d)) d
        * Cert.Align.unit (fun d => cc (ix3 (⟨j.val / 32, by omega⟩ : Fin 32) (⟨j.val % 32, by omega⟩ : Fin 32) d)) d) * g (ix2 j v')

/-- Chunk c's sum for image m in column v', over the whole arrays: the pooled cosine of m with each (sample, concept)
    row of the chunk times the grouping matrix's entry in that row. -/
def groupAt (a2 : S128x196x768.Idx → EReal) (a3 : S128x32x768.Idx → EReal) (gm : S4096x128.Idx → EReal) (m v' : Fin 128) (c : Fin 4) : EReal :=
  ∑ j : Fin 1024, Cert.Align.pooled (fun m n d => a2 (ix3 m n d)) (fun v w d => a3 (ix3 v w d)) m (sampleOf c j) (conceptOf j)
    * gm (ix2 (⟨1024 * c.val + j.val, by omega⟩ : Fin 4096) v')

/-- The array the second kernel leaves, as a function of the patch array, the concept array, the grouping matrix and
    the counts row. -/
def G1 (a2 : S128x196x768.Idx → EReal) (a3 : S128x32x768.Idx → EReal) (gm : S4096x128.Idx → EReal) (cr : S1x128.Idx → EReal) :
    S128x128.Idx → EReal :=
  fun idx => Ideal.div ((((0 + groupAt a2 a3 gm (idx 0) (idx 1) 0) + groupAt a2 a3 gm (idx 0) (idx 1) 1)
      + groupAt a2 a3 gm (idx 0) (idx 1) 2) + groupAt a2 a3 gm (idx 0) (idx 1) 3) (cr (ix2 (0 : Fin 1) (idx 1)))

/-- The printed index maps of the second kernel, decided over its 16 points: the patch window and the output window
    move with the point along the image axis, every other block index is zero. -/
theorem idx1_facts : ∀ t : Fin cfg1.N, win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The patch block at point t is images 8 t … 8 t + 7 of the patch array. -/
theorem iblk1_0_apply (c : Dev nD) (t : Fin cfg1.N) (r : Fin 8) (n : Fin 196) (d : Fin 768) :
    (iblk1 V c 0 t : Vec Ideal S8x196x768 .f32) (ix3 r n d)
      = V c main_arg2 (ix3 (⟨8 * t.val + r.val, by have h : t.val < 16 := Nat.lt_of_lt_of_eq t.isLt N_1; omega⟩ : Fin 128) n d) := by
  obtain ⟨e0, e1, e2, -⟩ := idx1_facts t
  unfold iblk1
  rw [View.read_apply]
  show V c main_arg2 _ = V c main_arg2 _
  refine congrArg (V c main_arg2) ?_
  funext a; apply Fin.ext
  match a with
  | ⟨0, _⟩ => show win1_0.index t (0 : Fin 3) * 8 + 1 * r.val = 8 * t.val + r.val; rw [e0]; omega
  | ⟨1, _⟩ => show win1_0.index t (1 : Fin 3) * 196 + 1 * n.val = n.val; rw [e1]; omega
  | ⟨2, _⟩ => show win1_0.index t (2 : Fin 3) * 768 + 1 * d.val = d.val; rw [e2]; omega

/-- The concept block is the whole concept array. -/
theorem iblk1_1_apply (c : Dev nD) (t : Fin cfg1.N) (v : Fin 128) (w : Fin 32) (d : Fin 768) :
    (iblk1 V c 1 t : Vec Ideal S128x32x768 .f32) (ix3 v w d) = V c main_arg3 (ix3 v w d) := by
  obtain ⟨-, -, -, e0, e1, e2, -⟩ := idx1_facts t
  unfold iblk1
  rw [View.read_apply]
  show V c main_arg3 _ = V c main_arg3 _
  refine congrArg (V c main_arg3) ?_
  funext a; apply Fin.ext
  match a with
  | ⟨0, _⟩ => show win1_1.index t (0 : Fin 3) * 128 + 1 * v.val = v.val; rw [e0]; omega
  | ⟨1, _⟩ => show win1_1.index t (1 : Fin 3) * 32 + 1 * w.val = w.val; rw [e1]; omega
  | ⟨2, _⟩ => show win1_1.index t (2 : Fin 3) * 768 + 1 * d.val = d.val; rw [e2]; omega

/-- The grouping block is the whole grouping matrix. -/
theorem iblk1_2_apply (c : Dev nD) (t : Fin cfg1.N) (q : Fin 4096) (v' : Fin 128) :
    (iblk1 V c 2 t : Vec Ideal S4096x128 .bf16) (ix2 q v') = V c main_v20 (ix2 q v') := by
  obtain ⟨-, -, -, -, -, -, e0, e1, -⟩ := idx1_facts t
  unfold iblk1
  rw [View.read_apply]
  show V c main_v20 _ = V c main_v20 _
  refine congrArg (V c main_v20) ?_
  funext a; apply Fin.ext
  match a with
  | ⟨0, _⟩ => show win1_2.index t (0 : Fin 2) * 4096 + 1 * q.val = q.val; rw [e0]; omega
  | ⟨1, _⟩ => show win1_2.index t (1 : Fin 2) * 128 + 1 * v'.val = v'.val; rw [e1]; omega

/-- The counts block is the whole counts row. -/
theorem iblk1_3_apply (c : Dev nD) (t : Fin cfg1.N) (v' : Fin 128) :
    (iblk1 V c 3 t : Vec Ideal S1x128 .f32) (ix2 (0 : Fin 1) v') = V c main_v22 (ix2 (0 : Fin 1) v') := by
  obtain ⟨-, -, -, -, -, -, -, -, e0, e1, -⟩ := idx1_facts t
  unfold iblk1
  rw [View.read_apply]
  show V c main_v22 _ = V c main_v22 _
  refine congrArg (V c main_v22) ?_
  funext a; apply Fin.ext
  match a with
  | ⟨0, _⟩ => show win1_3.index t (0 : Fin 2) * 1 + 1 * 0 = 0; rw [e0]
  | ⟨1, _⟩ => show win1_3.index t (1 : Fin 2) * 128 + 1 * v'.val = v'.val; rw [e1]; omega

/-- A load of 32 samples of the concept array starting at sample o reads samples o … o + 31. -/
theorem ld_concepts (x1 : Vec Ideal S128x32x768 .f32) (o : Nat) (inb : ∀ a, (![o, 0, 0] : Fin 3 → Nat) a + S32x32x768.size a ≤ S128x32x768.size a)
    (ho : o + 32 ≤ 128) (a w : Fin 32) (d : Fin 768) :
    View.ld x1 (Rect.unit (s := S128x32x768) ![o, 0, 0] S32x32x768.size inb) (ix3 a w d)
      = x1 (ix3 (⟨o + a.val, by omega⟩ : Fin 128) w d) := by
  show x1 _ = x1 _
  refine congrArg x1 ?_
  funext ax; apply Fin.ext
  match ax with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + w.val = w.val; omega
  | ⟨2, _⟩ => simp only [LoadRect.idx_apply, Rect.emb_apply, Rect.off_unit, Rect.stride_unit, Nat.one_mul]; show 0 + d.val = d.val; omega

/-- A load of 1024 rows of the grouping matrix starting at row o reads rows o … o + 1023. -/
theorem ld_group (x2 : Vec Ideal S4096x128 .bf16) (o : Nat) (inb : ∀ a, (![o, 0] : Fin 2 → Nat) a + S1024x128.size a ≤ S4096x128.size a)
    (ho : o + 1024 ≤ 4096) (j : Fin 1024) (v' : Fin 128) :
    View.ld x2 (Rect.unit (s := S4096x128) ![o, 0] S1024x128.size inb) (ix2 j v')
      = x2 (ix2 (⟨o + j.val, by omega⟩ : Fin 4096) v') := by
  show x2 _ = x2 _
  refine congrArg x2 ?_
  funext ax; apply Fin.ext
  match ax with
  | ⟨0, _⟩ => simp only [LoadRect.idx_apply, Rect.emb_apply, Rect.off_unit, Rect.stride_unit, Nat.one_mul]; rfl
  | ⟨1, _⟩ => simp only [LoadRect.idx_apply, Rect.emb_apply, Rect.off_unit, Rect.stride_unit, Nat.one_mul]; show 0 + v'.val = v'.val; omega

/-- A chunk's contribution over blocks that are rows of the whole arrays is the chunk's sum over the whole arrays. -/
theorem chunk_eq (x0 : Vec Ideal S8x196x768 .f32) (cc : Vec Ideal S32x32x768 .f32) (g : Vec Ideal S1024x128 .bf16)
    (a2 : S128x196x768.Idx → EReal) (a3 : S128x32x768.Idx → EReal) (gm : S4096x128.Idx → EReal) (tv : Nat) (ht : tv < 16) (k : Fin 4)
    (oc og : Nat) (hoc : oc = 32 * k.val) (hog : og = 1024 * k.val)
    (h0 : ∀ (r : Fin 8) (n : Fin 196) (d : Fin 768), x0 (ix3 r n d) = a2 (ix3 (⟨8 * tv + r.val, by omega⟩ : Fin 128) n d))
    (hc : ∀ (a w : Fin 32) (d : Fin 768), cc (ix3 a w d) = a3 (ix3 (⟨oc + a.val, by omega⟩ : Fin 128) w d))
    (hg : ∀ (j : Fin 1024) (v' : Fin 128), g (ix2 j v') = gm (ix2 (⟨og + j.val, by omega⟩ : Fin 4096) v'))
    (r : Fin 8) (v' : Fin 128) :
    chunkAt x0 cc g r v' = groupAt a2 a3 gm (⟨8 * tv + r.val, by omega⟩ : Fin 128) v' k := by
  subst hoc hog
  unfold chunkAt groupAt
  refine Finset.sum_congr rfl fun j _ => ?_
  rw [hg j v']
  refine congrArg (· * gm (ix2 (⟨1024 * k.val + j.val, by omega⟩ : Fin 4096) v')) ?_
  unfold Cert.Align.pooled Cert.Align.cosPC
  refine congrArg (fun f => (Finset.univ : Finset (Fin 196)).fold max Cert.Align.negInf f) (funext fun n => ?_)
  refine Finset.sum_congr rfl fun d _ => ?_
  have u0 : (fun d => x0 (ix3 r n d)) = fun d => a2 (ix3 (⟨8 * tv + r.val, by omega⟩ : Fin 128) n d) := funext fun d => h0 r n d
  have u1 : (fun d => cc (ix3 (⟨j.val / 32, by omega⟩ : Fin 32) (⟨j.val % 32, by omega⟩ : Fin 32) d))
      = fun d => a3 (ix3 (sampleOf k j) (conceptOf j) d) := funext fun d => hc _ _ d
  rw [u0, u1]

/-- The body's stored value over blocks that are rows of the whole arrays, at an entry whose coordinates are those of
    an index of the output array: the array function there. -/
theorem stored1_eq
    (hpay : ∀ (y0 : Vec Ideal S8x196x768 .f32) (c0 c1 c2 c3 : Vec Ideal S32x32x768 .f32) (g0 g1 g2 g3 : Vec Ideal S1024x128 .bf16)
      (y3 : Vec Ideal S1x128 .f32) (r : Fin 8) (v' : Fin 128),
      k1_pay1 (F := Ideal) (k1_pay2 y0) (k1_pay6 (k1_pay2 y0) (k1_pay3 y0 c0 g0) c1 (k1_pay4 c1) (k1_pay5 (F := Ideal)) g1 c2 g2) c3 (k1_pay7 c3) (k1_pay8 (F := Ideal)) g3 y3 (ix2 r v')
        = Ideal.div ((((0 + chunkAt y0 c0 g0 r v') + chunkAt y0 c1 g1 r v') + chunkAt y0 c2 g2 r v') + chunkAt y0 c3 g3 r v') (y3 (ix2 (0 : Fin 1) v')))
    (x0 : Vec Ideal S8x196x768 .f32) (x1 : Vec Ideal S128x32x768 .f32) (x2 : Vec Ideal S4096x128 .bf16) (x3 : Vec Ideal S1x128 .f32)
    (a2 : S128x196x768.Idx → EReal) (a3 : S128x32x768.Idx → EReal) (gm : S4096x128.Idx → EReal) (cr : S1x128.Idx → EReal)
    (tv : Nat) (ht : tv < 16)
    (h0 : ∀ (r : Fin 8) (n : Fin 196) (d : Fin 768), x0 (ix3 r n d) = a2 (ix3 (⟨8 * tv + r.val, by omega⟩ : Fin 128) n d))
    (h1 : ∀ (v : Fin 128) (w : Fin 32) (d : Fin 768), x1 (ix3 v w d) = a3 (ix3 v w d))
    (h2 : ∀ (q : Fin 4096) (v' : Fin 128), x2 (ix2 q v') = gm (ix2 q v'))
    (h3 : ∀ v' : Fin 128, x3 (ix2 (0 : Fin 1) v') = cr (ix2 (0 : Fin 1) v'))
    (j : S8x128.Idx) (i : S128x128.Idx) (e0 : (i 0).val = 8 * tv + (j 0).val) (e1 : (i 1).val = (j 1).val) :
    k1_pay1 (F := Ideal) (k1_pay2 x0) (k1_pay6 (k1_pay2 x0) (k1_pay3 x0 (View.ld x1 r1_1) (View.ld x2 r1_2)) (View.ld x1 r1_3)
        (k1_pay4 (View.ld x1 r1_3)) (k1_pay5 (F := Ideal)) (View.ld x2 r1_4) (View.ld x1 r1_5) (View.ld x2 r1_6)) (View.ld x1 r1_7)
        (k1_pay7 (View.ld x1 r1_7)) (k1_pay8 (F := Ideal)) (View.ld x2 r1_8) x3 j
      = G1 a2 a3 gm cr i := by
  obtain ⟨r, v', rfl⟩ : ∃ (r : Fin 8) (v' : Fin 128), j = ix2 r v' := ⟨j 0, j 1, eq_ix2 j⟩
  have hi : i = ix2 (⟨8 * tv + r.val, by omega⟩ : Fin 128) v' := by
    rw [eq_ix2 i]
    exact congrArg₂ ix2 (Fin.ext e0) (Fin.ext e1)
  rw [hi, hpay]
  unfold G1
  rw [h3 v',
    chunk_eq x0 (View.ld x1 r1_1) (View.ld x2 r1_2) a2 a3 gm tv ht 0 0 0 rfl rfl h0
      (fun a w d => (ld_concepts x1 0 _ (by omega) a w d).trans (h1 _ w d))
      (fun j v' => (ld_group x2 0 _ (by omega) j v').trans (h2 _ v')) r v',
    chunk_eq x0 (View.ld x1 r1_3) (View.ld x2 r1_4) a2 a3 gm tv ht 1 32 1024 rfl rfl h0
      (fun a w d => (ld_concepts x1 32 _ (by omega) a w d).trans (h1 _ w d))
      (fun j v' => (ld_group x2 1024 _ (by omega) j v').trans (h2 _ v')) r v',
    chunk_eq x0 (View.ld x1 r1_5) (View.ld x2 r1_6) a2 a3 gm tv ht 2 64 2048 rfl rfl h0
      (fun a w d => (ld_concepts x1 64 _ (by omega) a w d).trans (h1 _ w d))
      (fun j v' => (ld_group x2 2048 _ (by omega) j v').trans (h2 _ v')) r v',
    chunk_eq x0 (View.ld x1 r1_7) (View.ld x2 r1_8) a2 a3 gm tv ht 3 96 3072 rfl rfl h0
      (fun a w d => (ld_concepts x1 96 _ (by omega) a w d).trans (h1 _ w d))
      (fun j v' => (ld_group x2 3072 _ (by omega) j v').trans (h2 _ v')) r v']

/-- What point t writes back is its block of the array function of the four arrays as the region finds them. -/
theorem flushed1_eq
    (hpay : ∀ (y0 : Vec Ideal S8x196x768 .f32) (c0 c1 c2 c3 : Vec Ideal S32x32x768 .f32) (g0 g1 g2 g3 : Vec Ideal S1024x128 .bf16)
      (y3 : Vec Ideal S1x128 .f32) (r : Fin 8) (v' : Fin 128),
      k1_pay1 (F := Ideal) (k1_pay2 y0) (k1_pay6 (k1_pay2 y0) (k1_pay3 y0 c0 g0) c1 (k1_pay4 c1) (k1_pay5 (F := Ideal)) g1 c2 g2) c3 (k1_pay7 c3) (k1_pay8 (F := Ideal)) g3 y3 (ix2 r v')
        = Ideal.div ((((0 + chunkAt y0 c0 g0 r v') + chunkAt y0 c1 g1 r v') + chunkAt y0 c2 g2 r v') + chunkAt y0 c3 g3 r v') (y3 (ix2 (0 : Fin 1) v')))
    (c : Dev nD) (t : Fin cfg1.N) :
    (dat1 V c).flushed 4 t
      = ((cfg1.win 4).blk t).view.read (Elt Ideal) (G1 (V c main_arg2) (V c main_arg3) (V c main_v20) (V c main_v22)) := by
  show (cfg1.win 4).cut (grid1.coords t) ((dat1 V c).after 4 t) = _
  rw [after1_4]
  unfold out1_4
  rw [View.canon_unit_zero hz2']
  simp only [View.ld_unit_zero (S := S8x196x768) hz3, View.ld_unit_zero (S := S1x128) hz2']
  funext j
  have ht : t.val < 16 := Nat.lt_of_lt_of_eq t.isLt N_1
  obtain ⟨-, -, -, -, -, -, -, -, -, -, e0, e1⟩ := idx1_facts t
  show k1_pay1 (F := Ideal) (k1_pay2 (iblk1 V c 0 t)) (k1_pay6 (k1_pay2 (iblk1 V c 0 t))
        (k1_pay3 (iblk1 V c 0 t) (View.ld (iblk1 V c 1 t) r1_1) (View.ld (iblk1 V c 2 t) r1_2)) (View.ld (iblk1 V c 1 t) r1_3)
        (k1_pay4 (View.ld (iblk1 V c 1 t) r1_3)) (k1_pay5 (F := Ideal)) (View.ld (iblk1 V c 2 t) r1_4) (View.ld (iblk1 V c 1 t) r1_5)
        (View.ld (iblk1 V c 2 t) r1_6)) (View.ld (iblk1 V c 1 t) r1_7) (k1_pay7 (View.ld (iblk1 V c 1 t) r1_7)) (k1_pay8 (F := Ideal))
        (View.ld (iblk1 V c 2 t) r1_8) (iblk1 V c 3 t) j
    = G1 (V c main_arg2) (V c main_arg3) (V c main_v20) (V c main_v22) (((cfg1.win 4).blk t).view.emb j)
  refine stored1_eq hpay (iblk1 V c 0 t) (iblk1 V c 1 t) (iblk1 V c 2 t) (iblk1 V c 3 t)
    (V c main_arg2) (V c main_arg3) (V c main_v20) (V c main_v22) t.val ht
    (iblk1_0_apply V c t) (iblk1_1_apply V c t) (iblk1_2_apply V c t) (iblk1_3_apply V c t) j _ ?_ ?_
  · show win1_4.index t (0 : Fin 2) * 8 + 1 * (j 0).val = 8 * t.val + (j 0).val; rw [e0]; omega
  · show win1_4.index t (1 : Fin 2) * 128 + 1 * (j 1).val = (j 1).val; rw [e1]; omega

/-- An index of the output array is in point t's block iff each coordinate is in the block's range. -/
theorem mem_blk1 (t : Fin cfg1.N) (i : S128x128.Idx) :
    i ∈ ((cfg1.win 4).blk t).view.set ↔ ∀ a : Fin 2, win1_4.index t a * S8x128.size a ≤ (i a).val ∧ (i a).val < win1_4.index t a * S8x128.size a + S8x128.size a := by
  show i ∈ ((View.whole main_v23).slice (win1_4.rect t)).set ↔ _
  rw [View.set_slice_whole, Rect.mem_set_unit]
  exact Iff.rfl

/-- The second kernel's output array after its region: the array function of the four arrays the region finds.
    Row m is written by point m / 8. -/
theorem final1
    (hpay : ∀ (y0 : Vec Ideal S8x196x768 .f32) (c0 c1 c2 c3 : Vec Ideal S32x32x768 .f32) (g0 g1 g2 g3 : Vec Ideal S1024x128 .bf16)
      (y3 : Vec Ideal S1x128 .f32) (r : Fin 8) (v' : Fin 128),
      k1_pay1 (F := Ideal) (k1_pay2 y0) (k1_pay6 (k1_pay2 y0) (k1_pay3 y0 c0 g0) c1 (k1_pay4 c1) (k1_pay5 (F := Ideal)) g1 c2 g2) c3 (k1_pay7 c3) (k1_pay8 (F := Ideal)) g3 y3 (ix2 r v')
        = Ideal.div ((((0 + chunkAt y0 c0 g0 r v') + chunkAt y0 c1 g1 r v') + chunkAt y0 c2 g2 r v') + chunkAt y0 c3 g3 r v') (y3 (ix2 (0 : Fin 1) v')))
    (c : Dev nD) :
    (dat1 V c).arrAt 4 cfg1.N = G1 (V c main_arg2) (V c main_arg3) (V c main_v20) (V c main_v22) :=
  (dat1 V c).arrAt_eq_of_cover 4 (G1 (V c main_arg2) (V c main_arg3) (V c main_v20) (V c main_v22))
    (fun t _ => flushed1_eq V hpay c t) fun i => by
      have h0 : (i 0).val < 128 := (i 0).isLt
      have h1 : (i 1).val < 128 := (i 1).isLt
      refine ⟨⟨(i 0).val / 8, by rw [show cfg1.N = 16 from N_1]; omega⟩, flush1_4 _, ?_⟩
      rw [mem_blk1]
      obtain ⟨-, -, -, -, -, -, -, -, -, -, e0, e1⟩ := idx1_facts ⟨(i 0).val / 8, by rw [show cfg1.N = 16 from N_1]; omega⟩
      intro a
      match a with
      | ⟨0, _⟩ =>
        show win1_4.index ⟨(i 0).val / 8, _⟩ (0 : Fin 2) * 8 ≤ (i 0).val ∧ (i 0).val < win1_4.index ⟨(i 0).val / 8, _⟩ (0 : Fin 2) * 8 + 8
        rw [e0]; show (i 0).val / 8 * 8 ≤ (i 0).val ∧ (i 0).val < (i 0).val / 8 * 8 + 8; omega
      | ⟨1, _⟩ =>
        show win1_4.index ⟨(i 0).val / 8, _⟩ (1 : Fin 2) * 128 ≤ (i 1).val ∧ (i 1).val < win1_4.index ⟨(i 0).val / 8, _⟩ (1 : Fin 2) * 128 + 128
        rw [e1]; omega

end Cert.KernelIdeal.Whole

end
-- ==== Proof.KPay.lean ====
/-
  The two kernels' stored values read entry by entry.

  Every vector operation of the kernels either acts entry by entry (a product, a quotient, a square root, a
  maximum, a rounding that is the identity on the extended reals), or copies entries (a splat, a copy along a
  unit axis, a reshape between row-major arrangements, a transpose), or combines the entries along one axis (a
  lane sum, a running maximum, the contraction of a matrix product into the zero splat). Read at an index given
  by its coordinates, each becomes the corresponding expression on the extended reals: a row divided by the
  larger of its Euclidean norm and the floor, the cosine of two rows, the best patch of an image for a concept,
  and the sum of those against the grouping matrix.
-/
import proofs.«175475_j58832462021083_1_alg».proof.Proof.Gen.KernelIdeal.Skeleton
import proofs.«175475_j58832462021083_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## Copies along unit axes, read at an index -/

section Layout
variable {α : Type}

/-- A vector of a entries made a one-column matrix reads the vector's entry. -/
theorem cast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt; omega)

/-- A one-column matrix copied along b columns reads its one column. -/
theorem bcast_a1_ab_apply {a b : ℕ} (x : (⟨2, ![a, 1]⟩ : Shape).Idx → α)
    (h : (⟨2, ![a, 1]⟩ : Shape).Broadcasts ⟨2, ![a, b]⟩) (i : Fin a) (k : Fin b) :
    broadcastTo ⟨2, ![a, b]⟩ x h (ix2 i k) = x (ix2 i (0 : Fin 1)) := by
  refine broadcastTo_apply x h (ix2 i k) (ix2 i (0 : Fin 1)) fun ax => ?_
  match ax with
  | ⟨0, _⟩ =>
    show i.val = if a = 1 then 0 else i.val
    split
    · have := i.isLt; omega
    · rfl
  | ⟨1, _⟩ => rfl

/-- An a x b matrix given a trailing unit axis reads the matrix's entry. -/
theorem cast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_two, Shape.rowMajor_val_three]
    show i.val * b + j.val = (i.val * b + j.val) * 1 + u.val
    have := u.isLt; omega)

/-- An a x b x 1 array copied along c entries of its last axis reads its one entry there. -/
theorem bcast_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## A row divided by the larger of its norm and the floor -/

/-- The lane sum of squares along a row of an a x b matrix. -/
theorem sumsq_ab_apply {a b : ℕ} (x : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ (mulf x x) 0x00000000#32 h hφ hacc (ix1 i)
      = ∑ k : Fin b, x (ix2 i k) * x (ix2 i k) := by
  refine (Ideal.multiReduction_add_single (mulf x x) 0x00000000#32 h hφ hacc (ix1 i)).trans ?_
  show ∑ k : Fin b, mulf x x (h.lift (ix1 i) k) = _
  refine Finset.sum_congr rfl fun k _ => ?_
  have e : h.lift (ix1 i) k = ix2 i k :=
    funext fun c => match c with | ⟨0, _⟩ => Fin.ext rfl | ⟨1, _⟩ => Fin.ext rfl
  rw [e]; rfl

/-- The lane sum of squares along the last axis of an a x b x c array. -/
theorem sumsq_abc_apply {a b c : ℕ} (x : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ (mulf x x) 0x00000000#32 h hφ hacc (ix2 i j)
      = ∑ k : Fin c, x (ix3 i j k) * x (ix3 i j k) := by
  refine (Ideal.multiReduction_add_single (mulf x x) 0x00000000#32 h hφ hacc (ix2 i j)).trans ?_
  show ∑ k : Fin c, mulf x x (h.lift (ix2 i j) k) = _
  refine Finset.sum_congr rfl fun k _ => ?_
  have e : h.lift (ix2 i j) k = ix3 i j k :=
    funext fun d => match d with | ⟨0, _⟩ => Fin.ext rfl | ⟨1, _⟩ => Fin.ext rfl | ⟨2, _⟩ => Fin.ext rfl
  rw [e]; rfl

/-- The floor under a norm, as a splat read anywhere. -/
theorem eps_apply {s : Shape} (i : s.Idx) :
    broadcast s (Scalar.ofBits (F := Ideal) .f32 0x2B8CBCCC#32) i = Cert.Align.eps := rfl

/-! ## The image-text kernel -/

/-- The kernel's normalisation of the rows of a 128 x 768 matrix. -/
def unitRows (x : FVec Ideal S128x768 .f32) : FVec Ideal S128x768 .f32 :=
  divf x (broadcastTo S128x768 (maximumf (sqrt (shapeCast S128x1
    (multiReduction .add [1] S128 (mulf x x) 0x00000000#32 reduces_S128x768_S128 (.inl rfl) rfl) shapeCasts_S128_S128x1))
    (broadcast S128x1 (Scalar.ofBits .f32 0x2B8CBCCC#32))) broadcasts_S128x1_S128x768)

/-- A row of a 128 x 768 matrix, normalised. -/
theorem unitRows_apply (x : FVec Ideal S128x768 .f32) (i : Fin 128) (k : Fin 768) :
    unitRows x (ix2 i k) = Cert.Align.unit (fun k => x (ix2 i k)) k := by
  unfold unitRows Cert.Align.unit
  refine (divf_apply _ _ _).trans ?_
  refine congrArg (Ideal.div (x (ix2 i k))) ?_
  refine (bcast_a1_ab_apply _ _ i k).trans ?_
  refine (maximumf_apply _ _ _).trans ?_
  refine congrArg₂ max ?_ (eps_apply _)
  refine congrArg Ideal.sqrt ?_
  exact (cast_a_a1_apply _ _ i 0).trans (sumsq_ab_apply x _ _ _ i)

/-- The 128 x 768 by 768 x 128 product into the zero splat at (i, j): the sum over the 768 shared coordinates. -/
theorem matmulIT_apply (A : FVec Ideal S128x768 .bf16) (B : FVec Ideal S768x128 .bf16) (i : Fin 128) (j : Fin 128) :
    matmul dot_S128x768_S768x128_S128x128_1_0_0_1_n_n none A B (constant (F := Ideal) S128x128 .f32 0x00000000#32) (ix2 i j)
      = ∑ d : Fin 768, A (ix2 i d) * B (ix2 d j) := by
  refine (Ideal.matmul_constant_zero_apply dot_S128x768_S768x128_S128x128_1_0_0_1_n_n none A B (ix2 i j)).trans ?_
  rw [← Equiv.sum_comp (contrEquiv1 dot_S128x768_S768x128_S128x128_1_0_0_1_n_n 768 rfl rfl).symm]
  refine Finset.sum_congr rfl fun d _ => ?_
  have c2 := contrEquiv1_symm_val dot_S128x768_S768x128_S128x128_1_0_0_1_n_n 768 rfl rfl d
  have l2 : dot_S128x768_S768x128_S128x128_1_0_0_1_n_n.lhsIdx (ix2 i j)
      ((contrEquiv1 dot_S128x768_S768x128_S128x128_1_0_0_1_n_n 768 rfl rfl).symm d) = ix2 i d := by
    funext ax; apply Fin.ext
    match ax with
    | ⟨0, _⟩ => simp [DotDims.lhsIdx, dot_S128x768_S768x128_S128x128_1_0_0_1_n_n]; rfl
    | ⟨1, _⟩ => simp [DotDims.lhsIdx, dot_S128x768_S768x128_S128x128_1_0_0_1_n_n]; exact c2
  have r2 : dot_S128x768_S768x128_S128x128_1_0_0_1_n_n.rhsIdx (ix2 i j)
      ((contrEquiv1 dot_S128x768_S768x128_S128x128_1_0_0_1_n_n 768 rfl rfl).symm d) = ix2 d j := by
    funext ax; apply Fin.ext
    match ax with
    | ⟨0, _⟩ => simp [DotDims.rhsIdx, dot_S128x768_S768x128_S128x128_1_0_0_1_n_n]; exact c2
    | ⟨1, _⟩ => simp [DotDims.rhsIdx, dot_S128x768_S768x128_S128x128_1_0_0_1_n_n]; rfl
  rw [l2, r2]

/-- The image-text kernel's stored value is the product of the normalised images with the transposed normalised texts. -/
theorem pay0_eq (x0 x1 : Vec Ideal S128x768 .f32) :
    k0_pay1 (F := Ideal) x0 x1
      = matmul dot_S128x768_S768x128_S128x128_1_0_0_1_n_n none (truncf .bf16 (unitRows x0) bitsLt_bf16_f32)
          (transpose S768x128 [1, 0] (truncf .bf16 (unitRows x1) bitsLt_bf16_f32) transposes_S128x768_p1_0_S768x128)
          (constant S128x128 .f32 0x00000000#32) := rfl

/-- The image-text kernel's stored value at (i, j) is the cosine of image i and text j. -/
theorem pay0_apply (x0 x1 : Vec Ideal S128x768 .f32) (i j : Fin 128) :
    k0_pay1 (F := Ideal) x0 x1 (ix2 i j)
      = Cert.Align.cosIT (fun i k => x0 (ix2 i k)) (fun j k => x1 (ix2 j k)) i j := by
  rw [pay0_eq]
  refine (matmulIT_apply _ _ i j).trans ?_
  unfold Cert.Align.cosIT
  refine Finset.sum_congr rfl fun d _ => ?_
  rw [transpose_ix2_apply, truncf_apply, truncf_apply, unitRows_apply, unitRows_apply]

/-! ## The region-concept kernel -/

/-- The kernel's normalisation along the last axis of an a x b x c array. -/
def unit3 {a b c : ℕ} (x : FVec Ideal ⟨3, ![a, b, c]⟩ .f32)
    (hr : (⟨3, ![a, b, c]⟩ : Shape).Reduces [2] ⟨2, ![a, b]⟩)
    (hc : (⟨2, ![a, b]⟩ : Shape).ShapeCasts ⟨3, ![a, b, 1]⟩)
    (hb : (⟨3, ![a, b, 1]⟩ : Shape).Broadcasts ⟨3, ![a, b, c]⟩) : FVec Ideal ⟨3, ![a, b, c]⟩ .f32 :=
  divf x (broadcastTo ⟨3, ![a, b, c]⟩ (maximumf (sqrt (shapeCast ⟨3, ![a, b, 1]⟩
    (multiReduction .add [2] ⟨2, ![a, b]⟩ (mulf x x) 0x00000000#32 hr (.inl rfl) rfl) hc))
    (broadcast ⟨3, ![a, b, 1]⟩ (Scalar.ofBits .f32 0x2B8CBCCC#32))) hb)

/-- A vector along the last axis of an a x b x c array, normalised. -/
theorem unit3_apply {a b c : ℕ} (x : FVec Ideal ⟨3, ![a, b, c]⟩ .f32)
    (hr : (⟨3, ![a, b, c]⟩ : Shape).Reduces [2] ⟨2, ![a, b]⟩)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    unit3 x hr hc hb (ix3 i j k) = Cert.Align.unit (fun k => x (ix3 i j k)) k := by
  unfold unit3 Cert.Align.unit
  refine (divf_apply _ _ _).trans ?_
  refine congrArg (Ideal.div (x (ix3 i j k))) ?_
  refine (bcast_ab1_abc_apply _ _ i j k).trans ?_
  refine (maximumf_apply _ _ _).trans ?_
  refine congrArg₂ max ?_ (eps_apply _)
  refine congrArg Ideal.sqrt ?_
  exact (cast_ab_ab1_apply _ _ i j 0).trans (sumsq_abc_apply x _ _ _ i j)

/-- The patch block normalised, rounded and laid out as 1568 rows. -/
theorem pay2_eq (y0 : Vec Ideal S8x196x768 .f32) :
    k1_pay2 (F := Ideal) y0
      = shapeCast S1568x768 (truncf .bf16
          (unit3 y0 reduces_S8x196x768_S8x196 shapeCasts_S8x196_S8x196x1 broadcasts_S8x196x1_S8x196x768)
          bitsLt_bf16_f32) shapeCasts_S8x196x768_S1568x768 := rfl

/-- Row 196 r + n of the 1568 rows is patch n of image r, normalised. -/
theorem pay2_apply (y0 : Vec Ideal S8x196x768 .f32) (r : Fin 8) (n : Fin 196) (d : Fin 768) :
    k1_pay2 (F := Ideal) y0 (ix2 (⟨196 * r.val + n.val, by omega⟩ : Fin 1568) d)
      = Cert.Align.unit (fun d => y0 (ix3 r n d)) d := by
  rw [pay2_eq]
  refine (shapeCast_apply _ _ _ (ix3 r n d) ?_).trans ?_
  · rw [Shape.rowMajor_val_three, Shape.rowMajor_val_two]
    show (r.val * 196 + n.val) * 768 + d.val = (196 * r.val + n.val) * 768 + d.val
    omega
  · exact (truncf_apply (ψ := .bf16) _ bitsLt_bf16_f32 _).trans (unit3_apply y0 _ _ _ r n d)

/-- Row j of a concept chunk laid out as 1024 rows is concept j % 32 of sample j / 32, normalised. -/
theorem concepts_apply (cc : Vec Ideal S32x32x768 .f32) (j : Fin 1024) (d : Fin 768) :
    shapeCast S1024x768 (truncf .bf16
        (unit3 cc reduces_S32x32x768_S32x32 shapeCasts_S32x32_S32x32x1 broadcasts_S32x32x1_S32x32x768)
        bitsLt_bf16_f32) shapeCasts_S32x32x768_S1024x768 (ix2 j d)
      = Cert.Align.unit (fun d => cc (ix3 (⟨j.val / 32, by omega⟩ : Fin 32) (⟨j.val % 32, by omega⟩ : Fin 32) d)) d := by
  refine (shapeCast_apply _ _ _ (ix3 (⟨j.val / 32, by omega⟩ : Fin 32) (⟨j.val % 32, by omega⟩ : Fin 32) d) ?_).trans ?_
  · rw [Shape.rowMajor_val_three, Shape.rowMajor_val_two]
    show (j.val / 32 * 32 + j.val % 32) * 768 + d.val = j.val * 768 + d.val
    omega
  · exact (truncf_apply (ψ := .bf16) _ bitsLt_bf16_f32 _).trans (unit3_apply cc _ _ _ _ _ d)

/-- The 1568 x 768 by 768 x 1024 product into the zero splat at (q, j): the sum over the 768 shared coordinates. -/
theorem matmulPC_apply (A : FVec Ideal S1568x768 .bf16) (B : FVec Ideal S768x1024 .bf16) (i : Fin 1568) (j : Fin 1024) :
    matmul dot_S1568x768_S768x1024_S1568x1024_1_0_0_1_n_n none A B (constant (F := Ideal) S1568x1024 .f32 0x00000000#32) (ix2 i j)
      = ∑ d : Fin 768, A (ix2 i d) * B (ix2 d j) := by
  refine (Ideal.matmul_constant_zero_apply dot_S1568x768_S768x1024_S1568x1024_1_0_0_1_n_n none A B (ix2 i j)).trans ?_
  rw [← Equiv.sum_comp (contrEquiv1 dot_S1568x768_S768x1024_S1568x1024_1_0_0_1_n_n 768 rfl rfl).symm]
  refine Finset.sum_congr rfl fun d _ => ?_
  have c2 := contrEquiv1_symm_val dot_S1568x768_S768x1024_S1568x1024_1_0_0_1_n_n 768 rfl rfl d
  have l2 : dot_S1568x768_S768x1024_S1568x1024_1_0_0_1_n_n.lhsIdx (ix2 i j)
      ((contrEquiv1 dot_S1568x768_S768x1024_S1568x1024_1_0_0_1_n_n 768 rfl rfl).symm d) = ix2 i d := by
    funext ax; apply Fin.ext
    match ax with
    | ⟨0, _⟩ => simp [DotDims.lhsIdx, dot_S1568x768_S768x1024_S1568x1024_1_0_0_1_n_n]; rfl
    | ⟨1, _⟩ => simp [DotDims.lhsIdx, dot_S1568x768_S768x1024_S1568x1024_1_0_0_1_n_n]; exact c2
  have r2 : dot_S1568x768_S768x1024_S1568x1024_1_0_0_1_n_n.rhsIdx (ix2 i j)
      ((contrEquiv1 dot_S1568x768_S768x1024_S1568x1024_1_0_0_1_n_n 768 rfl rfl).symm d) = ix2 d j := by
    funext ax; apply Fin.ext
    match ax with
    | ⟨0, _⟩ => simp [DotDims.rhsIdx, dot_S1568x768_S768x1024_S1568x1024_1_0_0_1_n_n]; exact c2
    | ⟨1, _⟩ => simp [DotDims.rhsIdx, dot_S1568x768_S768x1024_S1568x1024_1_0_0_1_n_n]; rfl
  rw [l2, r2]

/-- The 8 x 1024 by 1024 x 128 product into the zero splat at (r, v): the sum over the 1024 shared coordinates. -/
theorem matmulG_apply (A : FVec Ideal S8x1024 .bf16) (B : FVec Ideal S1024x128 .bf16) (i : Fin 8) (j : Fin 128) :
    matmul dot_S8x1024_S1024x128_S8x128_1_0_0_1_n_n none A B (constant (F := Ideal) S8x128 .f32 0x00000000#32) (ix2 i j)
      = ∑ d : Fin 1024, A (ix2 i d) * B (ix2 d j) := by
  refine (Ideal.matmul_constant_zero_apply dot_S8x1024_S1024x128_S8x128_1_0_0_1_n_n none A B (ix2 i j)).trans ?_
  rw [← Equiv.sum_comp (contrEquiv1 dot_S8x1024_S1024x128_S8x128_1_0_0_1_n_n 1024 rfl rfl).symm]
  refine Finset.sum_congr rfl fun d _ => ?_
  have c2 := contrEquiv1_symm_val dot_S8x1024_S1024x128_S8x128_1_0_0_1_n_n 1024 rfl rfl d
  have l2 : dot_S8x1024_S1024x128_S8x128_1_0_0_1_n_n.lhsIdx (ix2 i j)
      ((contrEquiv1 dot_S8x1024_S1024x128_S8x128_1_0_0_1_n_n 1024 rfl rfl).symm d) = ix2 i d := by
    funext ax; apply Fin.ext
    match ax with
    | ⟨0, _⟩ => simp [DotDims.lhsIdx, dot_S8x1024_S1024x128_S8x128_1_0_0_1_n_n]; rfl
    | ⟨1, _⟩ => simp [DotDims.lhsIdx, dot_S8x1024_S1024x128_S8x128_1_0_0_1_n_n]; exact c2
  have r2 : dot_S8x1024_S1024x128_S8x128_1_0_0_1_n_n.rhsIdx (ix2 i j)
      ((contrEquiv1 dot_S8x1024_S1024x128_S8x128_1_0_0_1_n_n 1024 rfl rfl).symm d) = ix2 d j := by
    funext ax; apply Fin.ext
    match ax with
    | ⟨0, _⟩ => simp [DotDims.rhsIdx, dot_S8x1024_S1024x128_S8x128_1_0_0_1_n_n]; exact c2
    | ⟨1, _⟩ => simp [DotDims.rhsIdx, dot_S8x1024_S1024x128_S8x128_1_0_0_1_n_n]; rfl
  rw [l2, r2]

/-- The running maximum over the 196 patches, started from minus infinity. -/
theorem maxP_apply (X : FVec Ideal S8x196x1024 .f32) (r : Fin 8) (j : Fin 1024) :
    multiReduction .maximumf [1] S8x1024 X 0xFF800000#32 reduces_S8x196x1024_S8x1024 (.inl rfl) rfl (ix2 r j)
      = (Finset.univ : Finset (Fin 196)).fold max Cert.Align.negInf (fun n => X (ix3 r n j)) := by
  have e : ∀ n : Fin 196, reduces_S8x196x1024_S8x1024.lift (ix2 r j) n = ix3 r n j := fun n =>
    funext fun c => match c with | ⟨0, _⟩ => Fin.ext rfl | ⟨1, _⟩ => Fin.ext rfl | ⟨2, _⟩ => Fin.ext rfl
  refine (Ideal.multiReduction_maximumf_single X 0xFF800000#32 reduces_S8x196x1024_S8x1024 (.inl rfl) rfl (ix2 r j)).trans ?_
  show (Finset.univ : Finset (Fin 196)).fold max Cert.Align.negInf (X ∘ reduces_S8x196x1024_S8x1024.lift (ix2 r j)) = _
  exact congrArg (fun f => (Finset.univ : Finset (Fin 196)).fold max Cert.Align.negInf f)
    (funext fun n => congrArg X (e n))

/-- The 1568 x 1024 products seen as 8 x 196 x 1024: entry (r, n, j) is row 196 r + n, column j. -/
theorem castP_apply {α : Type} (M : S1568x1024.Idx → α) (r : Fin 8) (n : Fin 196) (j : Fin 1024) :
    shapeCast S8x196x1024 M shapeCasts_S1568x1024_S8x196x1024 (ix3 r n j)
      = M (ix2 (⟨196 * r.val + n.val, by omega⟩ : Fin 1568) j) :=
  shapeCast_apply M _ _ _ (by
    rw [Shape.rowMajor_val_three, Shape.rowMajor_val_two]
    show (196 * r.val + n.val) * 1024 + j.val = (r.val * 196 + n.val) * 1024 + j.val
    omega)

/-- One chunk of 32 samples x 32 concepts: the patches' cosines with the chunk's concepts, the best patch per
    image and concept, and those summed against the chunk's slab of the grouping matrix. -/
def chunkTerm (p : FVec Ideal S1568x768 .bf16) (cc : FVec Ideal S32x32x768 .f32) (g : FVec Ideal S1024x128 .bf16) :
    FVec Ideal S8x128 .f32 :=
  matmul dot_S8x1024_S1024x128_S8x128_1_0_0_1_n_n none
    (truncf .bf16 (multiReduction .maximumf [1] S8x1024
      (shapeCast S8x196x1024
        (matmul dot_S1568x768_S768x1024_S1568x1024_1_0_0_1_n_n none p
          (transpose S768x1024 [1, 0]
            (shapeCast S1024x768 (truncf .bf16
              (unit3 cc reduces_S32x32x768_S32x32 shapeCasts_S32x32_S32x32x1 broadcasts_S32x32x1_S32x32x768)
              bitsLt_bf16_f32) shapeCasts_S32x32x768_S1024x768)
            transposes_S1024x768_p1_0_S768x1024)
          (constant S1568x1024 .f32 0x00000000#32))
        shapeCasts_S1568x1024_S8x196x1024)
      0xFF800000#32 reduces_S8x196x1024_S8x1024 (.inl rfl) rfl) bitsLt_bf16_f32)
    (shapeCast S1024x128 g shapeCasts_S1024x128_S1024x128)
    (constant S8x128 .f32 0x00000000#32)

/-- The first chunk added to the zero splat. -/
theorem pay3_eq (y0 : Vec Ideal S8x196x768 .f32) (c0 : Vec Ideal S32x32x768 .f32) (g0 : Vec Ideal S1024x128 .bf16) :
    k1_pay3 (F := Ideal) y0 c0 g0
      = addf (broadcast S8x128 (Scalar.ofBits .f32 0x00000000#32)) (chunkTerm (k1_pay2 y0) c0 g0) := rfl

/-- The second and third chunks added to the accumulator. -/
theorem pay6_eq (p : FVec Ideal S1568x768 .bf16) (acc : FVec Ideal S8x128 .f32)
    (c1 : Vec Ideal S32x32x768 .f32) (g1 : Vec Ideal S1024x128 .bf16)
    (c2 : Vec Ideal S32x32x768 .f32) (g2 : Vec Ideal S1024x128 .bf16) :
    k1_pay6 (F := Ideal) p acc c1 (k1_pay4 c1) (k1_pay5 (F := Ideal)) g1 c2 g2
      = addf (addf acc (chunkTerm p c1 g1)) (chunkTerm p c2 g2) := rfl

/-- The fourth chunk added to the accumulator, and the whole divided by the row of counts. -/
theorem pay1_eq (p : FVec Ideal S1568x768 .bf16) (acc : FVec Ideal S8x128 .f32)
    (c3 : Vec Ideal S32x32x768 .f32) (g3 : Vec Ideal S1024x128 .bf16) (y3 : Vec Ideal S1x128 .f32) :
    k1_pay1 (F := Ideal) p acc c3 (k1_pay7 c3) (k1_pay8 (F := Ideal)) g3 y3
      = divf (addf acc (chunkTerm p c3 g3))
          (broadcastTo S8x128 (shapeCast S1x128 y3 shapeCasts_S1x128_S1x128) broadcasts_S1x128_S8x128) := rfl

/-- One chunk's contribution at row r, column v': the sum over the chunk's 1024 grouped rows of the best patch
    cosine times the grouping entry. -/
def chunkAt (y0 : Vec Ideal S8x196x768 .f32) (cc : Vec Ideal S32x32x768 .f32) (g : Vec Ideal S1024x128 .bf16)
    (r : Fin 8) (v' : Fin 128) : EReal :=
  ∑ j : Fin 1024, ((Finset.univ : Finset (Fin 196)).fold max Cert.Align.negInf fun n =>
      ∑ d : Fin 768, Cert.Align.unit (fun d => y0 (ix3 r n d)) d
        * Cert.Align.unit (fun d => cc (ix3 (⟨j.val / 32, by omega⟩ : Fin 32) (⟨j.val % 32, by omega⟩ : Fin 32) d)) d)
    * g (ix2 j v')

/-- A chunk's term over the normalised patch rows, read at (r, v'). -/
theorem chunkTerm_apply (y0 : Vec Ideal S8x196x768 .f32) (cc : Vec Ideal S32x32x768 .f32)
    (g : Vec Ideal S1024x128 .bf16) (r : Fin 8) (v' : Fin 128) :
    chunkTerm (k1_pay2 y0) cc g (ix2 r v') = chunkAt y0 cc g r v' := by
  unfold chunkTerm chunkAt
  refine (matmulG_apply _ _ r v').trans ?_
  refine Finset.sum_congr rfl fun j _ => ?_
  refine congrArg₂ (· * ·) ?_ ?_
  · refine (truncf_apply (ψ := .bf16) _ bitsLt_bf16_f32 _).trans ?_
    refine (maxP_apply _ r j).trans ?_
    refine congrArg (fun f => (Finset.univ : Finset (Fin 196)).fold max Cert.Align.negInf f) (funext fun n => ?_)
    refine (castP_apply _ r n j).trans ?_
    refine (matmulPC_apply _ _ _ j).trans ?_
    refine Finset.sum_congr rfl fun d _ => ?_
    refine congrArg₂ (· * ·) (pay2_apply y0 r n d) ?_
    exact (transpose_ix2_apply _ _ d j).trans (concepts_apply cc j d)
  · rw [shapeCast_self]

/-- The region-concept kernel's stored value at (r, v'): the four chunks' contributions added in order to zero,
    divided by the count of column v'. -/
theorem pay1_apply (y0 : Vec Ideal S8x196x768 .f32) (c0 c1 c2 c3 : Vec Ideal S32x32x768 .f32)
    (g0 g1 g2 g3 : Vec Ideal S1024x128 .bf16) (y3 : Vec Ideal S1x128 .f32) (r : Fin 8) (v' : Fin 128) :
    k1_pay1 (F := Ideal) (k1_pay2 y0)
        (k1_pay6 (k1_pay2 y0) (k1_pay3 y0 c0 g0) c1 (k1_pay4 c1) (k1_pay5 (F := Ideal)) g1 c2 g2)
        c3 (k1_pay7 c3) (k1_pay8 (F := Ideal)) g3 y3 (ix2 r v')
      = Ideal.div ((((0 + chunkAt y0 c0 g0 r v') + chunkAt y0 c1 g1 r v') + chunkAt y0 c2 g2 r v')
          + chunkAt y0 c3 g3 r v') (y3 (ix2 (0 : Fin 1) v')) := by
  rw [pay1_eq, pay6_eq, pay3_eq]
  refine (divf_apply _ _ _).trans ?_
  refine congrArg₂ Ideal.div ?_ ?_
  · refine (addf_apply _ _ _).trans ?_
    refine congrArg₂ (· + ·) ?_ (chunkTerm_apply y0 c3 g3 r v')
    refine (addf_apply _ _ _).trans ?_
    refine congrArg₂ (· + ·) ?_ (chunkTerm_apply y0 c2 g2 r v')
    refine (addf_apply _ _ _).trans ?_
    refine congrArg₂ (· + ·) ?_ (chunkTerm_apply y0 c1 g1 r v')
    refine (addf_apply _ _ _).trans ?_
    refine congrArg₂ (· + ·) ?_ (chunkTerm_apply y0 c0 g0 r v')
    exact Ideal.ofBits_zero_f32
  · refine (broadcastTo_1b_ab_apply _ _ r v').trans ?_
    rw [shapeCast_self]

end Cert.KernelIdeal.Pay

end
-- ==== Proof.KFinal.lean ====
/-
  The idealized kernel program's run with its three results named. The host tail applies the loss chain to the two
  arrays the kernels left; the first is the image-text cosine matrix of the two feature arrays, the second the
  grouped region-concept array of the patch array, the concept array and the grouping matrix and counts row the host
  built from the integer counts. So the three result buffers end at the loss of the first, the loss of the second,
  and the first plus half the second, all as terms of the launched argument arrays, which end unchanged.
-/
import proofs.«175475_j58832462021083_1_alg».proof.Proof.KTail
import proofs.«175475_j58832462021083_1_alg».proof.Proof.KGlue
import proofs.«175475_j58832462021083_1_alg».proof.Proof.KVal0
import proofs.«175475_j58832462021083_1_alg».proof.Proof.KVal1
import proofs.«175475_j58832462021083_1_alg».proof.Proof.KPay

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem

/-- The image-text loss as the kernel program computes it. -/
def itK (a0 a1 : S128x768.Idx → EReal) (a5 a6 : S_.Idx → EReal) : S_.Idx → EReal :=
  Cert.ReferenceIdeal.Terms.loss (F := Ideal) (Cert.ReferenceIdeal.Terms.scale (F := Ideal) a5) a6 (G0 a0 a1)

/-- The region-concept loss as the kernel program computes it. -/
def rcK (a2 : S128x196x768.Idx → EReal) (a3 : S128x32x768.Idx → EReal) (a4 : IVec S128 32) (a5 a6 : S_.Idx → EReal) :
    S_.Idx → EReal :=
  Cert.ReferenceIdeal.Terms.loss (F := Ideal) (Cert.ReferenceIdeal.Terms.scale (F := Ideal) a5) a6
    (G1 a2 a3 (Cert.KernelIdeal.Prep.gmask (F := Ideal) a4) (Cert.KernelIdeal.Prep.counts (F := Ideal) a4))

/-- The total as the kernel program computes it. -/
def totK (a0 a1 : S128x768.Idx → EReal) (a2 : S128x196x768.Idx → EReal) (a3 : S128x32x768.Idx → EReal) (a4 : IVec S128 32)
    (a5 a6 : S_.Idx → EReal) : S_.Idx → EReal :=
  addf (F := Ideal) (φ := .f32) (itK a0 a1 a5 a6) (mulf (F := Ideal) (constant (F := Ideal) S_ .f32 0x3F000000#32) (rcK a2 a3 a4 a5 a6))

/-- The two statements of one chunk's contribution are the same function. -/
theorem chunkAt_eq : @chunkAt = @Cert.KernelIdeal.Pay.chunkAt := rfl

variable (m : (ℓ : Loc nD τ sig) → Buf (Elt Ideal) ℓ) (ρ : Dev nD → PrngReg)

/-- The image-text loss buffer at the last boundary. -/
theorem last_it (c : Dev nD) :
    W14 m ρ c (Proc.devRef .tc main_v49)
      = itK (m ((c.tc : Thread nD τ).loc main_arg0)) (m ((c.tc : Thread nD τ).loc main_arg1))
          (m ((c.tc : Thread nD τ).loc main_arg5)) (m ((c.tc : Thread nD τ).loc main_arg6)) := by
  rw [tail_it, W3_arg5, W3_arg6, W3_v0, final0 (V0 m ρ) Cert.KernelIdeal.Pay.pay0_apply c, V0_arg0, V0_arg1]
  rfl

/-- The region-concept loss buffer at the last boundary. -/
theorem last_rc (c : Dev nD) :
    W14 m ρ c (Proc.devRef .tc main_v65)
      = rcK (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [tail_rc, W3_arg5, W3_arg6, W3_v23,
    final1 (V2 m ρ) (fun y0 c0 c1 c2 c3 g0 g1 g2 g3 y3 r v' => by
      rw [chunkAt_eq]; exact Cert.KernelIdeal.Pay.pay1_apply y0 c0 c1 c2 c3 g0 g1 g2 g3 y3 r v') c,
    V2_arg2, V2_arg3, V2_v20, V2_v22]
  rfl

/-- The total's buffer at the last boundary. -/
theorem last_total (c : Dev nD) :
    W14 m ρ c (Proc.devRef .tc main_v67)
      = totK (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  rw [tail_total, last_it, last_rc]
  rfl

/-- Every weakly fair execution of the idealized kernel program ends with its three results at these terms of the
    launched arrays, the arrays unchanged. -/
theorem run : θ_run defs (onTc (τ := τ) (main (F := Ideal))) ⟨m, fun _ => 0, ρ⟩ fun r => ∀ c : Dev nD,
      r.2.mem ((c.tc : Thread nD τ).loc main_v67) = totK (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_v49) = itK (m ((c.tc : Thread nD τ).loc main_arg0)) (m ((c.tc : Thread nD τ).loc main_arg1))
          (m ((c.tc : Thread nD τ).loc main_arg5)) (m ((c.tc : Thread nD τ).loc main_arg6))
      ∧ r.2.mem ((c.tc : Thread nD τ).loc main_v65) = rcK (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(h c main_v67 (by decide)).trans (last_total m ρ c),
     (h c main_v49 (by decide)).trans (last_it m ρ c),
     (h c main_v65 (by decide)).trans (last_rc m ρ c),
     (h c main_arg0 (by decide)).trans (W14_main_arg0 m ρ c),
     (h c main_arg1 (by decide)).trans (W14_main_arg1 m ρ c),
     (h c main_arg2 (by decide)).trans (W14_main_arg2 m ρ c),
     (h c main_arg3 (by decide)).trans (W14_main_arg3 m ρ c),
     (h c main_arg4 (by decide)).trans (W14_main_arg4 m ρ c),
     (h c main_arg5 (by decide)).trans (W14_main_arg5 m ρ c),
     (h c main_arg6 (by decide)).trans (W14_main_arg6 m ρ c)⟩)
    (run_all m ρ)

end Cert.KernelIdeal.Whole

end
-- ==== Proof.KBridge.lean ====
/-
  From the second kernel's array to the region-concept similarity.

  The second kernel leaves, at (m, v'), the quotient by the count of v' of four chunk sums; a chunk sums, over its
  1024 rows, the best patch cosine of image m for the row's (sample, concept) pair times the grouping matrix's
  entry in that row and column v'. Row 1024 c + j of the grouping matrix is the pair (32 c + j / 32, j % 32), and
  its entry in column v' is the mask at that pair times the identity entry between the pair's sample and v'.
  So each chunk sum is the grouped partial sum of the pooled cosines against the mask, the four of them added from
  zero collapse to the masked sum over the 32 concepts of sample v', and the quotient by the count of v' is the
  region-concept similarity of image m and sample v'.
-/
import proofs.«175475_j58832462021083_1_alg».proof.Proof.KVal1
import proofs.«175475_j58832462021083_1_alg».proof.Proof.KPrep
import proofs.«175475_j58832462021083_1_alg».proof.Proof.Group
import proofs.«175475_j58832462021083_1_alg».proof.Proof.Spec
import Idealize.ShloMosaic.Lib.ValueIdx

noncomputable section

namespace Cert.KernelIdeal.Bridge

open Cert.KernelIdeal Cert.KernelIdeal.Gen
open Idealize.ShloMosaic Idealize.ShloMosaic.ValueIdx
open Cert.Align.Group (sampleOf conceptOf chunkSum grouped_sum)
open Cert.KernelIdeal.Whole (groupAt G1)

/-- The second kernel's array at (m, v') over any grouping matrix whose row q holds, in column v', the mask at
    (q / 32, q % 32) times the identity entry between q / 32 and v', and any counts row that holds the counts:
    the region-concept similarity of image m and sample v'. -/
theorem G1_apply_of (a2 : S128x196x768.Idx → EReal) (a3 : S128x32x768.Idx → EReal) (cnt : Fin 128 → BitVec 32)
    (gm : S4096x128.Idx → EReal) (cr : S1x128.Idx → EReal)
    (hg : ∀ (q : Fin 4096) (v' : Fin 128), gm (ix2 q v')
      = Cert.Align.maskAt cnt ⟨q.val / 32, by have := q.isLt; omega⟩ ⟨q.val % 32, by omega⟩
          * Cert.Align.eyeAt ⟨q.val / 32, by have := q.isLt; omega⟩ v')
    (hc : ∀ v' : Fin 128, cr (ix2 (0 : Fin 1) v') = Cert.Align.cntAt cnt v') (m v' : Fin 128) :
    G1 a2 a3 gm cr (ix2 m v')
      = Cert.Align.simRC (fun m n d => a2 (ix3 m n d)) (fun v w d => a3 (ix3 v w d)) cnt m v' := by
  -- row 1024 c + j is the pair (32 c + j / 32, j % 32)
  have key : ∀ (c : Fin 4) (j : Fin 1024), gm (ix2 (⟨1024 * c.val + j.val, by omega⟩ : Fin 4096) v')
      = Cert.Align.maskAt cnt (sampleOf c j) (conceptOf j) * Cert.Align.eyeAt (sampleOf c j) v' := by
    intro c j
    refine (hg _ v').trans ?_
    have e1 : (⟨(1024 * c.val + j.val) / 32, by omega⟩ : Fin 128) = sampleOf c j :=
      Fin.ext (by dsimp only [sampleOf]; omega)
    have e2 : (⟨(1024 * c.val + j.val) % 32, by omega⟩ : Fin 32) = conceptOf j :=
      Fin.ext (by dsimp only [conceptOf]; omega)
    exact congrArg₂ (fun s w => Cert.Align.maskAt cnt s w * Cert.Align.eyeAt s v') e1 e2
  -- so each chunk sum is the grouped partial sum of the pooled cosines against the mask
  have hgA : ∀ c : Fin 4, groupAt a2 a3 gm m v' c
      = chunkSum (fun v w => Cert.Align.pooled (fun m n d => a2 (ix3 m n d)) (fun v w d => a3 (ix3 v w d)) m v w)
          (Cert.Align.maskAt cnt) v' c := by
    intro c
    unfold groupAt chunkSum
    exact Finset.sum_congr rfl fun j _ => congrArg (_ * ·) (key c j)
  show Ideal.div ((((0 + groupAt a2 a3 gm m v' 0) + groupAt a2 a3 gm m v' 1) + groupAt a2 a3 gm m v' 2)
      + groupAt a2 a3 gm m v' 3) (cr (ix2 (0 : Fin 1) v')) = _
  unfold Cert.Align.simRC
  refine congrArg₂ Ideal.div ?_ (hc v')
  rw [hgA 0, hgA 1, hgA 2, hgA 3]
  exact grouped_sum _ _ v'

/-- The second kernel's array over the grouping matrix and the counts row the host side prepares from the counts:
    at (m, v') it is the region-concept similarity of image m and sample v'. -/
theorem G1_apply (a2 : S128x196x768.Idx → EReal) (a3 : S128x32x768.Idx → EReal) (a4 : IVec S128 32) (m v' : Fin 128) :
    Cert.KernelIdeal.Whole.G1 a2 a3 (Cert.KernelIdeal.Prep.gmask (F := Ideal) a4) (Cert.KernelIdeal.Prep.counts (F := Ideal) a4)
        (ix2 m v')
      = Cert.Align.simRC (fun m n d => a2 (ix3 m n d)) (fun v w d => a3 (ix3 v w d)) (fun v => a4 (ix1 v)) m v' :=
  G1_apply_of a2 a3 (fun v => a4 (ix1 v)) _ _ (Cert.KernelIdeal.Prep.gmask_apply a4) (Cert.KernelIdeal.Prep.counts_apply a4) m v'

end Cert.KernelIdeal.Bridge

end
-- ==== Proof.RefOps.lean ====
/- The three operation lists below were produced by `python3 scratch/gen_refops.py > proof/Proof/RefOps.lean`, run in the
   certificate's directory: a transcription of the printed reference program.

   The reference's @main as a LIST of its 166 host operations, and its run. The printed program is three windows
   (main_part0, main_part1, main_part2) run in order; each line of a window is one operation, except five calls of
   outlined functions (clip, clip_0 twice, log_sigmoid twice, the latter calling softplus), whose meaning is the
   callee's body on the operands: here each call is replaced by the callee's operations over the call's own buffers,
   in the callee's order. The list is then a straight line: every weakly fair execution of @main terminates, and each
   buffer ends at the fold of the operations' results over the launch contents. -/
import proofs.«175475_j58832462021083_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of window main_part0: @main's operations 1 … 83 of 166, the callees' at their call sites. -/
abbrev ops0 : List (HloOp τ sig (Elt F)) :=
  [ nullary main_cst (constant S_ .f32 0xC1200000#32),
    nullary main_cst_0 (constant S_ .f32 0x41200000#32),
    TRef.unary (TRef.of (T := ⟨S_, .f32⟩) main_cst) main_call0.v0 id,
    TRef.binary main_call0.v0 (TRef.of (T := ⟨S_, .f32⟩) main_arg5) main_call0.v1 maximumf,
    TRef.unary (TRef.of (T := ⟨S_, .f32⟩) main_cst_0) main_call0.v2 id,
    TRef.binary main_call0.v2 main_call0.v1 main_call0.v3 minimumf,
    unary main_v0 main_v1 (Host.exp : (⟨S_, .f32⟩ : BufTy).Contents (Elt F) → (⟨S_, .f32⟩ : BufTy).Contents (Elt F)),
    binary main_arg0 main_arg0 main_v2 (mulf : (⟨S128x768, .f32⟩ : BufTy).Contents (Elt F) → (⟨S128x768, .f32⟩ : BufTy).Contents (Elt F) → (⟨S128x768, .f32⟩ : BufTy).Contents (Elt F)),
    nullary main_cst_1 (constant S_ .f32 0x00000000#32),
    binary main_v2 main_cst_1 main_v3 ((fun x v => Host.reduceAdd x v reducesTo_S128x768_S128_d1 h_S_) : (⟨S128x768, .f32⟩ : BufTy).Contents (Elt F) → (⟨S_, .f32⟩ : BufTy).Contents (Elt F) → (⟨S128, .f32⟩ : BufTy).Contents (Elt F)),
    unary main_v3 main_v4 (broadcastInDim S128x1 ![0] bcast_S128_S128x1_0 : (⟨S128, .f32⟩ : BufTy).Contents (Elt F) → (⟨S128x1, .f32⟩ : BufTy).Contents (Elt F)),
    unary main_v4 main_v5 (Host.sqrt : (⟨S128x1, .f32⟩ : BufTy).Contents (Elt F) → (⟨S128x1, .f32⟩ : BufTy).Contents (Elt F)),
    nullary main_cst_2 (constant S_ .f32 0x2B8CBCCC#32),
    unary main_cst_2 main_v6 (broadcastInDim S128x1 ![] bcast_S_S128x1 : (⟨S_, .f32⟩ : BufTy).Contents (Elt F) → (⟨S128x1, .f32⟩ : BufTy).Contents (Elt F)),
    binary main_v5 main_v6 main_v7 (maximumf : (⟨S128x1, .f32⟩ : BufTy).Contents (Elt F) → (⟨S128x1, .f32⟩ : BufTy).Contents (Elt F) → (⟨S128x1, .f32⟩ : BufTy).Contents (Elt F)),
    unary main_v7 main_v8 (broadcastInDim S128x768 ![0, 1] bcast_S128x1_S128x768_0_1 : (⟨S128x1, .f32⟩ : BufTy).Contents (Elt F) → (⟨S128x768, .f32⟩ : BufTy).Contents (Elt F)),
    binary main_arg0 main_v8 main_v9 (Host.divf : (⟨S128x768, .f32⟩ : BufTy).Contents (Elt F) → (⟨S128x768, .f32⟩ : BufTy).Contents (Elt F) → (⟨S128x768, .f32⟩ : BufTy).Contents (Elt F)),
    binary main_arg1 main_arg1 main_v10 (mulf : (⟨S128x768, .f32⟩ : BufTy).Contents (Elt F) → (⟨S128x768, .f32⟩ : BufTy).Contents (Elt F) → (⟨S128x768, .f32⟩ : BufTy).Contents (Elt F)),
    nullary main_cst_3 (constant S_ .f32 0x00000000#32),
    binary main_v10 main_cst_3 main_v11 ((fun x v => Host.reduceAdd x v reducesTo_S128x768_S128_d1 h_S_) : (⟨S128x768, .f32⟩ : BufTy).Contents (Elt F) → (⟨S_, .f32⟩ : BufTy).Contents (Elt F) → (⟨S128, .f32⟩ : BufTy).Contents (Elt F)),
    unary main_v11 main_v12 (broadcastInDim S128x1 ![0] bcast_S128_S128x1_0 : (⟨S128, .f32⟩ : BufTy).Contents (Elt F) → (⟨S128x1, .f32⟩ : BufTy).Contents (Elt F)),
    unary main_v12 main_v13 (Host.sqrt : (⟨S128x1, .f32⟩ : BufTy).Contents (Elt F) → (⟨S128x1, .f32⟩ : BufTy).Contents (Elt F)),
    nullary main_cst_4 (constant S_ .f32 0x2B8CBCCC#32),
    unary main_cst_4 main_v14 (broadcastInDim S128x1 ![] bcast_S_S128x1 : (⟨S_, .f32⟩ : BufTy).Contents (Elt F) → (⟨S128x1, .f32⟩ : BufTy).Contents (Elt F)),
    binary main_v13 main_v14 main_v15 (maximumf : (⟨S128x1, .f32⟩ : BufTy).Contents (Elt F) → (⟨S128x1, .f32⟩ : BufTy).Contents (Elt F) → (⟨S128x1, .f32⟩ : BufTy).Contents (Elt F)),
    unary main_v15 main_v16 (broadcastInDim S128x768 ![0, 1] bcast_S128x1_S128x768_0_1 : (⟨S128x1, .f32⟩ : BufTy).Contents (Elt F) → (⟨S128x768, .f32⟩ : BufTy).Contents (Elt F)),
    binary main_arg1 main_v16 main_v17 (Host.divf : (⟨S128x768, .f32⟩ : BufTy).Contents (Elt F) → (⟨S128x768, .f32⟩ : BufTy).Contents (Elt F) → (⟨S128x768, .f32⟩ : BufTy).Contents (Elt F)),
    unary main_v17 main_v18 ((transpose S768x128 [1, 0] · transposes_S128x768_S768x128_1_0) : (⟨S128x768, .f32⟩ : BufTy).Contents (Elt F) → (⟨S768x128, .f32⟩ : BufTy).Contents (Elt F)),
    binary main_v9 main_v18 main_v19 ((fun l r => Host.dotGeneral dot_S128x768_S768x128_S128x128_1_0_0_1_n_n none l r) : (⟨S128x768, .f32⟩ : BufTy).Contents (Elt F) → (⟨S768x128, .f32⟩ : BufTy).Contents (Elt F) → (⟨S128x128, .f32⟩ : BufTy).Contents (Elt F)),
    unary main_v1 main_v20 (broadcastInDim S128x128 ![] bcast_S_S128x128 : (⟨S_, .f32⟩ : BufTy).Contents (Elt F) → (⟨S128x128, .f32⟩ : BufTy).Contents (Elt F)),
    binary main_v20 main_v19 main_v21 (mulf : (⟨S128x128, .f32⟩ : BufTy).Contents (Elt F) → (⟨S128x128, .f32⟩ : BufTy).Contents (Elt F) → (⟨S128x128, .f32⟩ : BufTy).Contents (Elt F)),
    unary main_arg6 main_v22 (broadcastInDim S128x128 ![] bcast_S_S128x128 : (⟨S_, .f32⟩ : BufTy).Contents (Elt F) → (⟨S128x128, .f32⟩ : BufTy).Contents (Elt F)),
    binary main_v21 main_v22 main_v23 (addf : (⟨S128x128, .f32⟩ : BufTy).Contents (Elt F) → (⟨S128x128, .f32⟩ : BufTy).Contents (Elt F) → (⟨S128x128, .f32⟩ : BufTy).Contents (Elt F)),
    nullary main_cst_5 (constant S_ .f32 0xC2480000#32),
    nullary main_cst_6 (constant S_ .f32 0x42480000#32),
    TRef.unary (TRef.of (T := ⟨S_, .f32⟩) main_cst_5) main_call1.v0 id,
    TRef.unary main_call1.v0 main_call1.v1 (broadcastInDim S128x128 ![] bcast_S_S128x128),
    TRef.binary main_call1.v1 (TRef.of (T := ⟨S128x128, .f32⟩) main_v23) main_call1.v2 maximumf,
    TRef.unary (TRef.of (T := ⟨S_, .f32⟩) main_cst_6) main_call1.v3 id,
    TRef.unary main_call1.v3 main_call1.v4 (broadcastInDim S128x128 ![] bcast_S_S128x128),
    TRef.binary main_call1.v4 main_call1.v2 main_call1.v5 minimumf,
    nullary main_v25 (iotaInDim S128x128 32 0),
    nullary main_v26 (iotaInDim S128x128 32 1),
    nullary main_c (constantI S_ 32 0#32),
    unary main_c main_v27 (broadcastInDim S128x128 ![] bcast_S_S128x128 : (⟨S_, .i32⟩ : BufTy).Contents (Elt F) → (⟨S128x128, .i32⟩ : BufTy).Contents (Elt F)),
    binary main_v25 main_v27 main_v28 (addi : (⟨S128x128, .i32⟩ : BufTy).Contents (Elt F) → (⟨S128x128, .i32⟩ : BufTy).Contents (Elt F) → (⟨S128x128, .i32⟩ : BufTy).Contents (Elt F)),
    binary main_v28 main_v26 main_v29 (cmpi .eq : (⟨S128x128, .i32⟩ : BufTy).Contents (Elt F) → (⟨S128x128, .i32⟩ : BufTy).Contents (Elt F) → (⟨S128x128, .i1⟩ : BufTy).Contents (Elt F)),
    unary main_v29 main_v30 (uitofp .f32 : (⟨S128x128, .i1⟩ : BufTy).Contents (Elt F) → (⟨S128x128, .f32⟩ : BufTy).Contents (Elt F)),
    nullary main_cst_7 (constant S_ .f32 0x40000000#32),
    unary main_cst_7 main_v31 (broadcastInDim S128x128 ![] bcast_S_S128x128 : (⟨S_, .f32⟩ : BufTy).Contents (Elt F) → (⟨S128x128, .f32⟩ : BufTy).Contents (Elt F)),
    binary main_v31 main_v30 main_v32 (mulf : (⟨S128x128, .f32⟩ : BufTy).Contents (Elt F) → (⟨S128x128, .f32⟩ : BufTy).Contents (Elt F) → (⟨S128x128, .f32⟩ : BufTy).Contents (Elt F)),
    nullary main_cst_8 (constant S_ .f32 0x3F800000#32),
    unary main_cst_8 main_v33 (broadcastInDim S128x128 ![] bcast_S_S128x128 : (⟨S_, .f32⟩ : BufTy).Contents (Elt F) → (⟨S128x128, .f32⟩ : BufTy).Contents (Elt F)),
    binary main_v32 main_v33 main_v34 (subf : (⟨S128x128, .f32⟩ : BufTy).Contents (Elt F) → (⟨S128x128, .f32⟩ : BufTy).Contents (Elt F) → (⟨S128x128, .f32⟩ : BufTy).Contents (Elt F)),
    binary main_v34 main_v24 main_v35 (mulf : (⟨S128x128, .f32⟩ : BufTy).Contents (Elt F) → (⟨S128x128, .f32⟩ : BufTy).Contents (Elt F) → (⟨S128x128, .f32⟩ : BufTy).Contents (Elt F)),
    TRef.unary (TRef.of (T := ⟨S128x128, .f32⟩) main_v35) main_call2.v0 Host.negf,
    TRef.nullary main_call2.call0.cst (constant S_ .f32 0x00000000#32),
    TRef.unary main_call2.call0.cst main_call2.call0.v0 (broadcastInDim S128x128 ![] bcast_S_S128x128),
    TRef.binary main_call2.v0 main_call2.call0.v0 main_call2.call0.v1 maximumf,
    TRef.unary main_call2.call0.cst main_call2.call0.v2 (broadcastInDim S128x128 ![] bcast_S_S128x128),
    TRef.binary main_call2.v0 main_call2.call0.v2 main_call2.call0.v3 subf,
    TRef.binary main_call2.call0.v3 main_call2.call0.v3 main_call2.call0.v4 (cmpf .une),
    TRef.unary main_call2.call0.cst main_call2.call0.v5 (broadcastInDim S128x128 ![] bcast_S_S128x128),
    TRef.binary main_call2.v0 main_call2.call0.v5 main_call2.call0.v6 addf,
    TRef.unary main_call2.call0.v3 main_call2.call0.v7 Host.absf,
    TRef.unary main_call2.call0.v7 main_call2.call0.v8 Host.negf,
    TRef.unary main_call2.call0.v8 main_call2.call0.v9 Host.exp,
    TRef.unary main_call2.call0.v9 main_call2.call0.v10 Host.log1p,
    TRef.binary main_call2.call0.v1 main_call2.call0.v10 main_call2.call0.v11 addf,
    TRef.ternary main_call2.call0.v4 main_call2.call0.v6 main_call2.call0.v11 main_call2.call0.v12 select,
    TRef.unary main_call2.call0.v12 main_call2.v2 Host.negf,
    nullary main_cst_9 (constant S_ .f32 0x00000000#32),
    binary main_v36 main_cst_9 main_v37 ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)),
    nullary main_cst_10 (constant S_ .f32 0x46800000#32),
    binary main_v37 main_cst_10 main_v38 (Host.divf : (⟨S_, .f32⟩ : BufTy).Contents (Elt F) → (⟨S_, .f32⟩ : BufTy).Contents (Elt F) → (⟨S_, .f32⟩ : BufTy).Contents (Elt F)),
    unary main_v38 main_v39 (Host.negf : (⟨S_, .f32⟩ : BufTy).Contents (Elt F) → (⟨S_, .f32⟩ : BufTy).Contents (Elt F)),
    binary main_arg2 main_arg2 main_v40 (mulf : (⟨S128x196x768, .f32⟩ : BufTy).Contents (Elt F) → (⟨S128x196x768, .f32⟩ : BufTy).Contents (Elt F) → (⟨S128x196x768, .f32⟩ : BufTy).Contents (Elt F)),
    nullary main_cst_11 (constant S_ .f32 0x00000000#32),
    binary main_v40 main_cst_11 main_v41 ((fun x v => Host.reduceAdd x v reducesTo_S128x196x768_S128x196_d2 h_S_) : (⟨S128x196x768, .f32⟩ : BufTy).Contents (Elt F) → (⟨S_, .f32⟩ : BufTy).Contents (Elt F) → (⟨S128x196, .f32⟩ : BufTy).Contents (Elt F)),
    unary main_v41 main_v42 (broadcastInDim S128x196x1 ![0, 1] bcast_S128x196_S128x196x1_0_1 : (⟨S128x196, .f32⟩ : BufTy).Contents (Elt F) → (⟨S128x196x1, .f32⟩ : BufTy).Contents (Elt F)),
    unary main_v42 main_v43 (Host.sqrt : (⟨S128x196x1, .f32⟩ : BufTy).Contents (Elt F) → (⟨S128x196x1, .f32⟩ : BufTy).Contents (Elt F)),
    nullary main_cst_12 (constant S_ .f32 0x2B8CBCCC#32),
    unary main_cst_12 main_v44 (broadcastInDim S128x196x1 ![] bcast_S_S128x196x1 : (⟨S_, .f32⟩ : BufTy).Contents (Elt F) → (⟨S128x196x1, .f32⟩ : BufTy).Contents (Elt F)) ]

/-- The operations of window main_part1: @main's operations 84 … 163 of 166, the callees' at their call sites. -/
abbrev ops1 : List (HloOp τ sig (Elt F)) :=
  [ binary main_v43 main_v44 main_v45 (maximumf : (⟨S128x196x1, .f32⟩ : BufTy).Contents (Elt F) → (⟨S128x196x1, .f32⟩ : BufTy).Contents (Elt F) → (⟨S128x196x1, .f32⟩ : BufTy).Contents (Elt F)),
    unary main_v45 main_v46 (broadcastInDim S128x196x768 ![0, 1, 2] bcast_S128x196x1_S128x196x768_0_1_2 : (⟨S128x196x1, .f32⟩ : BufTy).Contents (Elt F) → (⟨S128x196x768, .f32⟩ : BufTy).Contents (Elt F)),
    binary main_arg2 main_v46 main_v47 (Host.divf : (⟨S128x196x768, .f32⟩ : BufTy).Contents (Elt F) → (⟨S128x196x768, .f32⟩ : BufTy).Contents (Elt F) → (⟨S128x196x768, .f32⟩ : BufTy).Contents (Elt F)),
    binary main_arg3 main_arg3 main_v48 (mulf : (⟨S128x32x768, .f32⟩ : BufTy).Contents (Elt F) → (⟨S128x32x768, .f32⟩ : BufTy).Contents (Elt F) → (⟨S128x32x768, .f32⟩ : BufTy).Contents (Elt F)),
    nullary main_cst_13 (constant S_ .f32 0x00000000#32),
    binary main_v48 main_cst_13 main_v49 ((fun x v => Host.reduceAdd x v reducesTo_S128x32x768_S128x32_d2 h_S_) : (⟨S128x32x768, .f32⟩ : BufTy).Contents (Elt F) → (⟨S_, .f32⟩ : BufTy).Contents (Elt F) → (⟨S128x32, .f32⟩ : BufTy).Contents (Elt F)),
    unary main_v49 main_v50 (broadcastInDim S128x32x1 ![0, 1] bcast_S128x32_S128x32x1_0_1 : (⟨S128x32, .f32⟩ : BufTy).Contents (Elt F) → (⟨S128x32x1, .f32⟩ : BufTy).Contents (Elt F)),
    unary main_v50 main_v51 (Host.sqrt : (⟨S128x32x1, .f32⟩ : BufTy).Contents (Elt F) → (⟨S128x32x1, .f32⟩ : BufTy).Contents (Elt F)),
    nullary main_cst_14 (constant S_ .f32 0x2B8CBCCC#32),
    unary main_cst_14 main_v52 (broadcastInDim S128x32x1 ![] bcast_S_S128x32x1 : (⟨S_, .f32⟩ : BufTy).Contents (Elt F) → (⟨S128x32x1, .f32⟩ : BufTy).Contents (Elt F)),
    binary main_v51 main_v52 main_v53 (maximumf : (⟨S128x32x1, .f32⟩ : BufTy).Contents (Elt F) → (⟨S128x32x1, .f32⟩ : BufTy).Contents (Elt F) → (⟨S128x32x1, .f32⟩ : BufTy).Contents (Elt F)),
    unary main_v53 main_v54 (broadcastInDim S128x32x768 ![0, 1, 2] bcast_S128x32x1_S128x32x768_0_1_2 : (⟨S128x32x1, .f32⟩ : BufTy).Contents (Elt F) → (⟨S128x32x768, .f32⟩ : BufTy).Contents (Elt F)),
    binary main_arg3 main_v54 main_v55 (Host.divf : (⟨S128x32x768, .f32⟩ : BufTy).Contents (Elt F) → (⟨S128x32x768, .f32⟩ : BufTy).Contents (Elt F) → (⟨S128x32x768, .f32⟩ : BufTy).Contents (Elt F)),
    binary main_v55 main_v47 main_v56 ((fun l r => Host.dotGeneral dot_S128x32x768_S128x196x768_S128x32x128x196_2_2_01_01_n_n none l r) : (⟨S128x32x768, .f32⟩ : BufTy).Contents (Elt F) → (⟨S128x196x768, .f32⟩ : BufTy).Contents (Elt F) → (⟨S128x32x128x196, .f32⟩ : BufTy).Contents (Elt F)),
    unary main_v56 main_v57 ((transpose S128x128x196x32 [2, 0, 3, 1] · transposes_S128x32x128x196_S128x128x196x32_2_0_3_1) : (⟨S128x32x128x196, .f32⟩ : BufTy).Contents (Elt F) → (⟨S128x128x196x32, .f32⟩ : BufTy).Contents (Elt F)),
    nullary main_cst_15 (constant S_ .f32 0xFF800000#32),
    binary main_v57 main_cst_15 main_v58 ((fun x v => Host.reduce FloatOps.maximumf x v reducesTo_S128x128x196x32_S128x128x32_d2 h_S_) : (⟨S128x128x196x32, .f32⟩ : BufTy).Contents (Elt F) → (⟨S_, .f32⟩ : BufTy).Contents (Elt F) → (⟨S128x128x32, .f32⟩ : BufTy).Contents (Elt F)),
    nullary main_v59 (iotaInDim S32 32 0),
    unary main_v59 main_v60 (broadcastInDim S1x32 ![1] bcast_S32_S1x32_1 : (⟨S32, .i32⟩ : BufTy).Contents (Elt F) → (⟨S1x32, .i32⟩ : BufTy).Contents (Elt F)),
    unary main_arg4 main_v61 (broadcastInDim S128x1 ![0] bcast_S128_S128x1_0 : (⟨S128, .i32⟩ : BufTy).Contents (Elt F) → (⟨S128x1, .i32⟩ : BufTy).Contents (Elt F)),
    unary main_v60 main_v62 (broadcastInDim S128x32 ![0, 1] bcast_S1x32_S128x32_0_1 : (⟨S1x32, .i32⟩ : BufTy).Contents (Elt F) → (⟨S128x32, .i32⟩ : BufTy).Contents (Elt F)),
    unary main_v61 main_v63 (broadcastInDim S128x32 ![0, 1] bcast_S128x1_S128x32_0_1 : (⟨S128x1, .i32⟩ : BufTy).Contents (Elt F) → (⟨S128x32, .i32⟩ : BufTy).Contents (Elt F)),
    binary main_v62 main_v63 main_v64 (cmpi .slt : (⟨S128x32, .i32⟩ : BufTy).Contents (Elt F) → (⟨S128x32, .i32⟩ : BufTy).Contents (Elt F) → (⟨S128x32, .i1⟩ : BufTy).Contents (Elt F)),
    unary main_v64 main_v65 (uitofp .f32 : (⟨S128x32, .i1⟩ : BufTy).Contents (Elt F) → (⟨S128x32, .f32⟩ : BufTy).Contents (Elt F)),
    unary main_arg4 main_v66 (sitofp .f32 : (⟨S128, .i32⟩ : BufTy).Contents (Elt F) → (⟨S128, .f32⟩ : BufTy).Contents (Elt F)),
    unary main_v65 main_v67 (broadcastInDim S1x128x32 ![1, 2] bcast_S128x32_S1x128x32_1_2 : (⟨S128x32, .f32⟩ : BufTy).Contents (Elt F) → (⟨S1x128x32, .f32⟩ : BufTy).Contents (Elt F)),
    unary main_v67 main_v68 (broadcastInDim S128x128x32 ![0, 1, 2] bcast_S1x128x32_S128x128x32_0_1_2 : (⟨S1x128x32, .f32⟩ : BufTy).Contents (Elt F) → (⟨S128x128x32, .f32⟩ : BufTy).Contents (Elt F)),
    binary main_v58 main_v68 main_v69 (mulf : (⟨S128x128x32, .f32⟩ : BufTy).Contents (Elt F) → (⟨S128x128x32, .f32⟩ : BufTy).Contents (Elt F) → (⟨S128x128x32, .f32⟩ : BufTy).Contents (Elt F)),
    nullary main_cst_16 (constant S_ .f32 0x00000000#32),
    binary main_v69 main_cst_16 main_v70 ((fun x v => Host.reduceAdd x v reducesTo_S128x128x32_S128x128_d2 h_S_) : (⟨S128x128x32, .f32⟩ : BufTy).Contents (Elt F) → (⟨S_, .f32⟩ : BufTy).Contents (Elt F) → (⟨S128x128, .f32⟩ : BufTy).Contents (Elt F)),
    unary main_v66 main_v71 (broadcastInDim S1x128 ![1] bcast_S128_S1x128_1 : (⟨S128, .f32⟩ : BufTy).Contents (Elt F) → (⟨S1x128, .f32⟩ : BufTy).Contents (Elt F)),
    unary main_v71 main_v72 (broadcastInDim S128x128 ![0, 1] bcast_S1x128_S128x128_0_1 : (⟨S1x128, .f32⟩ : BufTy).Contents (Elt F) → (⟨S128x128, .f32⟩ : BufTy).Contents (Elt F)),
    binary main_v70 main_v72 main_v73 (Host.divf : (⟨S128x128, .f32⟩ : BufTy).Contents (Elt F) → (⟨S128x128, .f32⟩ : BufTy).Contents (Elt F) → (⟨S128x128, .f32⟩ : BufTy).Contents (Elt F)),
    unary main_v1 main_v74 (broadcastInDim S128x128 ![] bcast_S_S128x128 : (⟨S_, .f32⟩ : BufTy).Contents (Elt F) → (⟨S128x128, .f32⟩ : BufTy).Contents (Elt F)),
    binary main_v74 main_v73 main_v75 (mulf : (⟨S128x128, .f32⟩ : BufTy).Contents (Elt F) → (⟨S128x128, .f32⟩ : BufTy).Contents (Elt F) → (⟨S128x128, .f32⟩ : BufTy).Contents (Elt F)),
    unary main_arg6 main_v76 (broadcastInDim S128x128 ![] bcast_S_S128x128 : (⟨S_, .f32⟩ : BufTy).Contents (Elt F) → (⟨S128x128, .f32⟩ : BufTy).Contents (Elt F)),
    binary main_v75 main_v76 main_v77 (addf : (⟨S128x128, .f32⟩ : BufTy).Contents (Elt F) → (⟨S128x128, .f32⟩ : BufTy).Contents (Elt F) → (⟨S128x128, .f32⟩ : BufTy).Contents (Elt F)),
    nullary main_cst_17 (constant S_ .f32 0xC2480000#32),
    nullary main_cst_18 (constant S_ .f32 0x42480000#32),
    TRef.unary (TRef.of (T := ⟨S_, .f32⟩) main_cst_17) main_call3.v0 id,
    TRef.unary main_call3.v0 main_call3.v1 (broadcastInDim S128x128 ![] bcast_S_S128x128),
    TRef.binary main_call3.v1 (TRef.of (T := ⟨S128x128, .f32⟩) main_v77) main_call3.v2 maximumf,
    TRef.unary (TRef.of (T := ⟨S_, .f32⟩) main_cst_18) main_call3.v3 id,
    TRef.unary main_call3.v3 main_call3.v4 (broadcastInDim S128x128 ![] bcast_S_S128x128),
    TRef.binary main_call3.v4 main_call3.v2 main_call3.v5 minimumf,
    nullary main_v79 (iotaInDim S128x128 32 0),
    nullary main_v80 (iotaInDim S128x128 32 1),
    nullary main_c_19 (constantI S_ 32 0#32),
    unary main_c_19 main_v81 (broadcastInDim S128x128 ![] bcast_S_S128x128 : (⟨S_, .i32⟩ : BufTy).Contents (Elt F) → (⟨S128x128, .i32⟩ : BufTy).Contents (Elt F)),
    binary main_v79 main_v81 main_v82 (addi : (⟨S128x128, .i32⟩ : BufTy).Contents (Elt F) → (⟨S128x128, .i32⟩ : BufTy).Contents (Elt F) → (⟨S128x128, .i32⟩ : BufTy).Contents (Elt F)),
    binary main_v82 main_v80 main_v83 (cmpi .eq : (⟨S128x128, .i32⟩ : BufTy).Contents (Elt F) → (⟨S128x128, .i32⟩ : BufTy).Contents (Elt F) → (⟨S128x128, .i1⟩ : BufTy).Contents (Elt F)),
    unary main_v83 main_v84 (uitofp .f32 : (⟨S128x128, .i1⟩ : BufTy).Contents (Elt F) → (⟨S128x128, .f32⟩ : BufTy).Contents (Elt F)),
    nullary main_cst_20 (constant S_ .f32 0x40000000#32),
    unary main_cst_20 main_v85 (broadcastInDim S128x128 ![] bcast_S_S128x128 : (⟨S_, .f32⟩ : BufTy).Contents (Elt F) → (⟨S128x128, .f32⟩ : BufTy).Contents (Elt F)),
    binary main_v85 main_v84 main_v86 (mulf : (⟨S128x128, .f32⟩ : BufTy).Contents (Elt F) → (⟨S128x128, .f32⟩ : BufTy).Contents (Elt F) → (⟨S128x128, .f32⟩ : BufTy).Contents (Elt F)),
    nullary main_cst_21 (constant S_ .f32 0x3F800000#32),
    unary main_cst_21 main_v87 (broadcastInDim S128x128 ![] bcast_S_S128x128 : (⟨S_, .f32⟩ : BufTy).Contents (Elt F) → (⟨S128x128, .f32⟩ : BufTy).Contents (Elt F)),
    binary main_v86 main_v87 main_v88 (subf : (⟨S128x128, .f32⟩ : BufTy).Contents (Elt F) → (⟨S128x128, .f32⟩ : BufTy).Contents (Elt F) → (⟨S128x128, .f32⟩ : BufTy).Contents (Elt F)),
    binary main_v88 main_v78 main_v89 (mulf : (⟨S128x128, .f32⟩ : BufTy).Contents (Elt F) → (⟨S128x128, .f32⟩ : BufTy).Contents (Elt F) → (⟨S128x128, .f32⟩ : BufTy).Contents (Elt F)),
    TRef.unary (TRef.of (T := ⟨S128x128, .f32⟩) main_v89) main_call4.v0 Host.negf,
    TRef.nullary main_call4.call0.cst (constant S_ .f32 0x00000000#32),
    TRef.unary main_call4.call0.cst main_call4.call0.v0 (broadcastInDim S128x128 ![] bcast_S_S128x128),
    TRef.binary main_call4.v0 main_call4.call0.v0 main_call4.call0.v1 maximumf,
    TRef.unary main_call4.call0.cst main_call4.call0.v2 (broadcastInDim S128x128 ![] bcast_S_S128x128),
    TRef.binary main_call4.v0 main_call4.call0.v2 main_call4.call0.v3 subf,
    TRef.binary main_call4.call0.v3 main_call4.call0.v3 main_call4.call0.v4 (cmpf .une),
    TRef.unary main_call4.call0.cst main_call4.call0.v5 (broadcastInDim S128x128 ![] bcast_S_S128x128),
    TRef.binary main_call4.v0 main_call4.call0.v5 main_call4.call0.v6 addf,
    TRef.unary main_call4.call0.v3 main_call4.call0.v7 Host.absf,
    TRef.unary main_call4.call0.v7 main_call4.call0.v8 Host.negf,
    TRef.unary main_call4.call0.v8 main_call4.call0.v9 Host.exp,
    TRef.unary main_call4.call0.v9 main_call4.call0.v10 Host.log1p,
    TRef.binary main_call4.call0.v1 main_call4.call0.v10 main_call4.call0.v11 addf,
    TRef.ternary main_call4.call0.v4 main_call4.call0.v6 main_call4.call0.v11 main_call4.call0.v12 select,
    TRef.unary main_call4.call0.v12 main_call4.v2 Host.negf,
    nullary main_cst_22 (constant S_ .f32 0x00000000#32),
    binary main_v90 main_cst_22 main_v91 ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)),
    nullary main_cst_23 (constant S_ .f32 0x46800000#32),
    binary main_v91 main_cst_23 main_v92 (Host.divf : (⟨S_, .f32⟩ : BufTy).Contents (Elt F) → (⟨S_, .f32⟩ : BufTy).Contents (Elt F) → (⟨S_, .f32⟩ : BufTy).Contents (Elt F)),
    unary main_v92 main_v93 (Host.negf : (⟨S_, .f32⟩ : BufTy).Contents (Elt F) → (⟨S_, .f32⟩ : BufTy).Contents (Elt F)) ]

/-- The operations of window main_part2: @main's operations 164 … 166 of 166, the callees' at their call sites. -/
abbrev ops2 : List (HloOp τ sig (Elt F)) :=
  [ nullary main_cst_24 (constant S_ .f32 0x3F000000#32),
    binary main_cst_24 main_v93 main_v94 (mulf : (⟨S_, .f32⟩ : BufTy).Contents (Elt F) → (⟨S_, .f32⟩ : BufTy).Contents (Elt F) → (⟨S_, .f32⟩ : BufTy).Contents (Elt F)),
    binary main_v39 main_v94 main_v95 (addf : (⟨S_, .f32⟩ : BufTy).Contents (Elt F) → (⟨S_, .f32⟩ : BufTy).Contents (Elt F) → (⟨S_, .f32⟩ : BufTy).Contents (Elt F)) ]

/-- @main's 166 operations, in order. -/
abbrev ops : List (HloOp τ sig (Elt F)) := ops0 ++ (ops1 ++ (ops2))

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- Window main_part0 is its line: the outlined functions' definitions unfolded at their calls, both sides are one chain of
    operation steps once sequencing is reassociated. -/
theorem main_part0_eq (c : Dev nD) : main_part0 (F := F) c = seq ops0 := by
  simp only [main_part0, fn_clip.body, fn_clip_0.body, fn_log_sigmoid.body, fn_softplus.body, seq, bind_assoc, pure_bind] <;> rfl

set_option maxRecDepth 8192 in
set_option maxHeartbeats 4000000 in
/-- Window main_part1 is its line: the outlined functions' definitions unfolded at their calls, both sides are one chain of
    operation steps once sequencing is reassociated. -/
theorem main_part1_eq (c : Dev nD) : main_part1 (F := F) c = seq ops1 := by
  simp only [main_part1, fn_clip.body, fn_clip_0.body, fn_log_sigmoid.body, fn_softplus.body, seq, bind_assoc, pure_bind] <;> rfl

set_option maxRecDepth 8192 in
set_option maxHeartbeats 4000000 in
/-- Window main_part2 is its line: the outlined functions' definitions unfolded at their calls, both sides are one chain of
    operation steps once sequencing is reassociated. -/
theorem main_part2_eq (c : Dev nD) : main_part2 (F := F) c = seq ops2 := by
  simp only [main_part2, fn_clip.body, fn_clip_0.body, fn_log_sigmoid.body, fn_softplus.body, seq, bind_assoc, pure_bind] <;> rfl

/-- @main runs its windows in order, and a line run after another is their concatenation run as one. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., nullary_bufs_sub .., unary_bufs_sub .., binary_bufs_sub .., unary_bufs_sub .., binary_bufs_sub ..,
    unary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub .., unary_bufs_sub .., binary_bufs_sub .., unary_bufs_sub ..,
    binary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., nullary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    binary_bufs_sub .., unary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., nullary_bufs_sub ..,
    binary_bufs_sub .., nullary_bufs_sub .., binary_bufs_sub .., unary_bufs_sub .., binary_bufs_sub .., nullary_bufs_sub ..,
    binary_bufs_sub .., unary_bufs_sub .., unary_bufs_sub .., nullary_bufs_sub .., unary_bufs_sub ..⟩

theorem ops1_sub : (ops1 : List (HloOp τ sig (Elt F))).Forall fun op => op.bufs ⊆ tcRefs τ sig :=
  ⟨binary_bufs_sub .., unary_bufs_sub .., binary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    unary_bufs_sub .., unary_bufs_sub .., unary_bufs_sub .., unary_bufs_sub .., binary_bufs_sub .., unary_bufs_sub ..,
    unary_bufs_sub .., unary_bufs_sub .., unary_bufs_sub .., binary_bufs_sub .., nullary_bufs_sub .., binary_bufs_sub ..,
    unary_bufs_sub .., unary_bufs_sub .., binary_bufs_sub .., unary_bufs_sub .., binary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., nullary_bufs_sub ..,
    unary_bufs_sub .., binary_bufs_sub .., binary_bufs_sub .., unary_bufs_sub .., nullary_bufs_sub .., unary_bufs_sub ..,
    binary_bufs_sub .., nullary_bufs_sub .., unary_bufs_sub .., binary_bufs_sub .., binary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., nullary_bufs_sub .., binary_bufs_sub .., nullary_bufs_sub ..,
    binary_bufs_sub .., unary_bufs_sub ..⟩

theorem ops2_sub : (ops2 : List (HloOp τ sig (Elt F))).Forall fun op => op.bufs ⊆ tcRefs τ sig :=
  ⟨nullary_bufs_sub .., binary_bufs_sub .., binary_bufs_sub ..⟩

/-- Every operation of the line touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem ops2_fresh : (ops2 : List (HloOp τ sig (Elt F))).Forall fun op => op.fresh = ∅ :=
  ⟨rfl, rfl, rfl⟩

/-- Every operation of the line determines its results. -/
theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h, List.forall_iff_forall_mem.mp ops2_fresh op h]

/-- On the one device, for any float values, from any memory with zero counters: every weakly fair execution of @main
    terminates, and every final state has each TensorCore buffer at the fold of the operations' results over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.HandRun

end
-- ==== Proof.RefValue.lean ====
/- The reference's run read back at its results. The fold of @main's operations over any buffer contents leaves each of the
   three result buffers at the named term of the argument arrays that composes the printed operations (the total loss, the
   image-text loss, the region-concept loss), and each argument buffer at what it held; the run then ends with every
   result at that term of the launch contents. -/
import proofs.«175475_j58832462021083_1_alg».proof.Proof.RefOps
import proofs.«175475_j58832462021083_1_alg».proof.Proof.RefTerms

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- No operation writes argument 0's buffer: the fold leaves it as it was. -/
theorem arg0_eq (V : Valuation τ sig (Elt F)) :
    after ops V (main_arg0 : DevRef τ sig) = V (main_arg0 : DevRef τ sig) := by
  simp only [ops, after_append]
  after_results_simp

/-- No operation writes argument 1's buffer: the fold leaves it as it was. -/
theorem arg1_eq (V : Valuation τ sig (Elt F)) :
    after ops V (main_arg1 : DevRef τ sig) = V (main_arg1 : DevRef τ sig) := by
  simp only [ops, after_append]
  after_results_simp

/-- No operation writes argument 2's buffer: the fold leaves it as it was. -/
theorem arg2_eq (V : Valuation τ sig (Elt F)) :
    after ops V (main_arg2 : DevRef τ sig) = V (main_arg2 : DevRef τ sig) := by
  simp only [ops, after_append]
  after_results_simp

/-- No operation writes argument 3's buffer: the fold leaves it as it was. -/
theorem arg3_eq (V : Valuation τ sig (Elt F)) :
    after ops V (main_arg3 : DevRef τ sig) = V (main_arg3 : DevRef τ sig) := by
  simp only [ops, after_append]
  after_results_simp

/-- No operation writes argument 4's buffer: the fold leaves it as it was. -/
theorem arg4_eq (V : Valuation τ sig (Elt F)) :
    after ops V (main_arg4 : DevRef τ sig) = V (main_arg4 : DevRef τ sig) := by
  simp only [ops, after_append]
  after_results_simp

/-- No operation writes argument 5's buffer: the fold leaves it as it was. -/
theorem arg5_eq (V : Valuation τ sig (Elt F)) :
    after ops V (main_arg5 : DevRef τ sig) = V (main_arg5 : DevRef τ sig) := by
  simp only [ops, after_append]
  after_results_simp

/-- No operation writes argument 6's buffer: the fold leaves it as it was. -/
theorem arg6_eq (V : Valuation τ sig (Elt F)) :
    after ops V (main_arg6 : DevRef τ sig) = V (main_arg6 : DevRef τ sig) := by
  simp only [ops, after_append]
  after_results_simp

set_option maxRecDepth 8192 in
set_option maxHeartbeats 4000000 in
/-- The image-text loss's buffer after the fold: each operation's result read at its own buffer is its function of its
    operands' contents, and the composition of those functions from the arguments is the named term. -/
theorem itLoss_eq (V : Valuation τ sig (Elt F)) :
    after ops V (main_v39 : DevRef τ sig)
      = Terms.itLoss (V (main_arg0 : DevRef τ sig)) (V (main_arg1 : DevRef τ sig)) (V (main_arg5 : DevRef τ sig)) (V (main_arg6 : DevRef τ sig)) := by
  simp only [ops, after_append]
  after_results_simp
  rfl

set_option maxRecDepth 8192 in
set_option maxHeartbeats 4000000 in
/-- The region-concept loss's buffer after the fold, likewise. -/
theorem rcLoss_eq (V : Valuation τ sig (Elt F)) :
    after ops V (main_v93 : DevRef τ sig)
      = Terms.rcLoss (V (main_arg2 : DevRef τ sig)) (V (main_arg3 : DevRef τ sig)) (V (main_arg4 : DevRef τ sig)) (V (main_arg5 : DevRef τ sig)) (V (main_arg6 : DevRef τ sig)) := by
  simp only [ops, after_append]
  after_results_simp
  rfl

set_option maxRecDepth 8192 in
set_option maxHeartbeats 4000000 in
/-- The total's buffer after the fold: the image-text loss plus one half of the region-concept loss. -/
theorem total_eq (V : Valuation τ sig (Elt F)) :
    after ops V (main_v95 : DevRef τ sig)
      = Terms.total (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  simp only [ops, after_append]
  after_results_simp
  rfl

/-- On the one device, for any float values, from any memory with zero counters: every weakly fair execution of @main
    terminates with the three results at the named terms of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = Terms.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v39) = Terms.itLoss (m ((c.tc : Thread nD τ).loc main_arg0)) (m ((c.tc : Thread nD τ).loc main_arg1)) (m ((c.tc : Thread nD τ).loc main_arg5)) (m ((c.tc : Thread nD τ).loc main_arg6))
      ∧ r.2.mem ((c.tc : Thread nD τ).loc main_v93) = Terms.rcLoss (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v95).trans (total_eq _), (h c main_v39).trans (itLoss_eq _),
      (h c main_v93).trans (rcLoss_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_main m ρ)

end Cert.ReferenceIdeal.HandRun

end
-- ==== Proof.RefRead.lean ====
/-
  The reference's two similarity matrices read entry by entry.

  Every host operation of the reference either acts entry by entry (a quotient, a square root, a maximum, a
  product, a comparison, a conversion), or copies entries (a broadcast along new or unit axes, a transpose), or
  combines the entries along one axis (a sum, a running maximum, the contraction of a matrix product). Read at
  an index given by its coordinates, each one becomes the corresponding expression on the extended reals, and
  the compositions become the index-by-index functions of the specification: a row divided by the larger of
  its Euclidean norm and the floor, the cosine of two rows, the best patch of an image for a concept, the
  ragged mask and the concept count.
-/
import proofs.«175475_j58832462021083_1_alg».proof.Proof.RefTerms
import proofs.«175475_j58832462021083_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.Read

open Idealize.ShloMosaic Idealize.ShloMosaic.ValueIdx Cert.ReferenceIdeal Cert.ReferenceIdeal.Gen

/-! ## Broadcasts along new or unit axes, read at an index -/

section Broadcasts
variable {α : Type}

/-- A vector of 128 entries made a one-column matrix reads the vector's entry. -/
theorem bcast_S128_S128x1_apply (x : S128.Idx → α) (i : Fin 128) (u : Fin 1) :
    broadcastInDim S128x1 ![0] bcast_S128_S128x1_0 x (ix2 i u) = x (ix1 i) :=
  broadcastInDim_apply _ _ x _ _ fun a => match a with | ⟨0, _⟩ => rfl

/-- A one-column matrix copied along 768 columns reads its one column. -/
theorem bcast_S128x1_S128x768_apply (x : S128x1.Idx → α) (i : Fin 128) (k : Fin 768) :
    broadcastInDim S128x768 ![0, 1] bcast_S128x1_S128x768_0_1 x (ix2 i k) = x (ix2 i (0 : Fin 1)) :=
  broadcastInDim_apply _ _ x _ _ fun a => match a with | ⟨0, _⟩ => rfl | ⟨1, _⟩ => rfl

end Broadcasts

/-! ## A row divided by the larger of its norm and the floor -/

/-- The sum of squares along a row of a 128 x 768 matrix. -/
theorem sumsq2_apply (a : FVec Ideal S128x768 .f32) (i : Fin 128) :
    Host.reduceAdd (F := Ideal) (mulf a a) (constant (F := Ideal) S_ .f32 0x00000000#32) reducesTo_S128x768_S128_d1 h_S_ (ix1 i)
      = ∑ k : Fin 768, a (ix2 i k) * a (ix2 i k) := by
  have hR : S128x768.Reduces [1] S128 := by decide
  have e : ∀ k : Fin 768, hR.lift (ix1 i) k = ix2 i k := fun k =>
    funext fun c => match c with | ⟨0, _⟩ => Fin.ext rfl | ⟨1, _⟩ => Fin.ext rfl
  refine (hostReduceAdd_apply _ _ _ _ _).trans ?_
  refine (Ideal.hostReduceAdd_single reducesTo_S128x768_S128_d1 hR _ _ (ix1 i)).trans ?_
  show Ideal.ofBits .f32 0x00000000#32 + ∑ k : Fin 768, mulf a a (hR.lift (ix1 i) k) = _
  rw [Ideal.ofBits_zero_f32, zero_add]
  exact Finset.sum_congr rfl fun k _ => by rw [e k]; rfl

/-- A row of a 128 x 768 matrix, normalised. -/
theorem unit2_apply (a : FVec Ideal S128x768 .f32) (i : Fin 128) (k : Fin 768) :
    Terms.unit2 (F := Ideal) a (ix2 i k) = Cert.Align.unit (fun k => a (ix2 i k)) k := by
  unfold Terms.unit2
  refine (hostDivf_apply _ _ _).trans ?_
  refine congrArg (Ideal.div (a (ix2 i k))) ?_
  refine (bcast_S128x1_S128x768_apply _ i k).trans ?_
  refine (maximumf_apply _ _ _).trans ?_
  refine congrArg₂ max ?_ ?_
  · refine congrArg Ideal.sqrt ?_
    exact (bcast_S128_S128x1_apply _ i 0).trans (sumsq2_apply a i)
  · exact broadcastInDim_scalar_apply _ _ _

/-! ## The image-text cosines -/

/-- The 128 x 768 by 768 x 128 product at (i, j): the sum over the 768 shared coordinates. -/
theorem dotIT_apply (A : FVec Ideal S128x768 .f32) (B : FVec Ideal S768x128 .f32) (i j : Fin 128) :
    Host.dotGeneral (F := Ideal) dot_S128x768_S768x128_S128x128_1_0_0_1_n_n none A B (ix2 i j)
      = ∑ d : Fin 768, A (ix2 i d) * B (ix2 d j) := by
  show FloatOps.dotGeneral _ none _ A B (ix2 i j) = _
  rw [Ideal.dotGeneral_apply,
    ← Equiv.sum_comp (contrEquiv1 dot_S128x768_S768x128_S128x128_1_0_0_1_n_n 768 rfl rfl).symm]
  refine Finset.sum_congr rfl fun d _ => ?_
  have c2 := contrEquiv1_symm_val dot_S128x768_S768x128_S128x128_1_0_0_1_n_n 768 rfl rfl d
  have l2 : dot_S128x768_S768x128_S128x128_1_0_0_1_n_n.lhsIdx (ix2 i j)
      ((contrEquiv1 dot_S128x768_S768x128_S128x128_1_0_0_1_n_n 768 rfl rfl).symm d) = ix2 i d := by
    funext ax; apply Fin.ext
    match ax with
    | ⟨0, _⟩ => simp [DotDims.lhsIdx, dot_S128x768_S768x128_S128x128_1_0_0_1_n_n]; rfl
    | ⟨1, _⟩ => simp [DotDims.lhsIdx, dot_S128x768_S768x128_S128x128_1_0_0_1_n_n]; exact c2
  have r2 : dot_S128x768_S768x128_S128x128_1_0_0_1_n_n.rhsIdx (ix2 i j)
      ((contrEquiv1 dot_S128x768_S768x128_S128x128_1_0_0_1_n_n 768 rfl rfl).symm d) = ix2 d j := by
    funext ax; apply Fin.ext
    match ax with
    | ⟨0, _⟩ => simp [DotDims.rhsIdx, dot_S128x768_S768x128_S128x128_1_0_0_1_n_n]; exact c2
    | ⟨1, _⟩ => simp [DotDims.rhsIdx, dot_S128x768_S768x128_S128x128_1_0_0_1_n_n]; rfl
  rw [l2, r2]

/-- The image-text similarity at (i, j) is the cosine of image i and text j. -/
theorem simIT_apply (a0 a1 : FVec Ideal S128x768 .f32) (i j : Fin 128) :
    Terms.simIT (F := Ideal) a0 a1 (ix2 i j)
      = Cert.Align.cosIT (fun i k => a0 (ix2 i k)) (fun j k => a1 (ix2 j k)) i j := by
  unfold Terms.simIT
  refine (dotIT_apply _ _ i j).trans ?_
  unfold Cert.Align.cosIT
  refine Finset.sum_congr rfl fun d _ => ?_
  rw [transpose_ix2_apply, unit2_apply, unit2_apply]

/-! ## More broadcasts along new or unit axes -/

section Broadcasts3
variable {α : Type}

/-- A 128 x 196 matrix given a trailing unit axis reads the matrix's entry. -/
theorem bcast_S128x196_S128x196x1_apply (x : S128x196.Idx → α) (m : Fin 128) (n : Fin 196) (u : Fin 1) :
    broadcastInDim S128x196x1 ![0, 1] bcast_S128x196_S128x196x1_0_1 x (ix3 m n u) = x (ix2 m n) :=
  broadcastInDim_apply _ _ x _ _ fun a => match a with | ⟨0, _⟩ => rfl | ⟨1, _⟩ => rfl

/-- A 128 x 196 x 1 array copied along 768 entries of its last axis reads its one entry there. -/
theorem bcast_S128x196x1_S128x196x768_apply (x : S128x196x1.Idx → α) (m : Fin 128) (n : Fin 196) (d : Fin 768) :
    broadcastInDim S128x196x768 ![0, 1, 2] bcast_S128x196x1_S128x196x768_0_1_2 x (ix3 m n d) = x (ix3 m n (0 : Fin 1)) :=
  broadcastInDim_apply _ _ x _ _ fun a => match a with | ⟨0, _⟩ => rfl | ⟨1, _⟩ => rfl | ⟨2, _⟩ => rfl

/-- A 128 x 32 matrix given a trailing unit axis reads the matrix's entry. -/
theorem bcast_S128x32_S128x32x1_apply (x : S128x32.Idx → α) (v : Fin 128) (w : Fin 32) (u : Fin 1) :
    broadcastInDim S128x32x1 ![0, 1] bcast_S128x32_S128x32x1_0_1 x (ix3 v w u) = x (ix2 v w) :=
  broadcastInDim_apply _ _ x _ _ fun a => match a with | ⟨0, _⟩ => rfl | ⟨1, _⟩ => rfl

/-- A 128 x 32 x 1 array copied along 768 entries of its last axis reads its one entry there. -/
theorem bcast_S128x32x1_S128x32x768_apply (x : S128x32x1.Idx → α) (v : Fin 128) (w : Fin 32) (d : Fin 768) :
    broadcastInDim S128x32x768 ![0, 1, 2] bcast_S128x32x1_S128x32x768_0_1_2 x (ix3 v w d) = x (ix3 v w (0 : Fin 1)) :=
  broadcastInDim_apply _ _ x _ _ fun a => match a with | ⟨0, _⟩ => rfl | ⟨1, _⟩ => rfl | ⟨2, _⟩ => rfl

/-- A vector of 32 entries made a one-row matrix reads the vector's entry. -/
theorem bcast_S32_S1x32_apply (x : S32.Idx → α) (u : Fin 1) (w : Fin 32) :
    broadcastInDim S1x32 ![1] bcast_S32_S1x32_1 x (ix2 u w) = x (ix1 w) :=
  broadcastInDim_apply _ _ x _ _ fun a => match a with | ⟨0, _⟩ => rfl

/-- A one-row matrix copied down 128 rows reads its one row. -/
theorem bcast_S1x32_S128x32_apply (x : S1x32.Idx → α) (v : Fin 128) (w : Fin 32) :
    broadcastInDim S128x32 ![0, 1] bcast_S1x32_S128x32_0_1 x (ix2 v w) = x (ix2 (0 : Fin 1) w) :=
  broadcastInDim_apply _ _ x _ _ fun a => match a with | ⟨0, _⟩ => rfl | ⟨1, _⟩ => rfl

/-- A one-column matrix copied along 32 columns reads its one column. -/
theorem bcast_S128x1_S128x32_apply (x : S128x1.Idx → α) (v : Fin 128) (w : Fin 32) :
    broadcastInDim S128x32 ![0, 1] bcast_S128x1_S128x32_0_1 x (ix2 v w) = x (ix2 v (0 : Fin 1)) :=
  broadcastInDim_apply _ _ x _ _ fun a => match a with | ⟨0, _⟩ => rfl | ⟨1, _⟩ => rfl

/-- A 128 x 32 matrix given a leading unit axis reads the matrix's entry. -/
theorem bcast_S128x32_S1x128x32_apply (x : S128x32.Idx → α) (u : Fin 1) (v : Fin 128) (w : Fin 32) :
    broadcastInDim S1x128x32 ![1, 2] bcast_S128x32_S1x128x32_1_2 x (ix3 u v w) = x (ix2 v w) :=
  broadcastInDim_apply _ _ x _ _ fun a => match a with | ⟨0, _⟩ => rfl | ⟨1, _⟩ => rfl

/-- A 1 x 128 x 32 array copied along 128 entries of its first axis reads its one entry there. -/
theorem bcast_S1x128x32_S128x128x32_apply (x : S1x128x32.Idx → α) (m v : Fin 128) (w : Fin 32) :
    broadcastInDim S128x128x32 ![0, 1, 2] bcast_S1x128x32_S128x128x32_0_1_2 x (ix3 m v w) = x (ix3 (0 : Fin 1) v w) :=
  broadcastInDim_apply _ _ x _ _ fun a => match a with | ⟨0, _⟩ => rfl | ⟨1, _⟩ => rfl | ⟨2, _⟩ => rfl

/-- A vector of 128 entries made a one-row matrix reads the vector's entry. -/
theorem bcast_S128_S1x128_apply (x : S128.Idx → α) (u : Fin 1) (v : Fin 128) :
    broadcastInDim S1x128 ![1] bcast_S128_S1x128_1 x (ix2 u v) = x (ix1 v) :=
  broadcastInDim_apply _ _ x _ _ fun a => match a with | ⟨0, _⟩ => rfl

/-- A one-row matrix copied down 128 rows reads its one row. -/
theorem bcast_S1x128_S128x128_apply (x : S1x128.Idx → α) (m v : Fin 128) :
    broadcastInDim S128x128 ![0, 1] bcast_S1x128_S128x128_0_1 x (ix2 m v) = x (ix2 (0 : Fin 1) v) :=
  broadcastInDim_apply _ _ x _ _ fun a => match a with | ⟨0, _⟩ => rfl | ⟨1, _⟩ => rfl

end Broadcasts3

/-! ## Patch and concept vectors, normalised along their last axis -/

/-- The sum of squares of a patch vector. -/
theorem sumsqP_apply (a : FVec Ideal S128x196x768 .f32) (m : Fin 128) (n : Fin 196) :
    Host.reduceAdd (F := Ideal) (mulf a a) (constant (F := Ideal) S_ .f32 0x00000000#32)
        reducesTo_S128x196x768_S128x196_d2 h_S_ (ix2 m n)
      = ∑ d : Fin 768, a (ix3 m n d) * a (ix3 m n d) := by
  have hR : S128x196x768.Reduces [2] S128x196 := by decide
  have e : ∀ d : Fin 768, hR.lift (ix2 m n) d = ix3 m n d := fun d =>
    funext fun c => match c with | ⟨0, _⟩ => Fin.ext rfl | ⟨1, _⟩ => Fin.ext rfl | ⟨2, _⟩ => Fin.ext rfl
  refine (hostReduceAdd_apply _ _ _ _ _).trans ?_
  refine (Ideal.hostReduceAdd_single reducesTo_S128x196x768_S128x196_d2 hR _ _ (ix2 m n)).trans ?_
  show Ideal.ofBits .f32 0x00000000#32 + ∑ d : Fin 768, mulf a a (hR.lift (ix2 m n) d) = _
  rw [Ideal.ofBits_zero_f32, zero_add]
  exact Finset.sum_congr rfl fun d _ => by rw [e d]; rfl

/-- A patch vector, normalised. -/
theorem unitP_apply (a : FVec Ideal S128x196x768 .f32) (m : Fin 128) (n : Fin 196) (d : Fin 768) :
    Terms.unitP (F := Ideal) a (ix3 m n d) = Cert.Align.unit (fun d => a (ix3 m n d)) d := by
  unfold Terms.unitP
  refine (hostDivf_apply _ _ _).trans ?_
  refine congrArg (Ideal.div (a (ix3 m n d))) ?_
  refine (bcast_S128x196x1_S128x196x768_apply _ m n d).trans ?_
  refine (maximumf_apply _ _ _).trans ?_
  refine congrArg₂ max ?_ ?_
  · refine congrArg Ideal.sqrt ?_
    exact (bcast_S128x196_S128x196x1_apply _ m n 0).trans (sumsqP_apply a m n)
  · exact broadcastInDim_scalar_apply _ _ _

/-- The sum of squares of a concept vector. -/
theorem sumsqC_apply (a : FVec Ideal S128x32x768 .f32) (v : Fin 128) (w : Fin 32) :
    Host.reduceAdd (F := Ideal) (mulf a a) (constant (F := Ideal) S_ .f32 0x00000000#32)
        reducesTo_S128x32x768_S128x32_d2 h_S_ (ix2 v w)
      = ∑ d : Fin 768, a (ix3 v w d) * a (ix3 v w d) := by
  have hR : S128x32x768.Reduces [2] S128x32 := by decide
  have e : ∀ d : Fin 768, hR.lift (ix2 v w) d = ix3 v w d := fun d =>
    funext fun c => match c with | ⟨0, _⟩ => Fin.ext rfl | ⟨1, _⟩ => Fin.ext rfl | ⟨2, _⟩ => Fin.ext rfl
  refine (hostReduceAdd_apply _ _ _ _ _).trans ?_
  refine (Ideal.hostReduceAdd_single reducesTo_S128x32x768_S128x32_d2 hR _ _ (ix2 v w)).trans ?_
  show Ideal.ofBits .f32 0x00000000#32 + ∑ d : Fin 768, mulf a a (hR.lift (ix2 v w) d) = _
  rw [Ideal.ofBits_zero_f32, zero_add]
  exact Finset.sum_congr rfl fun d _ => by rw [e d]; rfl

/-- A concept vector, normalised. -/
theorem unitC_apply (a : FVec Ideal S128x32x768 .f32) (v : Fin 128) (w : Fin 32) (d : Fin 768) :
    Terms.unitC (F := Ideal) a (ix3 v w d) = Cert.Align.unit (fun d => a (ix3 v w d)) d := by
  unfold Terms.unitC
  refine (hostDivf_apply _ _ _).trans ?_
  refine congrArg (Ideal.div (a (ix3 v w d))) ?_
  refine (bcast_S128x32x1_S128x32x768_apply _ v w d).trans ?_
  refine (maximumf_apply _ _ _).trans ?_
  refine congrArg₂ max ?_ ?_
  · refine congrArg Ideal.sqrt ?_
    exact (bcast_S128x32_S128x32x1_apply _ v w 0).trans (sumsqC_apply a v w)
  · exact broadcastInDim_scalar_apply _ _ _

/-! ## The region-concept similarity -/

/-- The product of all concept vectors with all patch vectors at (v, w, m, n): the sum over the 768 shared
    coordinates of concept (v, w) times patch (m, n). -/
theorem dotRC_apply (C : FVec Ideal S128x32x768 .f32) (P : FVec Ideal S128x196x768 .f32)
    (v : Fin 128) (w : Fin 32) (m : Fin 128) (n : Fin 196) :
    Host.dotGeneral (F := Ideal) dot_S128x32x768_S128x196x768_S128x32x128x196_2_2_01_01_n_n none C P (ix4 v w m n)
      = ∑ d : Fin 768, C (ix3 v w d) * P (ix3 m n d) := by
  show FloatOps.dotGeneral _ none _ C P (ix4 v w m n) = _
  rw [Ideal.dotGeneral_apply,
    ← Equiv.sum_comp (contrEquiv1 dot_S128x32x768_S128x196x768_S128x32x128x196_2_2_01_01_n_n 768 rfl rfl).symm]
  refine Finset.sum_congr rfl fun d _ => ?_
  have c3 := contrEquiv1_symm_val dot_S128x32x768_S128x196x768_S128x32x128x196_2_2_01_01_n_n 768 rfl rfl d
  have l3 : dot_S128x32x768_S128x196x768_S128x32x128x196_2_2_01_01_n_n.lhsIdx (ix4 v w m n)
      ((contrEquiv1 dot_S128x32x768_S128x196x768_S128x32x128x196_2_2_01_01_n_n 768 rfl rfl).symm d) = ix3 v w d := by
    funext ax; apply Fin.ext
    match ax with
    | ⟨0, _⟩ => simp [DotDims.lhsIdx, dot_S128x32x768_S128x196x768_S128x32x128x196_2_2_01_01_n_n]; rfl
    | ⟨1, _⟩ => simp [DotDims.lhsIdx, dot_S128x32x768_S128x196x768_S128x32x128x196_2_2_01_01_n_n]; rfl
    | ⟨2, _⟩ => simp [DotDims.lhsIdx, dot_S128x32x768_S128x196x768_S128x32x128x196_2_2_01_01_n_n]; exact c3
  have r3 : dot_S128x32x768_S128x196x768_S128x32x128x196_2_2_01_01_n_n.rhsIdx (ix4 v w m n)
      ((contrEquiv1 dot_S128x32x768_S128x196x768_S128x32x128x196_2_2_01_01_n_n 768 rfl rfl).symm d) = ix3 m n d := by
    funext ax; apply Fin.ext
    match ax with
    | ⟨0, _⟩ => simp [DotDims.rhsIdx, dot_S128x32x768_S128x196x768_S128x32x128x196_2_2_01_01_n_n]; rfl
    | ⟨1, _⟩ => simp [DotDims.rhsIdx, dot_S128x32x768_S128x196x768_S128x32x128x196_2_2_01_01_n_n]; rfl
    | ⟨2, _⟩ => simp [DotDims.rhsIdx, dot_S128x32x768_S128x196x768_S128x32x128x196_2_2_01_01_n_n]; exact c3
  rw [l3, r3]

/-- The axes (v, w, m, n) rearranged as (m, v, n, w). -/
theorem transposeRC_apply {α : Type} (x : S128x32x128x196.Idx → α) (m v : Fin 128) (n : Fin 196) (w : Fin 32) :
    transpose S128x128x196x32 [2, 0, 3, 1] x transposes_S128x32x128x196_S128x128x196x32_2_0_3_1 (ix4 m v n w)
      = x (ix4 v w m n) :=
  transpose_apply _ x _ _ _ fun b => match b with | ⟨0, _⟩ => rfl | ⟨1, _⟩ => rfl | ⟨2, _⟩ => rfl | ⟨3, _⟩ => rfl

/-- The running maximum over the 196 patches, started from minus infinity. -/
theorem maxRC_apply (X : FVec Ideal S128x128x196x32 .f32) (m v : Fin 128) (w : Fin 32) :
    Host.reduce (FloatOps.maximumf (F := Ideal) (φ := .f32)) X (constant (F := Ideal) S_ .f32 0xFF800000#32)
        reducesTo_S128x128x196x32_S128x128x32_d2 h_S_ (ix3 m v w)
      = (Finset.univ : Finset (Fin 196)).fold max Cert.Align.negInf (fun n => X (ix4 m v n w)) := by
  have hR : S128x128x196x32.Reduces [2] S128x128x32 := by decide
  have e : ∀ n : Fin 196, hR.lift (ix3 m v w) n = ix4 m v n w := fun n =>
    funext fun c => match c with
      | ⟨0, _⟩ => Fin.ext rfl | ⟨1, _⟩ => Fin.ext rfl | ⟨2, _⟩ => Fin.ext rfl | ⟨3, _⟩ => Fin.ext rfl
  refine (Host.reduce_eq_fold_single _ X _ reducesTo_S128x128x196x32_S128x128x32_d2 hR h_S_ (ix3 m v w)).trans ?_
  show (Finset.univ : Finset (Fin 196)).fold max Cert.Align.negInf (X ∘ hR.lift (ix3 m v w)) = _
  exact congrArg (fun f => (Finset.univ : Finset (Fin 196)).fold max Cert.Align.negInf f)
    (funext fun n => congrArg X (e n))

/-- The ragged mask at (v, w): one where w is below sample v's count. -/
theorem mask_apply (a4 : IVec S128 32) (v : Fin 128) (w : Fin 32) :
    Terms.mask (F := Ideal) a4 (ix2 v w) = Cert.Align.maskAt (fun v => a4 (ix1 v)) v w := by
  unfold Terms.mask Cert.Align.maskAt
  show FloatOps.uitofp (F := Ideal) .f32 (IntOp.cmpi .slt
      (broadcastInDim S128x32 ![0, 1] bcast_S1x32_S128x32_0_1
        (broadcastInDim S1x32 ![1] bcast_S32_S1x32_1 (iotaInDim S32 32 0)) (ix2 v w))
      (broadcastInDim S128x32 ![0, 1] bcast_S128x1_S128x32_0_1
        (broadcastInDim S128x1 ![0] bcast_S128_S128x1_0 a4) (ix2 v w))) = _
  rw [bcast_S1x32_S128x32_apply, bcast_S32_S1x32_apply, bcast_S128x1_S128x32_apply, bcast_S128_S128x1_apply]
  rfl

/-- The region-concept similarity at (m, v). -/
theorem simRC_apply (a2 : FVec Ideal S128x196x768 .f32) (a3 : FVec Ideal S128x32x768 .f32) (a4 : IVec S128 32)
    (m v : Fin 128) :
    Terms.simRC (F := Ideal) a2 a3 a4 (ix2 m v)
      = Cert.Align.simRC (fun m n d => a2 (ix3 m n d)) (fun v w d => a3 (ix3 v w d)) (fun v => a4 (ix1 v)) m v := by
  have hR : S128x128x32.Reduces [2] S128x128 := by decide
  have e : ∀ w : Fin 32, hR.lift (ix2 m v) w = ix3 m v w := fun w =>
    funext fun c => match c with | ⟨0, _⟩ => Fin.ext rfl | ⟨1, _⟩ => Fin.ext rfl | ⟨2, _⟩ => Fin.ext rfl
  unfold Terms.simRC Cert.Align.simRC
  refine (hostDivf_apply _ _ _).trans ?_
  refine congrArg₂ Ideal.div ?_ ?_
  · refine (hostReduceAdd_apply _ _ _ _ _).trans ?_
    refine (Ideal.hostReduceAdd_single reducesTo_S128x128x32_S128x128_d2 hR _ _ (ix2 m v)).trans ?_
    show Ideal.ofBits .f32 0x00000000#32 + ∑ w : Fin 32, _ = _
    rw [Ideal.ofBits_zero_f32, zero_add]
    refine Finset.sum_congr rfl fun w _ => ?_
    rw [e w]
    refine (mulf_apply _ _ _).trans ?_
    refine congrArg₂ (· * ·) ?_ ?_
    · refine (maxRC_apply _ m v w).trans ?_
      unfold Cert.Align.pooled
      refine congrArg (fun f => (Finset.univ : Finset (Fin 196)).fold max Cert.Align.negInf f) (funext fun n => ?_)
      refine (transposeRC_apply _ m v n w).trans ?_
      refine (dotRC_apply _ _ v w m n).trans ?_
      unfold Cert.Align.cosPC
      refine Finset.sum_congr rfl fun d _ => ?_
      rw [unitC_apply, unitP_apply]
      exact mul_comm _ _
    · refine (bcast_S1x128x32_S128x128x32_apply _ m v w).trans ?_
      refine (bcast_S128x32_S1x128x32_apply _ 0 v w).trans ?_
      exact mask_apply a4 v w
  · refine (bcast_S1x128_S128x128_apply _ m v).trans ?_
    refine (bcast_S128_S1x128_apply _ 0 v).trans ?_
    rfl

end Cert.ReferenceIdeal.Read

end
-- ==== Proof.lean ====
/-
  The certificate of the contrastive alignment loss: a sigmoid contrastive loss of the image-text cosines plus half
  the same loss of a pooled region-concept similarity, computed by two kernels and host code, against the plain
  array program.

  Both programs end by applying one chain to a 128 x 128 similarity matrix S, the scalar scale s and the bias b:
  minus the mean over all pairs of log sigmoid (sign * clip (exp (clip s) * S + b)). The certificate never opens that
  chain: it shows the two programs feed it the same two matrices, entry by entry, on the extended reals.

  Image-text: both sides divide each feature row by the larger of its Euclidean norm and 1e-12 (the same
  single-precision word) and take inner products; the kernel's rounding of the rows to a shorter format is the
  identity on exact values, and its matrix product into a zero accumulator is the same sum as the array program's.

  Region-concept: entry (m, v) is, for the array program, the sum over the 32 concepts w of sample v of
  (the best cosine of a patch of image m with concept w, kept where w is below v's count), divided by the count. The
  kernel instead multiplies the 4096 best cosines of image m, one per (sample, concept) row, by a 4096 x 128 matrix
  whose row (v, w) holds mask v w times the identity's row v, in four chunks of 1024 rows added to a zero
  accumulator, and divides by the count. Since a * 0 = 0 and a * 1 = a for every extended real and sums of extended
  reals commute and associate, the rows of other samples vanish and the product collapses to the masked sum: no
  finiteness of any input is used. The array program contracts concept * patch where the kernel contracts
  patch * concept: multiplication commutes.

  The three frames: the two kernel programs' are generated whole; the array program's is its run, written by hand
  over the list of its host operations, with the results dropped.
-/
import proofs.«175475_j58832462021083_1_alg».proof.Defs
import proofs.«175475_j58832462021083_1_alg».proof.Proof.Gen.Kernel
import proofs.«175475_j58832462021083_1_alg».proof.Proof.Gen.Kernel.Frame
import proofs.«175475_j58832462021083_1_alg».proof.Proof.Gen.KernelIdeal
import proofs.«175475_j58832462021083_1_alg».proof.Proof.Gen.KernelIdeal.Frame
import proofs.«175475_j58832462021083_1_alg».proof.Proof.Gen.ReferenceIdeal
import proofs.«175475_j58832462021083_1_alg».proof.Proof.Gen.Pre_finite_inputs
import proofs.«175475_j58832462021083_1_alg».proof.Proof.KFinal
import proofs.«175475_j58832462021083_1_alg».proof.Proof.KBridge
import proofs.«175475_j58832462021083_1_alg».proof.Proof.RefValue
import proofs.«175475_j58832462021083_1_alg».proof.Proof.RefRead
import Idealize.ShloMosaic.Adequacy
import Idealize.ShloMosaic.Init

set_option maxRecDepth 16384

noncomputable section

namespace Cert.Proof

open Idealize.ShloMosaic Idealize.SL.Sem Idealize.ShloMosaic.ValueIdx

/-- The array program's image-text matrix is the kernel's first output array: both are the cosine matrix. -/
theorem simIT_eq (a0 a1 : Cert.KernelIdeal.S128x768.Idx → EReal) :
    Cert.ReferenceIdeal.Terms.simIT (F := Ideal) a0 a1 = Cert.KernelIdeal.Whole.G0 a0 a1 := by
  funext idx
  obtain ⟨p, q, rfl⟩ : ∃ (p q : Fin 128), idx = ix2 p q := ⟨idx 0, idx 1, eq_ix2 idx⟩
  exact Cert.ReferenceIdeal.Read.simIT_apply a0 a1 p q

/-- The array program's region-concept matrix is the kernel's second output array at the grouping matrix and counts
    row the host builds: both are the masked mean of the pooled cosines. -/
theorem simRC_eq (a2 : Cert.KernelIdeal.S128x196x768.Idx → EReal) (a3 : Cert.KernelIdeal.S128x32x768.Idx → EReal)
    (a4 : IVec Cert.KernelIdeal.S128 32) :
    Cert.ReferenceIdeal.Terms.simRC (F := Ideal) a2 a3 a4
      = Cert.KernelIdeal.Whole.G1 a2 a3 (Cert.KernelIdeal.Prep.gmask (F := Ideal) a4) (Cert.KernelIdeal.Prep.counts (F := Ideal) a4) := by
  funext idx
  obtain ⟨p, q, rfl⟩ : ∃ (p q : Fin 128), idx = ix2 p q := ⟨idx 0, idx 1, eq_ix2 idx⟩
  exact (Cert.ReferenceIdeal.Read.simRC_apply a2 a3 a4 p q).trans (Cert.KernelIdeal.Bridge.G1_apply a2 a3 a4 p q).symm

/-- So the image-text losses agree. -/
theorem itLoss_eq (a0 a1 : Cert.KernelIdeal.S128x768.Idx → EReal) (a5 a6 : Cert.KernelIdeal.S_.Idx → EReal) :
    Cert.ReferenceIdeal.Terms.itLoss (F := Ideal) a0 a1 a5 a6 = Cert.KernelIdeal.Whole.itK a0 a1 a5 a6 := by
  unfold Cert.ReferenceIdeal.Terms.itLoss Cert.KernelIdeal.Whole.itK
  rw [simIT_eq]

/-- And the region-concept losses. -/
theorem rcLoss_eq (a2 : Cert.KernelIdeal.S128x196x768.Idx → EReal) (a3 : Cert.KernelIdeal.S128x32x768.Idx → EReal)
    (a4 : IVec Cert.KernelIdeal.S128 32) (a5 a6 : Cert.KernelIdeal.S_.Idx → EReal) :
    Cert.ReferenceIdeal.Terms.rcLoss (F := Ideal) a2 a3 a4 a5 a6 = Cert.KernelIdeal.Whole.rcK a2 a3 a4 a5 a6 := by
  unfold Cert.ReferenceIdeal.Terms.rcLoss Cert.KernelIdeal.Whole.rcK
  rw [simRC_eq]

/-- And the totals. -/
theorem total_eq (a0 a1 : Cert.KernelIdeal.S128x768.Idx → EReal) (a2 : Cert.KernelIdeal.S128x196x768.Idx → EReal)
    (a3 : Cert.KernelIdeal.S128x32x768.Idx → EReal) (a4 : IVec Cert.KernelIdeal.S128 32) (a5 a6 : Cert.KernelIdeal.S_.Idx → EReal) :
    Cert.ReferenceIdeal.Terms.total (F := Ideal) a0 a1 a2 a3 a4 a5 a6 = Cert.KernelIdeal.Whole.totK a0 a1 a2 a3 a4 a5 a6 := by
  unfold Cert.ReferenceIdeal.Terms.total Cert.KernelIdeal.Whole.totK
  rw [itLoss_eq, rcLoss_eq]

theorem frame_k : Cert.frame_Kernel := fun m ρ _ => Cert.Kernel.Gen.frame m ρ

theorem frame_ki : Cert.frame_KernelIdeal := fun m ρ _ => Cert.KernelIdeal.Gen.frame m ρ

/-- The array program's frame: its run with the three results dropped. -/
theorem frame_ri : Cert.frame_ReferenceIdeal := fun m ρ _ =>
  (θ_run Cert.ReferenceIdeal.defs _ _).mono (fun _ h c => (h c).2.2.2) (Cert.ReferenceIdeal.HandRun.run (F := Ideal) m ρ)

/-- The ideal pass rewrote nothing: the idealized kernel program is the kernel program's own text read on the
    extended reals. -/
theorem preserves : Cert.preserves_Kernel_KernelIdeal := trivial

/-- From memories agreeing on the arguments both programs end with the same three results: the kernel program's run
    and the array program's run state them at terms that the lemmas above identify. -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono (fun _ h c => ?_) (Cert.ReferenceIdeal.HandRun.run (F := Ideal) m' ρ')
  obtain ⟨e0, e1, e2, e3, e4, e5, e6⟩ := hagree c
  obtain ⟨h95, h39, h93, hargs⟩ := h c
  refine ⟨h95.trans ?_, h39.trans ?_, h93.trans ?_, hargs⟩
  · rw [e0, e1, e2, e3, e4, e5, e6]; exact total_eq _ _ _ _ _ _ _
  · rw [e0, e1, e5, e6]; exact itLoss_eq _ _ _ _
  · rw [e2, e3, e4, e5, e6]; exact rcLoss_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
